-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S64x64 : Shape := ⟨2, ![64, 64]⟩
abbrev S1x64 : Shape := ⟨2, ![1, 64]⟩
abbrev S2400000 : Shape := ⟨1, ![2400000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S2400000 : S_.BroadcastsInDim S2400000 (![] : Fin 0 → Fin S2400000.rank)
  reducesTo_S2400000_S_d0 : S2400000.ReducesTo [0] S_

variable [Facts]

def fn_part4 {F : FTy → Type} [FloatOps F] (main_arg14 : FVec F S2400000 .f32) (main_v63 : IVec S_ 1) (main_v67 : IVec S_ 1) : IVec S_ 1 :=
  let main_v68 : IVec S_ 1 := andi main_v63 main_v67
  let main_v69 : FVec F S2400000 .f32 := Host.absf main_arg14
  let main_cst_26 : FVec F S_ .f32 := constant S_ .f32 0x7F800000#32
  let main_v70 : FVec F S2400000 .f32 := broadcastInDim S2400000 ![] bcast_S_S2400000 main_cst_26
  let main_v71 : IVec S2400000 1 := cmpf .olt main_v69 main_v70
  let main_c_27 : IVec S_ 1 := constantI S_ 1 1#1
  let main_v72 : IVec S_ 1 := (fun x v => Host.reduce IntOp.andi x v reducesTo_S2400000_S_d0 h_S_) main_v71 main_c_27
  let main_v73 : IVec S_ 1 := andi main_v68 main_v72
  main_v73

def fn_part3 {F : FTy → Type} [FloatOps F] (main_arg11 : FVec F S1x64 .f32) (main_arg12 : FVec F S64x64 .f32) (main_arg13 : FVec F S1x64 .f32) (main_arg14 : FVec F S2400000 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S1x64 .f32 := Host.absf main_arg13
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg14 main_v63 main_v67

def fn_part2 {F : FTy → Type} [FloatOps F] (main_arg7 : FVec F S1x64 .f32) (main_arg8 : FVec F S64x64 .f32) (main_arg9 : FVec F S1x64 .f32) (main_arg10 : FVec F S64x64 .f32) (main_arg11 : FVec F S1x64 .f32) (main_arg12 : FVec F S64x64 .f32) (main_arg13 : FVec F S1x64 .f32) (main_arg14 : FVec F S2400000 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S64x64 .f32) (main_arg5 : FVec F S1x64 .f32) (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_arg12 : FVec F S64x64 .f32) (main_arg13 : FVec F S1x64 .f32) (main_arg14 : FVec F S2400000 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x64 .f32) (main_arg1 : FVec F S100000x64 .f32) (main_arg2 : FVec F S64x64 .f32) (main_arg3 : FVec F S1x64 .f32) (main_arg4 : FVec F S64x64 .f32) (main_arg5 : FVec F S1x64 .f32) (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_arg12 : FVec F S64x64 .f32) (main_arg13 : FVec F S1x64 .f32) (main_arg14 : FVec F S2400000 .f32) (main_arg15 : IVec S2400000 32) (main_arg16 : IVec S2400000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x64 : Shape := ⟨2, ![50000, 64]⟩
abbrev S100000x64 : Shape := ⟨2, ![100000, 64]⟩
abbrev S64x64 : Shape := ⟨2, ![64, 64]⟩
abbrev S1x64 : Shape := ⟨2, ![1, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S6000x64 : Shape := ⟨2, ![6000, 64]⟩
abbrev S6000 : Shape := ⟨1, ![6000]⟩
abbrev S6000x1 : Shape := ⟨2, ![6000, 1]⟩
abbrev S150000x256 : Shape := ⟨2, ![150000, 256]⟩

abbrev nBuf : Space → Nat
  | .hbm => 73
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S64x64, .f32⟩
  | .hbm, ⟨3, _⟩ => ⟨S1x64, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S1x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S64x64, .f32⟩
  | .hbm, ⟨13, _⟩ => ⟨S1x64, .f32⟩
  | .hbm, ⟨14, _⟩ => ⟨S2400000, .f32⟩
  | .hbm, ⟨15, _⟩ => ⟨S2400000, .i32⟩
  | .hbm, ⟨16, _⟩ => ⟨S2400000, .i32⟩
  | .hbm, ⟨17, _⟩ => ⟨S150000x64, .f32⟩
  | .hbm, ⟨18, _⟩ => ⟨S2400000x1, .f32⟩
  | .hbm, ⟨19, _⟩ => ⟨S_, .i32⟩
  | .hbm, ⟨20, _⟩ => ⟨S2400000, .i32⟩
  | .hbm, ⟨21, _⟩ => ⟨S2400000, .i1⟩
  | .hbm, ⟨22, _⟩ => ⟨S_, .i32⟩
  | .hbm, ⟨23, _⟩ => ⟨S2400000, .i32⟩
  | .hbm, ⟨24, _⟩ => ⟨S2400000, .i32⟩
  | .hbm, ⟨25, _⟩ => ⟨S2400000, .i32⟩
  | .hbm, ⟨26, _⟩ => ⟨S2400000x1, .i32⟩
  | .hbm, ⟨27, _⟩ => ⟨S2400000x64, .f32⟩
  | .hbm, ⟨28, _⟩ => ⟨S2400000x64, .f32⟩
  | .hbm, ⟨29, _⟩ => ⟨S2400000x64, .f32⟩
  | .hbm, ⟨30, _⟩ => ⟨S_, .f32⟩
  | .hbm, ⟨31, _⟩ => ⟨S150000x64, .f32⟩
  | .hbm, ⟨32, _⟩ => ⟨S2400000x1, .i32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S2400000x1, .f32⟩
  | .hbm, ⟨37, _⟩ => ⟨S_, .i32⟩
  | .hbm, ⟨38, _⟩ => ⟨S2400000, .i32⟩
  | .hbm, ⟨39, _⟩ => ⟨S2400000, .i1⟩
  | .hbm, ⟨40, _⟩ => ⟨S_, .i32⟩
  | .hbm, ⟨41, _⟩ => ⟨S2400000, .i32⟩
  | .hbm, ⟨42, _⟩ => ⟨S2400000, .i32⟩
  | .hbm, ⟨43, _⟩ => ⟨S2400000, .i32⟩
  | .hbm, ⟨44, _⟩ => ⟨S2400000x1, .i32⟩
  | .hbm, ⟨45, _⟩ => ⟨S2400000x64, .f32⟩
  | .hbm, ⟨46, _⟩ => ⟨S2400000x64, .f32⟩
  | .hbm, ⟨47, _⟩ => ⟨S2400000x64, .f32⟩
  | .hbm, ⟨48, _⟩ => ⟨S_, .f32⟩
  | .hbm, ⟨49, _⟩ => ⟨S150000x64, .f32⟩
  | .hbm, ⟨50, _⟩ => ⟨S2400000x1, .i32⟩
  | .hbm, ⟨51, _⟩ => ⟨S150000x64, .f32⟩
  | .hbm, ⟨52, _⟩ => ⟨S150000x64, .f32⟩
  | .hbm, ⟨53, _⟩ => ⟨S150000x64, .f32⟩
  | .hbm, ⟨54, _⟩ => ⟨S2400000x1, .f32⟩
  | .hbm, ⟨55, _⟩ => ⟨S_, .i32⟩
  | .hbm, ⟨56, _⟩ => ⟨S2400000, .i32⟩
  | .hbm, ⟨57, _⟩ => ⟨S2400000, .i1⟩
  | .hbm, ⟨58, _⟩ => ⟨S_, .i32⟩
  | .hbm, ⟨59, _⟩ => ⟨S2400000, .i32⟩
  | .hbm, ⟨60, _⟩ => ⟨S2400000, .i32⟩
  | .hbm, ⟨61, _⟩ => ⟨S2400000, .i32⟩
  | .hbm, ⟨62, _⟩ => ⟨S2400000x1, .i32⟩
  | .hbm, ⟨63, _⟩ => ⟨S2400000x64, .f32⟩
  | .hbm, ⟨64, _⟩ => ⟨S2400000x64, .f32⟩
  | .hbm, ⟨65, _⟩ => ⟨S2400000x64, .f32⟩
  | .hbm, ⟨66, _⟩ => ⟨S_, .f32⟩
  | .hbm, ⟨67, _⟩ => ⟨S150000x64, .f32⟩
  | .hbm, ⟨68, _⟩ => ⟨S2400000x1, .i32⟩
  | .hbm, ⟨69, _⟩ => ⟨S150000x64, .f32⟩
  | .hbm, ⟨70, _⟩ => ⟨S150000x64, .f32⟩
  | .hbm, ⟨71, _⟩ => ⟨S150000x64, .f32⟩
  | .hbm, ⟨72, _⟩ => ⟨S150000x256, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42_0 : Ref sig .tc := ⟨.hbm, 70, rfl⟩
abbrev main_v42_1 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S6000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S50000x64_S100000x64_S150000x64_d0 : Shape.Concatenates [S50000x64, S100000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  broadcasts_S1x64_S6000x64 : S1x64.Broadcasts S6000x64
  reduces_S6000x64_S6000 : S6000x64.Reduces [1] S6000
  shapeCasts_S6000_S6000x1 : S6000.ShapeCasts S6000x1
  broadcasts_S6000x1_S6000x64 : S6000x1.Broadcasts S6000x64
  concatenates_S150000x64_S150000x64_S150000x64_S150000x64_S150000x256_d1 : Shape.Concatenates [S150000x64, S150000x64, S150000x64, S150000x64] S150000x256 1
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S6000x64_S64x64_S6000x64_1_0_0_1_n_n_wf : DotDims.WF S6000x64 S64x64 S6000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6000x64.size a ≤ S150000x64.size a
  hwx0_6 : ∀ i : grid0.Coords, EltTy.bits .f32 = 32 ∨ (Rect.block (s := S150000x64) S6000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x64.size a ≤ S150000x64.size a
  hwx0_7 : ∀ i : grid0.Coords, EltTy.bits .f32 = 32 ∨ (Rect.block (s := S150000x64) S6000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x64.size a ≤ S150000x64.size a
  hwx1_6 : ∀ i : grid1.Coords, EltTy.bits .f32 = 32 ∨ (Rect.block (s := S150000x64) S6000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x64.size a ≤ S150000x64.size a
  hwx1_7 : ∀ i : grid1.Coords, EltTy.bits .f32 = 32 ∨ (Rect.block (s := S150000x64) S6000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S150000x64.size a
  hwx2_1 : ∀ i : grid2.Coords, EltTy.bits .f32 = 32 ∨ (Rect.block (s := S150000x64) S6000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6000x64.size a ≤ S150000x64.size a
  hwx2_6 : ∀ i : grid2.Coords, EltTy.bits .f32 = 32 ∨ (Rect.block (s := S150000x64) S6000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x64.size a ≤ S150000x64.size a
  hwx2_7 : ∀ i : grid2.Coords, EltTy.bits .f32 = 32 ∨ (Rect.block (s := S150000x64) S6000x64.size (cc2_transform_7 i) (hinb2_7 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S6000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S6000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_0) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28_0) S6000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28_1) S6000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28_0) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S6000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S6000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S64x64 : Shape := ⟨2, ![64, 64]⟩
abbrev S1x64 : Shape := ⟨2, ![1, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S150000 : Shape := ⟨1, ![150000]⟩
abbrev S150000x1 : Shape := ⟨2, ![150000, 1]⟩
abbrev S150000x256 : Shape := ⟨2, ![150000, 256]⟩

abbrev nBuf : Space → Nat
  | .hbm => 169
  | .vmem => 0
  | .smem => 0
  | _ => 0

abbrev hbmTy0_0 (i : Nat) : BufTy := match i % 128 with
  | 0 => ⟨S50000x64, .f32⟩
  | 1 => ⟨S100000x64, .f32⟩
  | 2 => ⟨S64x64, .f32⟩
  | 3 => ⟨S1x64, .f32⟩
  | 4 => ⟨S64x64, .f32⟩
  | 5 => ⟨S1x64, .f32⟩
  | 6 => ⟨S64x64, .f32⟩
  | 7 => ⟨S1x64, .f32⟩
  | 8 => ⟨S64x64, .f32⟩
  | 9 => ⟨S1x64, .f32⟩
  | 10 => ⟨S64x64, .f32⟩
  | 11 => ⟨S1x64, .f32⟩
  | 12 => ⟨S64x64, .f32⟩
  | 13 => ⟨S1x64, .f32⟩
  | 14 => ⟨S2400000, .f32⟩
  | 15 => ⟨S2400000, .i32⟩
  | 16 => ⟨S2400000, .i32⟩
  | 17 => ⟨S150000x64, .f32⟩
  | 18 => ⟨S2400000x1, .f32⟩
  | 19 => ⟨S_, .i32⟩
  | 20 => ⟨S2400000, .i32⟩
  | 21 => ⟨S2400000, .i1⟩
  | 22 => ⟨S_, .i32⟩
  | 23 => ⟨S2400000, .i32⟩
  | 24 => ⟨S2400000, .i32⟩
  | 25 => ⟨S2400000, .i32⟩
  | 26 => ⟨S2400000x1, .i32⟩
  | 27 => ⟨S2400000x64, .f32⟩
  | 28 => ⟨S2400000x64, .f32⟩
  | 29 => ⟨S2400000x64, .f32⟩
  | 30 => ⟨S_, .f32⟩
  | 31 => ⟨S150000x64, .f32⟩
  | 32 => ⟨S2400000x1, .i32⟩
  | 33 => ⟨S150000x64, .f32⟩
  | 34 => ⟨S150000x64, .f32⟩
  | 35 => ⟨S150000x64, .f32⟩
  | 36 => ⟨S150000x64, .f32⟩
  | 37 => ⟨S_, .f32⟩
  | 38 => ⟨S_, .f32⟩
  | 39 => ⟨S150000x64, .f32⟩
  | 40 => ⟨S150000x64, .i1⟩
  | 41 => ⟨S_, .f32⟩
  | 42 => ⟨S150000x64, .f32⟩
  | 43 => ⟨S150000x64, .f32⟩
  | 44 => ⟨S150000x64, .f32⟩
  | 45 => ⟨S150000x64, .f32⟩
  | 46 => ⟨S150000x64, .f32⟩
  | 47 => ⟨S150000x64, .f32⟩
  | 48 => ⟨S150000x64, .f32⟩
  | 49 => ⟨S_, .f32⟩
  | 50 => ⟨S_, .f32⟩
  | 51 => ⟨S150000x64, .f32⟩
  | 52 => ⟨S150000x64, .i1⟩
  | 53 => ⟨S_, .f32⟩
  | 54 => ⟨S150000x64, .f32⟩
  | 55 => ⟨S150000x64, .f32⟩
  | 56 => ⟨S150000x64, .f32⟩
  | 57 => ⟨S150000x64, .f32⟩
  | 58 => ⟨S150000x64, .f32⟩
  | 59 => ⟨S_, .f32⟩
  | 60 => ⟨S150000, .f32⟩
  | 61 => ⟨S150000x1, .f32⟩
  | 62 => ⟨S150000x1, .f32⟩
  | 63 => ⟨S_, .f32⟩
  | 64 => ⟨S150000x1, .f32⟩
  | 65 => ⟨S150000x1, .f32⟩
  | 66 => ⟨S150000x64, .f32⟩
  | 67 => ⟨S150000x64, .f32⟩
  | 68 => ⟨S2400000x1, .f32⟩
  | 69 => ⟨S_, .i32⟩
  | 70 => ⟨S2400000, .i32⟩
  | 71 => ⟨S2400000, .i1⟩
  | 72 => ⟨S_, .i32⟩
  | 73 => ⟨S2400000, .i32⟩
  | 74 => ⟨S2400000, .i32⟩
  | 75 => ⟨S2400000, .i32⟩
  | 76 => ⟨S2400000x1, .i32⟩
  | 77 => ⟨S2400000x64, .f32⟩
  | 78 => ⟨S2400000x64, .f32⟩
  | 79 => ⟨S2400000x64, .f32⟩
  | 80 => ⟨S_, .f32⟩
  | 81 => ⟨S150000x64, .f32⟩
  | 82 => ⟨S2400000x1, .i32⟩
  | 83 => ⟨S150000x64, .f32⟩
  | 84 => ⟨S150000x64, .f32⟩
  | 85 => ⟨S150000x64, .f32⟩
  | 86 => ⟨S150000x64, .f32⟩
  | 87 => ⟨S_, .f32⟩
  | 88 => ⟨S_, .f32⟩
  | 89 => ⟨S150000x64, .f32⟩
  | 90 => ⟨S150000x64, .i1⟩
  | 91 => ⟨S_, .f32⟩
  | 92 => ⟨S150000x64, .f32⟩
  | 93 => ⟨S150000x64, .f32⟩
  | 94 => ⟨S150000x64, .f32⟩
  | 95 => ⟨S150000x64, .f32⟩
  | 96 => ⟨S150000x64, .f32⟩
  | 97 => ⟨S150000x64, .f32⟩
  | 98 => ⟨S150000x64, .f32⟩
  | 99 => ⟨S_, .f32⟩
  | 100 => ⟨S_, .f32⟩
  | 101 => ⟨S150000x64, .f32⟩
  | 102 => ⟨S150000x64, .i1⟩
  | 103 => ⟨S_, .f32⟩
  | 104 => ⟨S150000x64, .f32⟩
  | 105 => ⟨S150000x64, .f32⟩
  | 106 => ⟨S150000x64, .f32⟩
  | 107 => ⟨S150000x64, .f32⟩
  | 108 => ⟨S150000x64, .f32⟩
  | 109 => ⟨S_, .f32⟩
  | 110 => ⟨S150000, .f32⟩
  | 111 => ⟨S150000x1, .f32⟩
  | 112 => ⟨S150000x1, .f32⟩
  | 113 => ⟨S_, .f32⟩
  | 114 => ⟨S150000x1, .f32⟩
  | 115 => ⟨S150000x1, .f32⟩
  | 116 => ⟨S150000x64, .f32⟩
  | 117 => ⟨S150000x64, .f32⟩
  | 118 => ⟨S2400000x1, .f32⟩
  | 119 => ⟨S_, .i32⟩
  | 120 => ⟨S2400000, .i32⟩
  | 121 => ⟨S2400000, .i1⟩
  | 122 => ⟨S_, .i32⟩
  | 123 => ⟨S2400000, .i32⟩
  | 124 => ⟨S2400000, .i32⟩
  | 125 => ⟨S2400000, .i32⟩
  | 126 => ⟨S2400000x1, .i32⟩
  | 127 => ⟨S2400000x64, .f32⟩
  | _ => ⟨S50000x64, .f32⟩

abbrev hbmTy0_1 (i : Nat) : BufTy := match i % 128 with
  | 0 => ⟨S2400000x64, .f32⟩
  | 1 => ⟨S2400000x64, .f32⟩
  | 2 => ⟨S_, .f32⟩
  | 3 => ⟨S150000x64, .f32⟩
  | 4 => ⟨S2400000x1, .i32⟩
  | 5 => ⟨S150000x64, .f32⟩
  | 6 => ⟨S150000x64, .f32⟩
  | 7 => ⟨S150000x64, .f32⟩
  | 8 => ⟨S150000x64, .f32⟩
  | 9 => ⟨S_, .f32⟩
  | 10 => ⟨S_, .f32⟩
  | 11 => ⟨S150000x64, .f32⟩
  | 12 => ⟨S150000x64, .i1⟩
  | 13 => ⟨S_, .f32⟩
  | 14 => ⟨S150000x64, .f32⟩
  | 15 => ⟨S150000x64, .f32⟩
  | 16 => ⟨S150000x64, .f32⟩
  | 17 => ⟨S150000x64, .f32⟩
  | 18 => ⟨S150000x64, .f32⟩
  | 19 => ⟨S150000x64, .f32⟩
  | 20 => ⟨S150000x64, .f32⟩
  | 21 => ⟨S_, .f32⟩
  | 22 => ⟨S_, .f32⟩
  | 23 => ⟨S150000x64, .f32⟩
  | 24 => ⟨S150000x64, .i1⟩
  | 25 => ⟨S_, .f32⟩
  | 26 => ⟨S150000x64, .f32⟩
  | 27 => ⟨S150000x64, .f32⟩
  | 28 => ⟨S150000x64, .f32⟩
  | 29 => ⟨S150000x64, .f32⟩
  | 30 => ⟨S150000x64, .f32⟩
  | 31 => ⟨S_, .f32⟩
  | 32 => ⟨S150000, .f32⟩
  | 33 => ⟨S150000x1, .f32⟩
  | 34 => ⟨S150000x1, .f32⟩
  | 35 => ⟨S_, .f32⟩
  | 36 => ⟨S150000x1, .f32⟩
  | 37 => ⟨S150000x1, .f32⟩
  | 38 => ⟨S150000x64, .f32⟩
  | 39 => ⟨S150000x64, .f32⟩
  | 40 => ⟨S150000x256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v22 : Ref sig .tc := ⟨.hbm, 56, rfl⟩
abbrev main_v23 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v24 : Ref sig .tc := ⟨.hbm, 62, rfl⟩
abbrev main_cst_3 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_4 : Ref sig .tc := ⟨.hbm, 69, rfl⟩
abbrev main_v30 : Ref sig .tc := ⟨.hbm, 70, rfl⟩
abbrev main_v31 : Ref sig .tc := ⟨.hbm, 71, rfl⟩
abbrev main_c_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_7 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_8 : Ref sig .tc := ⟨.hbm, 99, rfl⟩
abbrev main_call4_cst : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v50 : Ref sig .tc := ⟨.hbm, 106, rfl⟩
abbrev main_v51 : Ref sig .tc := ⟨.hbm, 107, rfl⟩
abbrev main_call5_v0 : Ref sig .tc := ⟨.hbm, 108, rfl⟩
abbrev main_call5_cst : Ref sig .tc := ⟨.hbm, 109, rfl⟩
abbrev main_call5_v1 : Ref sig .tc := ⟨.hbm, 110, rfl⟩
abbrev main_call5_v2 : Ref sig .tc := ⟨.hbm, 111, rfl⟩
abbrev main_v52 : Ref sig .tc := ⟨.hbm, 112, rfl⟩
abbrev main_cst_9 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c_10 : Ref sig .tc := ⟨.hbm, 119, rfl⟩
abbrev main_v58 : Ref sig .tc := ⟨.hbm, 120, rfl⟩
abbrev main_v59 : Ref sig .tc := ⟨.hbm, 121, rfl⟩
abbrev main_c_11 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_12 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_cst_13 : Ref sig .tc := ⟨.hbm, 137, rfl⟩
abbrev main_call6_cst : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_cst_14 : Ref sig .tc := ⟨.hbm, 149, rfl⟩
abbrev main_call7_cst : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_v78 : Ref sig .tc := ⟨.hbm, 156, rfl⟩
abbrev main_v79 : Ref sig .tc := ⟨.hbm, 157, rfl⟩
abbrev main_call8_v0 : Ref sig .tc := ⟨.hbm, 158, rfl⟩
abbrev main_call8_cst : Ref sig .tc := ⟨.hbm, 159, rfl⟩
abbrev main_call8_v1 : Ref sig .tc := ⟨.hbm, 160, rfl⟩
abbrev main_call8_v2 : Ref sig .tc := ⟨.hbm, 161, rfl⟩
abbrev main_v80 : Ref sig .tc := ⟨.hbm, 162, rfl⟩
abbrev main_cst_15 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩

abbrev nD : Nat := 1
abbrev τ : Topo := Topo.v7x

variable {F : FTy → Type} [FloatOps F]

class Facts₀ : Prop where
  concatenates_S50000x64_S100000x64_S150000x64_d0 : Shape.Concatenates [S50000x64, S100000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  concatenates_S150000x64_S150000x64_S150000x64_S150000x64_S150000x256_d1 : Shape.Concatenates [S150000x64, S150000x64, S150000x64, S150000x64] S150000x256 1
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.KDat.lean ====
/-
  The three layers' proof data: for each pallas_call, what every window's staging buffer holds after the body at a grid
  point, as a function of the arrays the layer is entered with. A layer's body loads its six input blocks whole,
  computes two blocks from them and stores each whole; so after the body an input's buffer still holds its block and an
  output's buffer holds that payload of the six input blocks.
-/
import proofs.«161637_j18365280158072_1_alg».proof.Proof.Gen.Kernel.Launch
import proofs.«161637_j18365280158072_1_alg».proof.Proof.Gen.Kernel.Skeleton
import proofs.«161637_j18365280158072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The whole-buffer rectangles the body loads and stores through: a row block, a weight matrix, a bias row. -/
abbrev rT : Rect S6000x64 := Rect.unit (s := S6000x64) ![0, 0] S6000x64.size inb_S6000x64_S6000x64_0_0
abbrev rM : Rect S64x64 := Rect.unit (s := S64x64) ![0, 0] S64x64.size inb_S64x64_S64x64_0_0
abbrev rB : Rect S1x64 := Rect.unit (s := S1x64) ![0, 0] S1x64.size inb_S1x64_S1x64_0_0

section Regions
-- the TensorCore's buffer contents when a layer is entered: the parameter each layer's data is stated at
variable (V : (c : Dev nD) → (b : Ref sig .tc) → Buf (Elt F) ((c : Thread nD τ).loc b))

/-! ## Layer 0 (the pallas_call number 0): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The new table's block from the six input blocks: the body's one store of its first payload. -/
def out0_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k0_pay1 (View.ld x0 rT) (View.ld x1 rT) (View.ld x2 rM) (View.ld x4 rM) (View.ld x3 rB) (View.ld x5 rB)⟩]

/-- The normalised table's block from the six input blocks: the body's one store of its second payload. -/
def out0_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k0_pay2 (View.ld x0 rT) (View.ld x1 rT) (View.ld x2 rM) (View.ld x4 rM) (View.ld x3 rB) (View.ld x5 rB)⟩]

/-- The proof data of layer 0 on core `c`: the arrays as the layer finds them; after the body at point `t` each
    input's buffer at its block and each output's at its function of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-! ## Layer 1 (the pallas_call number 1): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new table's block from the six input blocks: the body's one store of its first payload. -/
def out1_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k1_pay1 (View.ld x0 rT) (View.ld x1 rT) (View.ld x2 rM) (View.ld x4 rM) (View.ld x3 rB) (View.ld x5 rB)⟩]

/-- The normalised table's block from the six input blocks: the body's one store of its second payload. -/
def out1_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k1_pay2 (View.ld x0 rT) (View.ld x1 rT) (View.ld x2 rM) (View.ld x4 rM) (View.ld x3 rB) (View.ld x5 rB)⟩]

/-- The proof data of layer 1 on core `c`: the arrays as the layer finds them; after the body at point `t` each
    input's buffer at its block and each output's at its function of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-! ## Layer 2 (the pallas_call number 2): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The new table's block from the six input blocks: the body's one store of its first payload. -/
def out2_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k2_pay1 (View.ld x0 rT) (View.ld x1 rT) (View.ld x2 rM) (View.ld x4 rM) (View.ld x3 rB) (View.ld x5 rB)⟩]

/-- The normalised table's block from the six input blocks: the body's one store of its second payload. -/
def out2_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k2_pay2 (View.ld x0 rT) (View.ld x1 rT) (View.ld x2 rM) (View.ld x4 rM) (View.ld x3 rB) (View.ld x5 rB)⟩]

/-- The proof data of layer 2 on core `c`: the arrays as the layer finds them; after the body at point `t` each
    input's buffer at its block and each output's at its function of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

end Regions

end Cert.Kernel.Hand

end
-- ==== Proof.KFold.lean ====
/-
  The buffer contents at the boundaries of @main's seven segments, as a fold from the launch memory: a stretch of host
  operations maps the contents by its operations' composed function; a layer's pallas_call leaves every buffer as it
  found it except its arrays, which end at what its write-backs leave.
-/
import proofs.«161637_j18365280158072_1_alg».proof.Proof.KDat
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the first stretch of host operations (the starting table and its sparse product). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After layer 0. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (the sparse product of layer 0's table). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After layer 1. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third stretch (the sparse product of layer 1's table). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- After layer 2. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last stretch (the four tables side by side): the contents at the return. -/
abbrev W7 (c : Dev nD) : Valuation τ sig (Elt F) := StableHlo.after hostOps3 (W6 m c)

/-! ### A layer's arrays at its exit, every other buffer as at its entry -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

end Cert.Kernel.Hand

end
-- ==== Proof.KKeep.lean ====
/-
  What a layer's pallas_call leaves alone: every buffer except its two output arrays.
-/
import proofs.«161637_j18365280158072_1_alg».proof.Proof.KFold
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Layer 0 changes only its two output arrays: any other buffer keeps its entry contents (an input window's array
    is never written back; a buffer that is no window's array is not touched). -/
theorem W2_keep (c : Dev nD) (b : Ref sig .tc) (h6 : b ≠ main_v14_0) (h7 : b ≠ main_v14_1) :
    W2 m c (Proc.devRef .tc b) = W1 m c (Proc.devRef .tc b) := by
  by_cases h : ∃ w, Pipeline.arrRef spec0 w = b
  · obtain ⟨w, rfl⟩ := h
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact (W2_arr m c 2).trans (((dat0 (V1 m) c).arrAt_in 2 rfl _).trans (A_eq0 (V1 m) c 2))
    | ⟨3, _⟩ => exact (W2_arr m c 3).trans (((dat0 (V1 m) c).arrAt_in 3 rfl _).trans (A_eq0 (V1 m) c 3))
    | ⟨4, _⟩ => exact (W2_arr m c 4).trans (((dat0 (V1 m) c).arrAt_in 4 rfl _).trans (A_eq0 (V1 m) c 4))
    | ⟨5, _⟩ => exact (W2_arr m c 5).trans (((dat0 (V1 m) c).arrAt_in 5 rfl _).trans (A_eq0 (V1 m) c 5))
    | ⟨6, _⟩ => exact absurd rfl h6
    | ⟨7, _⟩ => exact absurd rfl h7
  · exact W2_of_ne m c b fun w e => h ⟨w, e⟩

/-- Layer 1 changes only its two output arrays: any other buffer keeps its entry contents (an input window's array
    is never written back; a buffer that is no window's array is not touched). -/
theorem W4_keep (c : Dev nD) (b : Ref sig .tc) (h6 : b ≠ main_v28_0) (h7 : b ≠ main_v28_1) :
    W4 m c (Proc.devRef .tc b) = W3 m c (Proc.devRef .tc b) := by
  by_cases h : ∃ w, Pipeline.arrRef spec1 w = b
  · obtain ⟨w, rfl⟩ := h
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact (W4_arr m c 4).trans (((dat1 (V3 m) c).arrAt_in 4 rfl _).trans (A_eq1 (V3 m) c 4))
    | ⟨5, _⟩ => exact (W4_arr m c 5).trans (((dat1 (V3 m) c).arrAt_in 5 rfl _).trans (A_eq1 (V3 m) c 5))
    | ⟨6, _⟩ => exact absurd rfl h6
    | ⟨7, _⟩ => exact absurd rfl h7
  · exact W4_of_ne m c b fun w e => h ⟨w, e⟩

/-- Layer 2 changes only its two output arrays: any other buffer keeps its entry contents (an input window's array
    is never written back; a buffer that is no window's array is not touched). -/
theorem W6_keep (c : Dev nD) (b : Ref sig .tc) (h6 : b ≠ main_v42_0) (h7 : b ≠ main_v42_1) :
    W6 m c (Proc.devRef .tc b) = W5 m c (Proc.devRef .tc b) := by
  by_cases h : ∃ w, Pipeline.arrRef spec2 w = b
  · obtain ⟨w, rfl⟩ := h
    match w with
    | ⟨0, _⟩ => exact (W6_arr m c 0).trans (((dat2 (V5 m) c).arrAt_in 0 rfl _).trans (A_eq2 (V5 m) c 0))
    | ⟨1, _⟩ => exact (W6_arr m c 1).trans (((dat2 (V5 m) c).arrAt_in 1 rfl _).trans (A_eq2 (V5 m) c 1))
    | ⟨2, _⟩ => exact (W6_arr m c 2).trans (((dat2 (V5 m) c).arrAt_in 2 rfl _).trans (A_eq2 (V5 m) c 2))
    | ⟨3, _⟩ => exact (W6_arr m c 3).trans (((dat2 (V5 m) c).arrAt_in 3 rfl _).trans (A_eq2 (V5 m) c 3))
    | ⟨4, _⟩ => exact (W6_arr m c 4).trans (((dat2 (V5 m) c).arrAt_in 4 rfl _).trans (A_eq2 (V5 m) c 4))
    | ⟨5, _⟩ => exact (W6_arr m c 5).trans (((dat2 (V5 m) c).arrAt_in 5 rfl _).trans (A_eq2 (V5 m) c 5))
    | ⟨6, _⟩ => exact absurd rfl h6
    | ⟨7, _⟩ => exact absurd rfl h7
  · exact W6_of_ne m c b fun w e => h ⟨w, e⟩

end Cert.Kernel.Hand

end
-- ==== Proof.KBody0.lean ====
/-
  Layer 0's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KDat
import proofs.«161637_j18365280158072_1_alg».proof.Proof.Gen.Kernel.Launch
import proofs.«161637_j18365280158072_1_alg».proof.Proof.Gen.Kernel.Skeleton
import proofs.«161637_j18365280158072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: where the window is not fetched its block index has
    not moved, so the block left by the point before is this point's. The window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: where the window is not fetched its block index has
    not moved, so the block left by the point before is this point's. The window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: where the window is not fetched its block index has
    not moved, so the block left by the point before is this point's. The window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: where the window is not fetched its block index has
    not moved, so the block left by the point before is this point's. The window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s and whose body leaves the block in place: where the window is not fetched its block index has
    not moved, so the block left by the point before is this point's. The window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Each output's one store covers its buffer -/

/-- The one whole-buffer store of the first output is a tiling of its buffer by a single block, so it covers it. -/
theorem cover0_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover0_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out0_6` and `out0_7` of the inputs':
    the six loads read the inputs' contents through whole-buffer rectangles, and each output's contents after its
    store read as the store's payload everywhere, the store covering the buffer. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The inputs' buffers at the layer's own proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the eight windows' current
    staging buffers, each at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 0's pipeline, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBody1.lean ====
/-
  Layer 1's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KDat
import proofs.«161637_j18365280158072_1_alg».proof.Proof.Gen.Kernel.Launch
import proofs.«161637_j18365280158072_1_alg».proof.Proof.Gen.Kernel.Skeleton
import proofs.«161637_j18365280158072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: where the window is not fetched its block index has
    not moved, so the block left by the point before is this point's. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: where the window is not fetched its block index has
    not moved, so the block left by the point before is this point's. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: where the window is not fetched its block index has
    not moved, so the block left by the point before is this point's. The window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: where the window is not fetched its block index has
    not moved, so the block left by the point before is this point's. The window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s and whose body leaves the block in place: where the window is not fetched its block index has
    not moved, so the block left by the point before is this point's. The window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

/-- The one whole-buffer store of the first output is a tiling of its buffer by a single block, so it covers it. -/
theorem cover1_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover1_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out1_6` and `out1_7` of the inputs':
    the six loads read the inputs' contents through whole-buffer rectangles, and each output's contents after its
    store read as the store's payload everywhere, the store covering the buffer. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The inputs' buffers at the layer's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and the eight windows' current
    staging buffers, each at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 1's pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBody2.lean ====
/-
  Layer 2's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KDat
import proofs.«161637_j18365280158072_1_alg».proof.Proof.Gen.Kernel.Launch
import proofs.«161637_j18365280158072_1_alg».proof.Proof.Gen.Kernel.Skeleton
import proofs.«161637_j18365280158072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: where the window is not fetched its block index has
    not moved, so the block left by the point before is this point's. The window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: where the window is not fetched its block index has
    not moved, so the block left by the point before is this point's. The window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: where the window is not fetched its block index has
    not moved, so the block left by the point before is this point's. The window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: where the window is not fetched its block index has
    not moved, so the block left by the point before is this point's. The window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: where the window is not fetched its block index has
    not moved, so the block left by the point before is this point's. The window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Each output's one store covers its buffer -/

/-- The one whole-buffer store of the first output is a tiling of its buffer by a single block, so it covers it. -/
theorem cover2_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover2_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out2_6` and `out2_7` of the inputs':
    the six loads read the inputs' contents through whole-buffer rectangles, and each output's contents after its
    store read as the store's payload everywhere, the store covering the buffer. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-! ## The inputs' buffers at the layer's own proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, what the core owes, and the eight windows' current
    staging buffers, each at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 2's pipeline, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KRun.lean ====
/-
  The whole of @main: its seven segments — four stretches of host operations and the three layers' pallas_calls between
  them — run one after the other from the launch memory without a fault; the thread state at each boundary is every
  unscoped buffer at that boundary's contents (the fold `W0 … W7`) beside the generator register and nothing owed. At the
  return the result buffer holds `W7` there, and every argument array holds what it was launched with: no host
  operation writes an argument, and a layer changes only its two output arrays.
-/
import proofs.«161637_j18365280158072_1_alg».proof.Proof.KFold
import proofs.«161637_j18365280158072_1_alg».proof.Proof.KKeep
import proofs.«161637_j18365280158072_1_alg».proof.Proof.KBody0
import proofs.«161637_j18365280158072_1_alg».proof.Proof.KBody1
import proofs.«161637_j18365280158072_1_alg».proof.Proof.KBody2
import proofs.«161637_j18365280158072_1_alg».proof.Proof.Gen.Kernel.Launch
import proofs.«161637_j18365280158072_1_alg».proof.Proof.Gen.Kernel.Skeleton
import proofs.«161637_j18365280158072_1_alg».proof.Proof.Gen.Kernel.Points
import proofs.«161637_j18365280158072_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## A layer's exit contents against its entry contents -/

/-- At layer 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at layer 1's exit. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The same at layer 2's exit. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched

No host operation writes an argument array and a layer changes only its two output arrays, so the fold at an
argument's buffer walks back, boundary by boundary, to the launch memory. -/

/-- A buffer that no stretch of host operations writes and that is no layer's output array holds at the return what it
    held at launch. -/
theorem W7_untouched (c : Dev nD) (b : Ref sig .tc) (h0 : b ∉ hostOps0_W) (h1 : b ∉ hostOps1_W) (h2 : b ∉ hostOps2_W) (h3 : b ∉ hostOps3_W)
    (a0 : b ≠ main_v14_0) (a1 : b ≠ main_v14_1) (a2 : b ≠ main_v28_0) (a3 : b ≠ main_v28_1) (a4 : b ≠ main_v42_0) (a5 : b ≠ main_v42_1) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_keep m c b a4 a5
    _ = W4 m c (Proc.devRef .tc b) := StableHlo.after_of_writes_sub hostOps2 _ hostOps2_writes h2
    _ = W3 m c (Proc.devRef .tc b) := W4_keep m c b a2 a3
    _ = W2 m c (Proc.devRef .tc b) := StableHlo.after_of_writes_sub hostOps1 _ hostOps1_writes h1
    _ = W1 m c (Proc.devRef .tc b) := W2_keep m c b a0 a1
    _ = W0 m c (Proc.devRef .tc b) := StableHlo.after_of_writes_sub hostOps0 _ hostOps0_writes h0
    _ = m ((c : Thread nD τ).loc b) := rfl

theorem W7_main_arg0 (c : Dev nD) : W7 m c (Proc.devRef .tc main_arg0) = m ((c : Thread nD τ).loc main_arg0) :=
  W7_untouched m c main_arg0 (by decide) (by decide) (by decide) (by decide) (by decide) (by decide) (by decide) (by decide) (by decide) (by decide)
theorem W7_main_arg1 (c : Dev nD) : W7 m c (Proc.devRef .tc main_arg1) = m ((c : Thread nD τ).loc main_arg1) :=
  W7_untouched m c main_arg1 (by decide) (by decide) (by decide) (by decide) (by decide) (by decide) (by decide) (by decide) (by decide) (by decide)
theorem W7_main_arg2 (c : Dev nD) : W7 m c (Proc.devRef .tc main_arg2) = m ((c : Thread nD τ).loc main_arg2) :=
  W7_untouched m c main_arg2 (by decide) (by decide) (by decide) (by decide) (by decide) (by decide) (by decide) (by decide) (by decide) (by decide)
theorem W7_main_arg3 (c : Dev nD) : W7 m c (Proc.devRef .tc main_arg3) = m ((c : Thread nD τ).loc main_arg3) :=
  W7_untouched m c main_arg3 (by decide) (by decide) (by decide) (by decide) (by decide) (by decide) (by decide) (by decide) (by decide) (by decide)
theorem W7_main_arg4 (c : Dev nD) : W7 m c (Proc.devRef .tc main_arg4) = m ((c : Thread nD τ).loc main_arg4) :=
  W7_untouched m c main_arg4 (by decide) (by decide) (by decide) (by decide) (by decide) (by decide) (by decide) (by decide) (by decide) (by decide)
theorem W7_main_arg5 (c : Dev nD) : W7 m c (Proc.devRef .tc main_arg5) = m ((c : Thread nD τ).loc main_arg5) :=
  W7_untouched m c main_arg5 (by decide) (by decide) (by decide) (by decide) (by decide) (by decide) (by decide) (by decide) (by decide) (by decide)
theorem W7_main_arg6 (c : Dev nD) : W7 m c (Proc.devRef .tc main_arg6) = m ((c : Thread nD τ).loc main_arg6) :=
  W7_untouched m c main_arg6 (by decide) (by decide) (by decide) (by decide) (by decide) (by decide) (by decide) (by decide) (by decide) (by decide)
theorem W7_main_arg7 (c : Dev nD) : W7 m c (Proc.devRef .tc main_arg7) = m ((c : Thread nD τ).loc main_arg7) :=
  W7_untouched m c main_arg7 (by decide) (by decide) (by decide) (by decide) (by decide) (by decide) (by decide) (by decide) (by decide) (by decide)
theorem W7_main_arg8 (c : Dev nD) : W7 m c (Proc.devRef .tc main_arg8) = m ((c : Thread nD τ).loc main_arg8) :=
  W7_untouched m c main_arg8 (by decide) (by decide) (by decide) (by decide) (by decide) (by decide) (by decide) (by decide) (by decide) (by decide)
theorem W7_main_arg9 (c : Dev nD) : W7 m c (Proc.devRef .tc main_arg9) = m ((c : Thread nD τ).loc main_arg9) :=
  W7_untouched m c main_arg9 (by decide) (by decide) (by decide) (by decide) (by decide) (by decide) (by decide) (by decide) (by decide) (by decide)
theorem W7_main_arg10 (c : Dev nD) : W7 m c (Proc.devRef .tc main_arg10) = m ((c : Thread nD τ).loc main_arg10) :=
  W7_untouched m c main_arg10 (by decide) (by decide) (by decide) (by decide) (by decide) (by decide) (by decide) (by decide) (by decide) (by decide)
theorem W7_main_arg11 (c : Dev nD) : W7 m c (Proc.devRef .tc main_arg11) = m ((c : Thread nD τ).loc main_arg11) :=
  W7_untouched m c main_arg11 (by decide) (by decide) (by decide) (by decide) (by decide) (by decide) (by decide) (by decide) (by decide) (by decide)
theorem W7_main_arg12 (c : Dev nD) : W7 m c (Proc.devRef .tc main_arg12) = m ((c : Thread nD τ).loc main_arg12) :=
  W7_untouched m c main_arg12 (by decide) (by decide) (by decide) (by decide) (by decide) (by decide) (by decide) (by decide) (by decide) (by decide)
theorem W7_main_arg13 (c : Dev nD) : W7 m c (Proc.devRef .tc main_arg13) = m ((c : Thread nD τ).loc main_arg13) :=
  W7_untouched m c main_arg13 (by decide) (by decide) (by decide) (by decide) (by decide) (by decide) (by decide) (by decide) (by decide) (by decide)
theorem W7_main_arg14 (c : Dev nD) : W7 m c (Proc.devRef .tc main_arg14) = m ((c : Thread nD τ).loc main_arg14) :=
  W7_untouched m c main_arg14 (by decide) (by decide) (by decide) (by decide) (by decide) (by decide) (by decide) (by decide) (by decide) (by decide)
theorem W7_main_arg15 (c : Dev nD) : W7 m c (Proc.devRef .tc main_arg15) = m ((c : Thread nD τ).loc main_arg15) :=
  W7_untouched m c main_arg15 (by decide) (by decide) (by decide) (by decide) (by decide) (by decide) (by decide) (by decide) (by decide) (by decide)
theorem W7_main_arg16 (c : Dev nD) : W7 m c (Proc.devRef .tc main_arg16) = m ((c : Thread nD τ).loc main_arg16) :=
  W7_untouched m c main_arg16 (by decide) (by decide) (by decide) (by decide) (by decide) (by decide) (by decide) (by decide) (by decide) (by decide)

/-! ## The proof data family and the thread state -/

/-- Every pipeline's proof data, each at its layer's entry contents — a literal match on the pipeline's number, so that
    the pinned configuration at a numeral reduces to the printed one. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A stretch of host operations as a segment: over the unscoped buffers from the contents `W`, `R` riding along; it
    ends with those buffers at the operations' composed function of `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W7`, the
    generator register at some state. -/
abbrev Tₙ (c : Dev nD) : sProp 𝕄 := iprop(StableHlo.held (c : Thread nD τ) (Pipeline.ucRefs τ sig) (W7 m c) ∗ ∃ r, prngReg c r)

/-! ## The layers as segments -/

-- a library lemma stated over the pinned configuration unifies with the printed one only when unification may unfold
-- plain definitions in a metavariable's type
set_option backward.isDefEq.respectTransparency.types false in
/-- Layer 0's pallas_call over the thread state: entered from every unscoped buffer at `W1`, left at `W2`. Its
    eight arrays are split out of the unscoped buffers and put back at what the write-backs leave; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 1's pallas_call over the thread state: entered from every unscoped buffer at `W3`, left at `W4`. Its
    eight arrays are split out of the unscoped buffers and put back at what the write-backs leave; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2's pallas_call over the thread state: entered from every unscoped buffer at `W5`, left at `W6`. Its
    eight arrays are split out of the unscoped buffers and put back at what the write-backs leave; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments -/

/-- The first stretch, from the launch contents. -/
abbrev hs0 : Pipeline.HostSeg (Name := ℕ) (U := Pipeline.UD sig nD τ) (pcfgs (F := F)) defs₀ 𝒱₀ L lv := hseg hostOps0 hostOps0_sub hostOps0_fresh (W0 m)
/-- The second, from layer 0's exit contents. -/
abbrev hs1 : Pipeline.HostSeg (Name := ℕ) (U := Pipeline.UD sig nD τ) (pcfgs (F := F)) defs₀ 𝒱₀ L lv := hseg hostOps1 hostOps1_sub hostOps1_fresh (W2 m)
/-- The third, from layer 1's exit contents. -/
abbrev hs2 : Pipeline.HostSeg (Name := ℕ) (U := Pipeline.UD sig nD τ) (pcfgs (F := F)) defs₀ 𝒱₀ L lv := hseg hostOps2 hostOps2_sub hostOps2_fresh (W4 m)
/-- The last, from layer 2's exit contents. -/
abbrev hs3 : Pipeline.HostSeg (Name := ℕ) (U := Pipeline.UD sig nD τ) (pcfgs (F := F)) defs₀ 𝒱₀ L lv := hseg hostOps3 hostOps3_sub hostOps3_fresh (W6 m)

/-! ## @main as segments, and the launch -/

/-- @main's seven segments in order. -/
abbrev segs : List (Pipeline.Seg (pcfgs (F := F)) adm (pdats m) () defs₀ 𝒱₀ L lv) :=
  [ .host (hs0 m),
    .region (reg0 m),
    .host (hs1 m),
    .region (reg1 m),
    .host (hs2 m),
    .region (reg2 m),
    .host (hs3 m) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at `W7` and every argument array as
    launched: the launch over the seven segments, the last thread state read against the final state. -/
theorem run_named (ρ : Dev nD → PrngReg) :
    θ_run (defs (F := F)) (onTc (τ := τ) (main (F := F))) ⟨m, fun _ => 0, ρ⟩ (fun r => ∀ c : Dev nD,
      r.2.mem ((c.tc : Thread nD τ).loc main_v43) = W7 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v43 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c),
       (h c _ (mem_uc main_arg6 (by decide))).trans (W7_main_arg6 m c),
       (h c _ (mem_uc main_arg7 (by decide))).trans (W7_main_arg7 m c),
       (h c _ (mem_uc main_arg8 (by decide))).trans (W7_main_arg8 m c),
       (h c _ (mem_uc main_arg9 (by decide))).trans (W7_main_arg9 m c),
       (h c _ (mem_uc main_arg10 (by decide))).trans (W7_main_arg10 m c),
       (h c _ (mem_uc main_arg11 (by decide))).trans (W7_main_arg11 m c),
       (h c _ (mem_uc main_arg12 (by decide))).trans (W7_main_arg12 m c),
       (h c _ (mem_uc main_arg13 (by decide))).trans (W7_main_arg13 m c),
       (h c _ (mem_uc main_arg14 (by decide))).trans (W7_main_arg14 m c),
       (h c _ (mem_uc main_arg15 (by decide))).trans (W7_main_arg15 m c),
       (h c _ (mem_uc main_arg16 (by decide))).trans (W7_main_arg16 m c)⟩)

/-- The frame: from any memory with zero counters every weakly fair execution of @main terminates without a fault and
    every final state has every argument array as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_named m ρ)

end Cert.Kernel.Hand

end
-- ==== Proof.KIDat.lean ====
/-
  The three layers' proof data: for each pallas_call, what every window's staging buffer holds after the body at a grid
  point, as a function of the arrays the layer is entered with. A layer's body loads its six input blocks whole,
  computes two blocks from them and stores each whole; so after the body an input's buffer still holds its block and an
  output's buffer holds that payload of the six input blocks.
-/
import proofs.«161637_j18365280158072_1_alg».proof.Proof.Gen.KernelIdeal.Launch
import proofs.«161637_j18365280158072_1_alg».proof.Proof.Gen.KernelIdeal.Skeleton
import proofs.«161637_j18365280158072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The whole-buffer rectangles the body loads and stores through: a row block, a weight matrix, a bias row. -/
abbrev rT : Rect S6000x64 := Rect.unit (s := S6000x64) ![0, 0] S6000x64.size inb_S6000x64_S6000x64_0_0
abbrev rM : Rect S64x64 := Rect.unit (s := S64x64) ![0, 0] S64x64.size inb_S64x64_S64x64_0_0
abbrev rB : Rect S1x64 := Rect.unit (s := S1x64) ![0, 0] S1x64.size inb_S1x64_S1x64_0_0

section Regions
-- the TensorCore's buffer contents when a layer is entered: the parameter each layer's data is stated at
variable (V : (c : Dev nD) → (b : Ref sig .tc) → Buf (Elt F) ((c : Thread nD τ).loc b))

/-! ## Layer 0 (the pallas_call number 0): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The new table's block from the six input blocks: the body's one store of its first payload. -/
def out0_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k0_pay1 (View.ld x0 rT) (View.ld x1 rT) (View.ld x2 rM) (View.ld x4 rM) (View.ld x3 rB) (View.ld x5 rB)⟩]

/-- The normalised table's block from the six input blocks: the body's one store of its second payload. -/
def out0_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k0_pay2 (View.ld x0 rT) (View.ld x1 rT) (View.ld x2 rM) (View.ld x4 rM) (View.ld x3 rB) (View.ld x5 rB)⟩]

/-- The proof data of layer 0 on core `c`: the arrays as the layer finds them; after the body at point `t` each
    input's buffer at its block and each output's at its function of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-! ## Layer 1 (the pallas_call number 1): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The new table's block from the six input blocks: the body's one store of its first payload. -/
def out1_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k1_pay1 (View.ld x0 rT) (View.ld x1 rT) (View.ld x2 rM) (View.ld x4 rM) (View.ld x3 rB) (View.ld x5 rB)⟩]

/-- The normalised table's block from the six input blocks: the body's one store of its second payload. -/
def out1_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k1_pay2 (View.ld x0 rT) (View.ld x1 rT) (View.ld x2 rM) (View.ld x4 rM) (View.ld x3 rB) (View.ld x5 rB)⟩]

/-- The proof data of layer 1 on core `c`: the arrays as the layer finds them; after the body at point `t` each
    input's buffer at its block and each output's at its function of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-! ## Layer 2 (the pallas_call number 2): the windows' blocks, what the body leaves, the proof data

Windows 0 and 1 are the row blocks (6000 rows) of the embedding table and of its sparse product; windows 2–5 are the
two weight matrices and the two bias rows, whole at every point; windows 6 and 7 are the row blocks of the new table
and of its row-normalised form. -/

/-- Window `w`'s block at point `t`, read off its array as the layer finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The new table's block from the six input blocks: the body's one store of its first payload. -/
def out2_6 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k2_pay1 (View.ld x0 rT) (View.ld x1 rT) (View.ld x2 rM) (View.ld x4 rM) (View.ld x3 rB) (View.ld x5 rB)⟩]

/-- The normalised table's block from the six input blocks: the body's one store of its second payload. -/
def out2_7 (x0 x1 : Vec F S6000x64 .f32) (x2 : Vec F S64x64 .f32) (x3 : Vec F S1x64 .f32) (x4 : Vec F S64x64 .f32) (x5 : Vec F S1x64 .f32) : Vec F S6000x64 .f32 :=
  View.canon [⟨rT, k2_pay2 (View.ld x0 rT) (View.ld x1 rT) (View.ld x2 rM) (View.ld x4 rM) (View.ld x3 rB) (View.ld x5 rB)⟩]

/-- The proof data of layer 2 on core `c`: the arrays as the layer finds them; after the body at point `t` each
    input's buffer at its block and each output's at its function of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

end Regions

end Cert.KernelIdeal.Hand

end
-- ==== Proof.KIFold.lean ====
/-
  The buffer contents at the boundaries of @main's seven segments, as a fold from the launch memory: a stretch of host
  operations maps the contents by its operations' composed function; a layer's pallas_call leaves every buffer as it
  found it except its arrays, which end at what its write-backs leave.
-/
import proofs.«161637_j18365280158072_1_alg».proof.Proof.KIDat
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the first stretch of host operations (the starting table and its sparse product). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After layer 0. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (the sparse product of layer 0's table). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After layer 1. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third stretch (the sparse product of layer 1's table). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- After layer 2. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last stretch (the four tables side by side): the contents at the return. -/
abbrev W7 (c : Dev nD) : Valuation τ sig (Elt F) := StableHlo.after hostOps3 (W6 m c)

/-! ### A layer's arrays at its exit, every other buffer as at its entry -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

end Cert.KernelIdeal.Hand

end
-- ==== Proof.KIKeep.lean ====
/-
  What a layer's pallas_call leaves alone: every buffer except its two output arrays.
-/
import proofs.«161637_j18365280158072_1_alg».proof.Proof.KIFold
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Layer 0 changes only its two output arrays: any other buffer keeps its entry contents (an input window's array
    is never written back; a buffer that is no window's array is not touched). -/
theorem W2_keep (c : Dev nD) (b : Ref sig .tc) (h6 : b ≠ main_v14_0) (h7 : b ≠ main_v14_1) :
    W2 m c (Proc.devRef .tc b) = W1 m c (Proc.devRef .tc b) := by
  by_cases h : ∃ w, Pipeline.arrRef spec0 w = b
  · obtain ⟨w, rfl⟩ := h
    match w with
    | ⟨0, _⟩ => exact (W2_arr m c 0).trans (((dat0 (V1 m) c).arrAt_in 0 rfl _).trans (A_eq0 (V1 m) c 0))
    | ⟨1, _⟩ => exact (W2_arr m c 1).trans (((dat0 (V1 m) c).arrAt_in 1 rfl _).trans (A_eq0 (V1 m) c 1))
    | ⟨2, _⟩ => exact (W2_arr m c 2).trans (((dat0 (V1 m) c).arrAt_in 2 rfl _).trans (A_eq0 (V1 m) c 2))
    | ⟨3, _⟩ => exact (W2_arr m c 3).trans (((dat0 (V1 m) c).arrAt_in 3 rfl _).trans (A_eq0 (V1 m) c 3))
    | ⟨4, _⟩ => exact (W2_arr m c 4).trans (((dat0 (V1 m) c).arrAt_in 4 rfl _).trans (A_eq0 (V1 m) c 4))
    | ⟨5, _⟩ => exact (W2_arr m c 5).trans (((dat0 (V1 m) c).arrAt_in 5 rfl _).trans (A_eq0 (V1 m) c 5))
    | ⟨6, _⟩ => exact absurd rfl h6
    | ⟨7, _⟩ => exact absurd rfl h7
  · exact W2_of_ne m c b fun w e => h ⟨w, e⟩

/-- Layer 1 changes only its two output arrays: any other buffer keeps its entry contents (an input window's array
    is never written back; a buffer that is no window's array is not touched). -/
theorem W4_keep (c : Dev nD) (b : Ref sig .tc) (h6 : b ≠ main_v28_0) (h7 : b ≠ main_v28_1) :
    W4 m c (Proc.devRef .tc b) = W3 m c (Proc.devRef .tc b) := by
  by_cases h : ∃ w, Pipeline.arrRef spec1 w = b
  · obtain ⟨w, rfl⟩ := h
    match w with
    | ⟨0, _⟩ => exact (W4_arr m c 0).trans (((dat1 (V3 m) c).arrAt_in 0 rfl _).trans (A_eq1 (V3 m) c 0))
    | ⟨1, _⟩ => exact (W4_arr m c 1).trans (((dat1 (V3 m) c).arrAt_in 1 rfl _).trans (A_eq1 (V3 m) c 1))
    | ⟨2, _⟩ => exact (W4_arr m c 2).trans (((dat1 (V3 m) c).arrAt_in 2 rfl _).trans (A_eq1 (V3 m) c 2))
    | ⟨3, _⟩ => exact (W4_arr m c 3).trans (((dat1 (V3 m) c).arrAt_in 3 rfl _).trans (A_eq1 (V3 m) c 3))
    | ⟨4, _⟩ => exact (W4_arr m c 4).trans (((dat1 (V3 m) c).arrAt_in 4 rfl _).trans (A_eq1 (V3 m) c 4))
    | ⟨5, _⟩ => exact (W4_arr m c 5).trans (((dat1 (V3 m) c).arrAt_in 5 rfl _).trans (A_eq1 (V3 m) c 5))
    | ⟨6, _⟩ => exact absurd rfl h6
    | ⟨7, _⟩ => exact absurd rfl h7
  · exact W4_of_ne m c b fun w e => h ⟨w, e⟩

/-- Layer 2 changes only its two output arrays: any other buffer keeps its entry contents (an input window's array
    is never written back; a buffer that is no window's array is not touched). -/
theorem W6_keep (c : Dev nD) (b : Ref sig .tc) (h6 : b ≠ main_v42_0) (h7 : b ≠ main_v42_1) :
    W6 m c (Proc.devRef .tc b) = W5 m c (Proc.devRef .tc b) := by
  by_cases h : ∃ w, Pipeline.arrRef spec2 w = b
  · obtain ⟨w, rfl⟩ := h
    match w with
    | ⟨0, _⟩ => exact (W6_arr m c 0).trans (((dat2 (V5 m) c).arrAt_in 0 rfl _).trans (A_eq2 (V5 m) c 0))
    | ⟨1, _⟩ => exact (W6_arr m c 1).trans (((dat2 (V5 m) c).arrAt_in 1 rfl _).trans (A_eq2 (V5 m) c 1))
    | ⟨2, _⟩ => exact (W6_arr m c 2).trans (((dat2 (V5 m) c).arrAt_in 2 rfl _).trans (A_eq2 (V5 m) c 2))
    | ⟨3, _⟩ => exact (W6_arr m c 3).trans (((dat2 (V5 m) c).arrAt_in 3 rfl _).trans (A_eq2 (V5 m) c 3))
    | ⟨4, _⟩ => exact (W6_arr m c 4).trans (((dat2 (V5 m) c).arrAt_in 4 rfl _).trans (A_eq2 (V5 m) c 4))
    | ⟨5, _⟩ => exact (W6_arr m c 5).trans (((dat2 (V5 m) c).arrAt_in 5 rfl _).trans (A_eq2 (V5 m) c 5))
    | ⟨6, _⟩ => exact absurd rfl h6
    | ⟨7, _⟩ => exact absurd rfl h7
  · exact W6_of_ne m c b fun w e => h ⟨w, e⟩

end Cert.KernelIdeal.Hand

end
-- ==== Proof.KIBody0.lean ====
/-
  Layer 0's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KIDat
import proofs.«161637_j18365280158072_1_alg».proof.Proof.Gen.KernelIdeal.Launch
import proofs.«161637_j18365280158072_1_alg».proof.Proof.Gen.KernelIdeal.Skeleton
import proofs.«161637_j18365280158072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: where the window is not fetched its block index has
    not moved, so the block left by the point before is this point's. The window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: where the window is not fetched its block index has
    not moved, so the block left by the point before is this point's. The window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: where the window is not fetched its block index has
    not moved, so the block left by the point before is this point's. The window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: where the window is not fetched its block index has
    not moved, so the block left by the point before is this point's. The window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s and whose body leaves the block in place: where the window is not fetched its block index has
    not moved, so the block left by the point before is this point's. The window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Each output's one store covers its buffer -/

/-- The one whole-buffer store of the first output is a tiling of its buffer by a single block, so it covers it. -/
theorem cover0_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover0_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out0_6` and `out0_7` of the inputs':
    the six loads read the inputs' contents through whole-buffer rectangles, and each output's contents after its
    store read as the store's payload everywhere, the store covering the buffer. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The inputs' buffers at the layer's own proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and the eight windows' current
    staging buffers, each at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 0's pipeline, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIBody1.lean ====
/-
  Layer 1's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KIDat
import proofs.«161637_j18365280158072_1_alg».proof.Proof.Gen.KernelIdeal.Launch
import proofs.«161637_j18365280158072_1_alg».proof.Proof.Gen.KernelIdeal.Skeleton
import proofs.«161637_j18365280158072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: where the window is not fetched its block index has
    not moved, so the block left by the point before is this point's. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: where the window is not fetched its block index has
    not moved, so the block left by the point before is this point's. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: where the window is not fetched its block index has
    not moved, so the block left by the point before is this point's. The window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: where the window is not fetched its block index has
    not moved, so the block left by the point before is this point's. The window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s and whose body leaves the block in place: where the window is not fetched its block index has
    not moved, so the block left by the point before is this point's. The window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

/-- The one whole-buffer store of the first output is a tiling of its buffer by a single block, so it covers it. -/
theorem cover1_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover1_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out1_6` and `out1_7` of the inputs':
    the six loads read the inputs' contents through whole-buffer rectangles, and each output's contents after its
    store read as the store's payload everywhere, the store covering the buffer. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The inputs' buffers at the layer's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and the eight windows' current
    staging buffers, each at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 1's pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIBody2.lean ====
/-
  Layer 2's kernel body at a grid point. On whole staging buffers, the six inputs' at their blocks and the two outputs' at
  anything, the body runs without a fault, leaves every input's buffer as it was and each output's buffer at its
  payload of the six input blocks: the body loads each input whole, and for each output loads the buffer whole (a value
  it never uses) and stores the payload whole, so the one store covers the buffer and what was there before does not
  matter. From that, the obligation the pipeline's launch asks of the body at every point of the grid.
-/
import proofs.«161637_j18365280158072_1_alg».proof.Proof.KIDat
import proofs.«161637_j18365280158072_1_alg».proof.Proof.Gen.KernelIdeal.Launch
import proofs.«161637_j18365280158072_1_alg».proof.Proof.Gen.KernelIdeal.Skeleton
import proofs.«161637_j18365280158072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 6000 rows: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the TensorCore's buffer contents when the layer is entered: the parameter everything here is stated at
variable (V : (c : Dev nD) → (b : Ref sig .tc) → Buf (Elt F) ((c : Thread nD τ).loc b))

/-! ## The inputs' staging buffers hold their blocks -/

/-- Input window 0's current staging buffer holds its block at every point, fetched there or not, for any proof data
    whose array is `V`'s and whose body leaves the block in place: where the window is not fetched its block index has
    not moved, so the block left by the point before is this point's. The window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: where the window is not fetched its block index has
    not moved, so the block left by the point before is this point's. The window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: where the window is not fetched its block index has
    not moved, so the block left by the point before is this point's. The window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: where the window is not fetched its block index has
    not moved, so the block left by the point before is this point's. The window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: where the window is not fetched its block index has
    not moved, so the block left by the point before is this point's. The window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: where the window is not fetched its block index has
    not moved, so the block left by the point before is this point's. The window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Each output's one store covers its buffer -/

/-- The one whole-buffer store of the first output is a tiling of its buffer by a single block, so it covers it. -/
theorem cover2_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y
/-- The one whole-buffer store of the second output is a tiling of its buffer by a single block, so it covers it. -/
theorem cover2_7 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The kernel body on whole staging buffers, the inputs' at read contents `x0 … x5` and the outputs' at anything, runs
    to the continuation holding the inputs' as they were and the outputs' at `out2_6` and `out2_7` of the inputs':
    the six loads read the inputs' contents through whole-buffer rectangles, and each output's contents after its
    store read as the store's payload everywhere, the store covering the buffer. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-! ## The inputs' buffers at the layer's own proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, what the core owes, and the eight windows' current
    staging buffers, each at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of layer 2's pipeline, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIRun.lean ====
/-
  The whole of @main: its seven segments — four stretches of host operations and the three layers' pallas_calls between
  them — run one after the other from the launch memory without a fault; the thread state at each boundary is every
  unscoped buffer at that boundary's contents (the fold `W0 … W7`) beside the generator register and nothing owed. At the
  return the result buffer holds `W7` there, and every argument array holds what it was launched with: no host
  operation writes an argument, and a layer changes only its two output arrays.
-/
import proofs.«161637_j18365280158072_1_alg».proof.Proof.KIFold
import proofs.«161637_j18365280158072_1_alg».proof.Proof.KIKeep
import proofs.«161637_j18365280158072_1_alg».proof.Proof.KIBody0
import proofs.«161637_j18365280158072_1_alg».proof.Proof.KIBody1
import proofs.«161637_j18365280158072_1_alg».proof.Proof.KIBody2
import proofs.«161637_j18365280158072_1_alg».proof.Proof.Gen.KernelIdeal.Launch
import proofs.«161637_j18365280158072_1_alg».proof.Proof.Gen.KernelIdeal.Skeleton
import proofs.«161637_j18365280158072_1_alg».proof.Proof.Gen.KernelIdeal.Points
import proofs.«161637_j18365280158072_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## A layer's exit contents against its entry contents -/

/-- At layer 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at layer 1's exit. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The same at layer 2's exit. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The arguments end as launched

No host operation writes an argument array and a layer changes only its two output arrays, so the fold at an
argument's buffer walks back, boundary by boundary, to the launch memory. -/

/-- A buffer that no stretch of host operations writes and that is no layer's output array holds at the return what it
    held at launch. -/
theorem W7_untouched (c : Dev nD) (b : Ref sig .tc) (h0 : b ∉ hostOps0_W) (h1 : b ∉ hostOps1_W) (h2 : b ∉ hostOps2_W) (h3 : b ∉ hostOps3_W)
    (a0 : b ≠ main_v14_0) (a1 : b ≠ main_v14_1) (a2 : b ≠ main_v28_0) (a3 : b ≠ main_v28_1) (a4 : b ≠ main_v42_0) (a5 : b ≠ main_v42_1) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_keep m c b a4 a5
    _ = W4 m c (Proc.devRef .tc b) := StableHlo.after_of_writes_sub hostOps2 _ hostOps2_writes h2
    _ = W3 m c (Proc.devRef .tc b) := W4_keep m c b a2 a3
    _ = W2 m c (Proc.devRef .tc b) := StableHlo.after_of_writes_sub hostOps1 _ hostOps1_writes h1
    _ = W1 m c (Proc.devRef .tc b) := W2_keep m c b a0 a1
    _ = W0 m c (Proc.devRef .tc b) := StableHlo.after_of_writes_sub hostOps0 _ hostOps0_writes h0
    _ = m ((c : Thread nD τ).loc b) := rfl

theorem W7_main_arg0 (c : Dev nD) : W7 m c (Proc.devRef .tc main_arg0) = m ((c : Thread nD τ).loc main_arg0) :=
  W7_untouched m c main_arg0 (by decide) (by decide) (by decide) (by decide) (by decide) (by decide) (by decide) (by decide) (by decide) (by decide)
theorem W7_main_arg1 (c : Dev nD) : W7 m c (Proc.devRef .tc main_arg1) = m ((c : Thread nD τ).loc main_arg1) :=
  W7_untouched m c main_arg1 (by decide) (by decide) (by decide) (by decide) (by decide) (by decide) (by decide) (by decide) (by decide) (by decide)
theorem W7_main_arg2 (c : Dev nD) : W7 m c (Proc.devRef .tc main_arg2) = m ((c : Thread nD τ).loc main_arg2) :=
  W7_untouched m c main_arg2 (by decide) (by decide) (by decide) (by decide) (by decide) (by decide) (by decide) (by decide) (by decide) (by decide)
theorem W7_main_arg3 (c : Dev nD) : W7 m c (Proc.devRef .tc main_arg3) = m ((c : Thread nD τ).loc main_arg3) :=
  W7_untouched m c main_arg3 (by decide) (by decide) (by decide) (by decide) (by decide) (by decide) (by decide) (by decide) (by decide) (by decide)
theorem W7_main_arg4 (c : Dev nD) : W7 m c (Proc.devRef .tc main_arg4) = m ((c : Thread nD τ).loc main_arg4) :=
  W7_untouched m c main_arg4 (by decide) (by decide) (by decide) (by decide) (by decide) (by decide) (by decide) (by decide) (by decide) (by decide)
theorem W7_main_arg5 (c : Dev nD) : W7 m c (Proc.devRef .tc main_arg5) = m ((c : Thread nD τ).loc main_arg5) :=
  W7_untouched m c main_arg5 (by decide) (by decide) (by decide) (by decide) (by decide) (by decide) (by decide) (by decide) (by decide) (by decide)
theorem W7_main_arg6 (c : Dev nD) : W7 m c (Proc.devRef .tc main_arg6) = m ((c : Thread nD τ).loc main_arg6) :=
  W7_untouched m c main_arg6 (by decide) (by decide) (by decide) (by decide) (by decide) (by decide) (by decide) (by decide) (by decide) (by decide)
theorem W7_main_arg7 (c : Dev nD) : W7 m c (Proc.devRef .tc main_arg7) = m ((c : Thread nD τ).loc main_arg7) :=
  W7_untouched m c main_arg7 (by decide) (by decide) (by decide) (by decide) (by decide) (by decide) (by decide) (by decide) (by decide) (by decide)
theorem W7_main_arg8 (c : Dev nD) : W7 m c (Proc.devRef .tc main_arg8) = m ((c : Thread nD τ).loc main_arg8) :=
  W7_untouched m c main_arg8 (by decide) (by decide) (by decide) (by decide) (by decide) (by decide) (by decide) (by decide) (by decide) (by decide)
theorem W7_main_arg9 (c : Dev nD) : W7 m c (Proc.devRef .tc main_arg9) = m ((c : Thread nD τ).loc main_arg9) :=
  W7_untouched m c main_arg9 (by decide) (by decide) (by decide) (by decide) (by decide) (by decide) (by decide) (by decide) (by decide) (by decide)
theorem W7_main_arg10 (c : Dev nD) : W7 m c (Proc.devRef .tc main_arg10) = m ((c : Thread nD τ).loc main_arg10) :=
  W7_untouched m c main_arg10 (by decide) (by decide) (by decide) (by decide) (by decide) (by decide) (by decide) (by decide) (by decide) (by decide)
theorem W7_main_arg11 (c : Dev nD) : W7 m c (Proc.devRef .tc main_arg11) = m ((c : Thread nD τ).loc main_arg11) :=
  W7_untouched m c main_arg11 (by decide) (by decide) (by decide) (by decide) (by decide) (by decide) (by decide) (by decide) (by decide) (by decide)
theorem W7_main_arg12 (c : Dev nD) : W7 m c (Proc.devRef .tc main_arg12) = m ((c : Thread nD τ).loc main_arg12) :=
  W7_untouched m c main_arg12 (by decide) (by decide) (by decide) (by decide) (by decide) (by decide) (by decide) (by decide) (by decide) (by decide)
theorem W7_main_arg13 (c : Dev nD) : W7 m c (Proc.devRef .tc main_arg13) = m ((c : Thread nD τ).loc main_arg13) :=
  W7_untouched m c main_arg13 (by decide) (by decide) (by decide) (by decide) (by decide) (by decide) (by decide) (by decide) (by decide) (by decide)
theorem W7_main_arg14 (c : Dev nD) : W7 m c (Proc.devRef .tc main_arg14) = m ((c : Thread nD τ).loc main_arg14) :=
  W7_untouched m c main_arg14 (by decide) (by decide) (by decide) (by decide) (by decide) (by decide) (by decide) (by decide) (by decide) (by decide)
theorem W7_main_arg15 (c : Dev nD) : W7 m c (Proc.devRef .tc main_arg15) = m ((c : Thread nD τ).loc main_arg15) :=
  W7_untouched m c main_arg15 (by decide) (by decide) (by decide) (by decide) (by decide) (by decide) (by decide) (by decide) (by decide) (by decide)
theorem W7_main_arg16 (c : Dev nD) : W7 m c (Proc.devRef .tc main_arg16) = m ((c : Thread nD τ).loc main_arg16) :=
  W7_untouched m c main_arg16 (by decide) (by decide) (by decide) (by decide) (by decide) (by decide) (by decide) (by decide) (by decide) (by decide)

/-! ## The proof data family and the thread state -/

/-- Every pipeline's proof data, each at its layer's entry contents — a literal match on the pipeline's number, so that
    the pinned configuration at a numeral reduces to the printed one. -/
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A stretch of host operations as a segment: over the unscoped buffers from the contents `W`, `R` riding along; it
    ends with those buffers at the operations' composed function of `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W7`, the
    generator register at some state. -/
abbrev Tₙ (c : Dev nD) : sProp 𝕄 := iprop(StableHlo.held (c : Thread nD τ) (Pipeline.ucRefs τ sig) (W7 m c) ∗ ∃ r, prngReg c r)

/-! ## The layers as segments -/

-- a library lemma stated over the pinned configuration unifies with the printed one only when unification may unfold
-- plain definitions in a metavariable's type
set_option backward.isDefEq.respectTransparency.types false in
/-- Layer 0's pallas_call over the thread state: entered from every unscoped buffer at `W1`, left at `W2`. Its
    eight arrays are split out of the unscoped buffers and put back at what the write-backs leave; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 1's pallas_call over the thread state: entered from every unscoped buffer at `W3`, left at `W4`. Its
    eight arrays are split out of the unscoped buffers and put back at what the write-backs leave; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2's pallas_call over the thread state: entered from every unscoped buffer at `W5`, left at `W6`. Its
    eight arrays are split out of the unscoped buffers and put back at what the write-backs leave; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments -/

/-- The first stretch, from the launch contents. -/
abbrev hs0 : Pipeline.HostSeg (Name := ℕ) (U := Pipeline.UD sig nD τ) (pcfgs (F := F)) defs₀ 𝒱₀ L lv := hseg hostOps0 hostOps0_sub hostOps0_fresh (W0 m)
/-- The second, from layer 0's exit contents. -/
abbrev hs1 : Pipeline.HostSeg (Name := ℕ) (U := Pipeline.UD sig nD τ) (pcfgs (F := F)) defs₀ 𝒱₀ L lv := hseg hostOps1 hostOps1_sub hostOps1_fresh (W2 m)
/-- The third, from layer 1's exit contents. -/
abbrev hs2 : Pipeline.HostSeg (Name := ℕ) (U := Pipeline.UD sig nD τ) (pcfgs (F := F)) defs₀ 𝒱₀ L lv := hseg hostOps2 hostOps2_sub hostOps2_fresh (W4 m)
/-- The last, from layer 2's exit contents. -/
abbrev hs3 : Pipeline.HostSeg (Name := ℕ) (U := Pipeline.UD sig nD τ) (pcfgs (F := F)) defs₀ 𝒱₀ L lv := hseg hostOps3 hostOps3_sub hostOps3_fresh (W6 m)

/-! ## @main as segments, and the launch -/

/-- @main's seven segments in order. -/
abbrev segs : List (Pipeline.Seg (pcfgs (F := F)) adm (pdats m) () defs₀ 𝒱₀ L lv) :=
  [ .host (hs0 m),
    .region (reg0 m),
    .host (hs1 m),
    .region (reg1 m),
    .host (hs2 m),
    .region (reg2 m),
    .host (hs3 m) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has the result buffer at `W7` and every argument array as
    launched: the launch over the seven segments, the last thread state read against the final state. -/
theorem run_named (ρ : Dev nD → PrngReg) :
    θ_run (defs (F := F)) (onTc (τ := τ) (main (F := F))) ⟨m, fun _ => 0, ρ⟩ (fun r => ∀ c : Dev nD,
      r.2.mem ((c.tc : Thread nD τ).loc main_v43) = W7 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v43 (by decide)),
       (h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c),
       (h c _ (mem_uc main_arg6 (by decide))).trans (W7_main_arg6 m c),
       (h c _ (mem_uc main_arg7 (by decide))).trans (W7_main_arg7 m c),
       (h c _ (mem_uc main_arg8 (by decide))).trans (W7_main_arg8 m c),
       (h c _ (mem_uc main_arg9 (by decide))).trans (W7_main_arg9 m c),
       (h c _ (mem_uc main_arg10 (by decide))).trans (W7_main_arg10 m c),
       (h c _ (mem_uc main_arg11 (by decide))).trans (W7_main_arg11 m c),
       (h c _ (mem_uc main_arg12 (by decide))).trans (W7_main_arg12 m c),
       (h c _ (mem_uc main_arg13 (by decide))).trans (W7_main_arg13 m c),
       (h c _ (mem_uc main_arg14 (by decide))).trans (W7_main_arg14 m c),
       (h c _ (mem_uc main_arg15 (by decide))).trans (W7_main_arg15 m c),
       (h c _ (mem_uc main_arg16 (by decide))).trans (W7_main_arg16 m c)⟩)

/-- The frame: from any memory with zero counters every weakly fair execution of @main terminates without a fault and
    every final state has every argument array as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_named m ρ)

end Cert.KernelIdeal.Hand

end
-- ==== Proof.KIHost.lean ====
/-
  The four stretches of host operations, read back: the first builds the starting table (user rows above item rows)
  and its sparse product; the second and third build the sparse product of the table the layer before them left; the last
  puts the starting table and the three normalised tables side by side. A stretch writes only its own values.
-/
import proofs.«161637_j18365280158072_1_alg».proof.Proof.Gen.KernelIdeal.Launch
import proofs.«161637_j18365280158072_1_alg».proof.Proof.Gen.KernelIdeal.Regions
import Idealize.ShloMosaic.Lib.StableHlo.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev TblK (F : FTy → Type) : Type := (⟨S150000x64, .f32⟩ : BufTy).Contents (Elt F)
abbrev EValK (F : FTy → Type) : Type := (⟨S2400000, .f32⟩ : BufTy).Contents (Elt F)
abbrev EIdxK (F : FTy → Type) : Type := (⟨S2400000, .i32⟩ : BufTy).Contents (Elt F)

/-- The sparse product A · ego over the edge list (values, row indices, column indices): a negative column index counts
    from the end, the gathered rows are scaled by the edge values and added into the rows the row indices name. -/
def spmmK (ego : TblK F) (vals : EValK F) (rows cols : EIdxK F) : TblK F :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf (broadcastInDim S2400000x64 ![0, 1] bcast_S2400000x1_S2400000x64_0_1 (broadcastInDim S2400000x1 ![0] bcast_S2400000_S2400000x1_0 vals))
      (Host.gather gather_S150000x64_S2400000x1_S2400000x64_1_0_n_n_0_1_164 ego
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- The starting table: the user rows above the item rows. -/
def ego0K (users : (⟨S50000x64, .f32⟩ : BufTy).Contents (Elt F)) (items : (⟨S100000x64, .f32⟩ : BufTy).Contents (Elt F)) : TblK F :=
  concatenate S150000x64 0 [⟨S50000x64, users⟩, ⟨S100000x64, items⟩] concatenates_S50000x64_S100000x64_S150000x64_d0

/-- Four tables side by side. -/
def besideK (a b c d : TblK F) : (⟨S150000x256, .f32⟩ : BufTy).Contents (Elt F) :=
  concatenate S150000x256 1 [⟨S150000x64, a⟩, ⟨S150000x64, b⟩, ⟨S150000x64, c⟩, ⟨S150000x64, d⟩]
    concatenates_S150000x64_S150000x64_S150000x64_S150000x64_S150000x256_d1

variable (U : Valuation τ sig (Elt F))

theorem host0_ego : StableHlo.after hostOps0 U (Proc.devRef .tc main_v0) = ego0K (U main_arg0) (U main_arg1) := by
  after_results_simp; first | rfl | done

theorem host0_side : StableHlo.after hostOps0 U (Proc.devRef .tc main_v13)
    = spmmK (ego0K (U main_arg0) (U main_arg1)) (U main_arg14) (U main_arg15) (U main_arg16) := by
  after_results_simp; first | rfl | done

theorem host1_side : StableHlo.after hostOps1 U (Proc.devRef .tc main_v27)
    = spmmK (U main_v14_0) (U main_arg14) (U main_arg15) (U main_arg16) := by
  after_results_simp; first | rfl | done

theorem host2_side : StableHlo.after hostOps2 U (Proc.devRef .tc main_v41)
    = spmmK (U main_v28_0) (U main_arg14) (U main_arg15) (U main_arg16) := by
  after_results_simp; first | rfl | done

theorem host3_out : StableHlo.after hostOps3 U (Proc.devRef .tc main_v43)
    = besideK (U main_v0) (U main_v14_1) (U main_v28_1) (U main_v42_1) := by
  after_results_simp; first | rfl | done

/-- A stretch leaves every buffer it does not write as it was. -/
theorem host0_keep (r : Ref sig .tc) (h : r ∉ hostOps0_W) : StableHlo.after hostOps0 U (Proc.devRef .tc r) = U r :=
  StableHlo.after_of_writes_sub hostOps0 _ hostOps0_writes h
theorem host1_keep (r : Ref sig .tc) (h : r ∉ hostOps1_W) : StableHlo.after hostOps1 U (Proc.devRef .tc r) = U r :=
  StableHlo.after_of_writes_sub hostOps1 _ hostOps1_writes h
theorem host2_keep (r : Ref sig .tc) (h : r ∉ hostOps2_W) : StableHlo.after hostOps2 U (Proc.devRef .tc r) = U r :=
  StableHlo.after_of_writes_sub hostOps2 _ hostOps2_writes h
theorem host3_keep (r : Ref sig .tc) (h : r ∉ hostOps3_W) : StableHlo.after hostOps3 U (Proc.devRef .tc r) = U r :=
  StableHlo.after_of_writes_sub hostOps3 _ hostOps3_writes h

end Cert.KernelIdeal.Hand

end
-- ==== Proof.KIBlocks.lean ====
/-
  Where the elements of a window's block sit in the window's array, for the three layers: the two row windows and
  the two output windows move down the table 6000 rows per grid point; the weights and biases are whole at every point.
-/
import proofs.«161637_j18365280158072_1_alg».proof.Proof.KIDat
import Idealize.ShloMosaic.Lib.ValueIdx
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-! ## Layer 0: where a block's element sits in its array -/

/-- The index maps over the grid: a row window's block number is the point, on the row axis; every other block number is 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem pt_lt0 (t : Fin cfg0.N) : t.val < 25 := lt_of_lt_of_eq t.isLt N_0

/-- Row `r` of point `t`'s block is row `6000 t + r` of the table. -/
abbrev rowOf0 (t : Fin cfg0.N) (r : Fin 6000) : Fin 150000 := ⟨t.val * 6000 + r.val, by have := pt_lt0 t; have := r.isLt; omega⟩

section
variable (V : (c : Dev nD) → (b : Ref sig .tc) → Buf (Elt F) ((c : Thread nD τ).loc b))

/-- The table's block at a point, read at row `r`: the table at row `6000 t + r`. -/
theorem iblk0_0_apply (c : Dev nD) (t : Fin cfg0.N) (r : Fin 6000) (j : Fin 64) :
    iblk0 V c 0 t (ix2 r j) = V c main_v0 (ix2 (rowOf0 t r) j) := by
  obtain ⟨e0, e1, -⟩ := idx0 t
  unfold iblk0
  rw [View.read_apply]
  show V c main_v0 (((cfg0.win 0).blk t).view.emb (ix2 r j)) = _
  refine congrArg _ ?_
  funext a; apply Fin.ext
  match a with
  | ⟨0, _⟩ => show win0_0.index t (0 : Fin 2) * 6000 + 1 * r.val = t.val * 6000 + r.val; rw [e0]; omega
  | ⟨1, _⟩ => show win0_0.index t (1 : Fin 2) * 64 + 1 * j.val = j.val; rw [e1]; omega

/-- The sparse product's block at a point, read at row `r`. -/
theorem iblk0_1_apply (c : Dev nD) (t : Fin cfg0.N) (r : Fin 6000) (j : Fin 64) :
    iblk0 V c 1 t (ix2 r j) = V c main_v13 (ix2 (rowOf0 t r) j) := by
  obtain ⟨-, -, e0, e1, -⟩ := idx0 t
  unfold iblk0
  rw [View.read_apply]
  show V c main_v13 (((cfg0.win 1).blk t).view.emb (ix2 r j)) = _
  refine congrArg _ ?_
  funext a; apply Fin.ext
  match a with
  | ⟨0, _⟩ => show win0_1.index t (0 : Fin 2) * 6000 + 1 * r.val = t.val * 6000 + r.val; rw [e0]; omega
  | ⟨1, _⟩ => show win0_1.index t (1 : Fin 2) * 64 + 1 * j.val = j.val; rw [e1]; omega

/-- A weight matrix's block at any point is the matrix. -/
theorem iblk0_2_apply (c : Dev nD) (t : Fin cfg0.N) (p : Fin 64) (j : Fin 64) :
    iblk0 V c 2 t (ix2 p j) = V c main_arg2 (ix2 p j) := by
  obtain ⟨-, -, -, -, e0, e1, -⟩ := idx0 t
  unfold iblk0
  rw [View.read_apply]
  show V c main_arg2 (((cfg0.win 2).blk t).view.emb (ix2 p j)) = _
  refine congrArg _ ?_
  funext a; apply Fin.ext
  match a with
  | ⟨0, _⟩ => show win0_2.index t (0 : Fin 2) * 64 + 1 * p.val = p.val; rw [e0]; omega
  | ⟨1, _⟩ => show win0_2.index t (1 : Fin 2) * 64 + 1 * j.val = j.val; rw [e1]; omega

theorem iblk0_4_apply (c : Dev nD) (t : Fin cfg0.N) (p : Fin 64) (j : Fin 64) :
    iblk0 V c 4 t (ix2 p j) = V c main_arg4 (ix2 p j) := by
  obtain ⟨-, -, -, -, -, -, -, -, e0, e1, -⟩ := idx0 t
  unfold iblk0
  rw [View.read_apply]
  show V c main_arg4 (((cfg0.win 4).blk t).view.emb (ix2 p j)) = _
  refine congrArg _ ?_
  funext a; apply Fin.ext
  match a with
  | ⟨0, _⟩ => show win0_4.index t (0 : Fin 2) * 64 + 1 * p.val = p.val; rw [e0]; omega
  | ⟨1, _⟩ => show win0_4.index t (1 : Fin 2) * 64 + 1 * j.val = j.val; rw [e1]; omega

/-- A bias row's block at any point is the row. -/
theorem iblk0_3_apply (c : Dev nD) (t : Fin cfg0.N) (p : Fin 1) (j : Fin 64) :
    iblk0 V c 3 t (ix2 p j) = V c main_arg3 (ix2 p j) := by
  obtain ⟨-, -, -, -, -, -, e0, e1, -⟩ := idx0 t
  unfold iblk0
  rw [View.read_apply]
  show V c main_arg3 (((cfg0.win 3).blk t).view.emb (ix2 p j)) = _
  refine congrArg _ ?_
  funext a; apply Fin.ext
  match a with
  | ⟨0, _⟩ => show win0_3.index t (0 : Fin 2) * 1 + 1 * p.val = p.val; rw [e0]; omega
  | ⟨1, _⟩ => show win0_3.index t (1 : Fin 2) * 64 + 1 * j.val = j.val; rw [e1]; omega

theorem iblk0_5_apply (c : Dev nD) (t : Fin cfg0.N) (p : Fin 1) (j : Fin 64) :
    iblk0 V c 5 t (ix2 p j) = V c main_arg5 (ix2 p j) := by
  obtain ⟨-, -, -, -, -, -, -, -, -, -, e0, e1, -⟩ := idx0 t
  unfold iblk0
  rw [View.read_apply]
  show V c main_arg5 (((cfg0.win 5).blk t).view.emb (ix2 p j)) = _
  refine congrArg _ ?_
  funext a; apply Fin.ext
  match a with
  | ⟨0, _⟩ => show win0_5.index t (0 : Fin 2) * 1 + 1 * p.val = p.val; rw [e0]; omega
  | ⟨1, _⟩ => show win0_5.index t (1 : Fin 2) * 64 + 1 * j.val = j.val; rw [e1]; omega

end

/-- An output block's element `(r, j)` at point `t` sits at `(6000 t + r, j)` of its array. -/
theorem emb0_6 (t : Fin cfg0.N) (r : Fin 6000) (j : Fin 64) :
    ((cfg0.win 6).blk t).view.emb (ix2 r j) = ix2 (rowOf0 t r) j := by
  obtain ⟨-, -, -, -, -, -, -, -, -, -, -, -, e0, e1, -⟩ := idx0 t
  funext a; apply Fin.ext
  match a with
  | ⟨0, _⟩ => show win0_6.index t (0 : Fin 2) * 6000 + 1 * r.val = t.val * 6000 + r.val; rw [e0]; omega
  | ⟨1, _⟩ => show win0_6.index t (1 : Fin 2) * 64 + 1 * j.val = j.val; rw [e1]; omega
theorem emb0_7 (t : Fin cfg0.N) (r : Fin 6000) (j : Fin 64) :
    ((cfg0.win 7).blk t).view.emb (ix2 r j) = ix2 (rowOf0 t r) j := by
  obtain ⟨-, -, -, -, -, -, -, -, -, -, -, -, -, -, e0, e1⟩ := idx0 t
  funext a; apply Fin.ext
  match a with
  | ⟨0, _⟩ => show win0_7.index t (0 : Fin 2) * 6000 + 1 * r.val = t.val * 6000 + r.val; rw [e0]; omega
  | ⟨1, _⟩ => show win0_7.index t (1 : Fin 2) * 64 + 1 * j.val = j.val; rw [e1]; omega

/-! ## Layer 1: where a block's element sits in its array -/

/-- The index maps over the grid: a row window's block number is the point, on the row axis; every other block number is 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem pt_lt1 (t : Fin cfg1.N) : t.val < 25 := lt_of_lt_of_eq t.isLt N_1

/-- Row `r` of point `t`'s block is row `6000 t + r` of the table. -/
abbrev rowOf1 (t : Fin cfg1.N) (r : Fin 6000) : Fin 150000 := ⟨t.val * 6000 + r.val, by have := pt_lt1 t; have := r.isLt; omega⟩

section
variable (V : (c : Dev nD) → (b : Ref sig .tc) → Buf (Elt F) ((c : Thread nD τ).loc b))

/-- The table's block at a point, read at row `r`: the table at row `6000 t + r`. -/
theorem iblk1_0_apply (c : Dev nD) (t : Fin cfg1.N) (r : Fin 6000) (j : Fin 64) :
    iblk1 V c 0 t (ix2 r j) = V c main_v14_0 (ix2 (rowOf1 t r) j) := by
  obtain ⟨e0, e1, -⟩ := idx1 t
  unfold iblk1
  rw [View.read_apply]
  show V c main_v14_0 (((cfg1.win 0).blk t).view.emb (ix2 r j)) = _
  refine congrArg _ ?_
  funext a; apply Fin.ext
  match a with
  | ⟨0, _⟩ => show win1_0.index t (0 : Fin 2) * 6000 + 1 * r.val = t.val * 6000 + r.val; rw [e0]; omega
  | ⟨1, _⟩ => show win1_0.index t (1 : Fin 2) * 64 + 1 * j.val = j.val; rw [e1]; omega

/-- The sparse product's block at a point, read at row `r`. -/
theorem iblk1_1_apply (c : Dev nD) (t : Fin cfg1.N) (r : Fin 6000) (j : Fin 64) :
    iblk1 V c 1 t (ix2 r j) = V c main_v27 (ix2 (rowOf1 t r) j) := by
  obtain ⟨-, -, e0, e1, -⟩ := idx1 t
  unfold iblk1
  rw [View.read_apply]
  show V c main_v27 (((cfg1.win 1).blk t).view.emb (ix2 r j)) = _
  refine congrArg _ ?_
  funext a; apply Fin.ext
  match a with
  | ⟨0, _⟩ => show win1_1.index t (0 : Fin 2) * 6000 + 1 * r.val = t.val * 6000 + r.val; rw [e0]; omega
  | ⟨1, _⟩ => show win1_1.index t (1 : Fin 2) * 64 + 1 * j.val = j.val; rw [e1]; omega

/-- A weight matrix's block at any point is the matrix. -/
theorem iblk1_2_apply (c : Dev nD) (t : Fin cfg1.N) (p : Fin 64) (j : Fin 64) :
    iblk1 V c 2 t (ix2 p j) = V c main_arg6 (ix2 p j) := by
  obtain ⟨-, -, -, -, e0, e1, -⟩ := idx1 t
  unfold iblk1
  rw [View.read_apply]
  show V c main_arg6 (((cfg1.win 2).blk t).view.emb (ix2 p j)) = _
  refine congrArg _ ?_
  funext a; apply Fin.ext
  match a with
  | ⟨0, _⟩ => show win1_2.index t (0 : Fin 2) * 64 + 1 * p.val = p.val; rw [e0]; omega
  | ⟨1, _⟩ => show win1_2.index t (1 : Fin 2) * 64 + 1 * j.val = j.val; rw [e1]; omega

theorem iblk1_4_apply (c : Dev nD) (t : Fin cfg1.N) (p : Fin 64) (j : Fin 64) :
    iblk1 V c 4 t (ix2 p j) = V c main_arg8 (ix2 p j) := by
  obtain ⟨-, -, -, -, -, -, -, -, e0, e1, -⟩ := idx1 t
  unfold iblk1
  rw [View.read_apply]
  show V c main_arg8 (((cfg1.win 4).blk t).view.emb (ix2 p j)) = _
  refine congrArg _ ?_
  funext a; apply Fin.ext
  match a with
  | ⟨0, _⟩ => show win1_4.index t (0 : Fin 2) * 64 + 1 * p.val = p.val; rw [e0]; omega
  | ⟨1, _⟩ => show win1_4.index t (1 : Fin 2) * 64 + 1 * j.val = j.val; rw [e1]; omega

/-- A bias row's block at any point is the row. -/
theorem iblk1_3_apply (c : Dev nD) (t : Fin cfg1.N) (p : Fin 1) (j : Fin 64) :
    iblk1 V c 3 t (ix2 p j) = V c main_arg7 (ix2 p j) := by
  obtain ⟨-, -, -, -, -, -, e0, e1, -⟩ := idx1 t
  unfold iblk1
  rw [View.read_apply]
  show V c main_arg7 (((cfg1.win 3).blk t).view.emb (ix2 p j)) = _
  refine congrArg _ ?_
  funext a; apply Fin.ext
  match a with
  | ⟨0, _⟩ => show win1_3.index t (0 : Fin 2) * 1 + 1 * p.val = p.val; rw [e0]; omega
  | ⟨1, _⟩ => show win1_3.index t (1 : Fin 2) * 64 + 1 * j.val = j.val; rw [e1]; omega

theorem iblk1_5_apply (c : Dev nD) (t : Fin cfg1.N) (p : Fin 1) (j : Fin 64) :
    iblk1 V c 5 t (ix2 p j) = V c main_arg9 (ix2 p j) := by
  obtain ⟨-, -, -, -, -, -, -, -, -, -, e0, e1, -⟩ := idx1 t
  unfold iblk1
  rw [View.read_apply]
  show V c main_arg9 (((cfg1.win 5).blk t).view.emb (ix2 p j)) = _
  refine congrArg _ ?_
  funext a; apply Fin.ext
  match a with
  | ⟨0, _⟩ => show win1_5.index t (0 : Fin 2) * 1 + 1 * p.val = p.val; rw [e0]; omega
  | ⟨1, _⟩ => show win1_5.index t (1 : Fin 2) * 64 + 1 * j.val = j.val; rw [e1]; omega

end

/-- An output block's element `(r, j)` at point `t` sits at `(6000 t + r, j)` of its array. -/
theorem emb1_6 (t : Fin cfg1.N) (r : Fin 6000) (j : Fin 64) :
    ((cfg1.win 6).blk t).view.emb (ix2 r j) = ix2 (rowOf1 t r) j := by
  obtain ⟨-, -, -, -, -, -, -, -, -, -, -, -, e0, e1, -⟩ := idx1 t
  funext a; apply Fin.ext
  match a with
  | ⟨0, _⟩ => show win1_6.index t (0 : Fin 2) * 6000 + 1 * r.val = t.val * 6000 + r.val; rw [e0]; omega
  | ⟨1, _⟩ => show win1_6.index t (1 : Fin 2) * 64 + 1 * j.val = j.val; rw [e1]; omega
theorem emb1_7 (t : Fin cfg1.N) (r : Fin 6000) (j : Fin 64) :
    ((cfg1.win 7).blk t).view.emb (ix2 r j) = ix2 (rowOf1 t r) j := by
  obtain ⟨-, -, -, -, -, -, -, -, -, -, -, -, -, -, e0, e1⟩ := idx1 t
  funext a; apply Fin.ext
  match a with
  | ⟨0, _⟩ => show win1_7.index t (0 : Fin 2) * 6000 + 1 * r.val = t.val * 6000 + r.val; rw [e0]; omega
  | ⟨1, _⟩ => show win1_7.index t (1 : Fin 2) * 64 + 1 * j.val = j.val; rw [e1]; omega

/-! ## Layer 2: where a block's element sits in its array -/

/-- The index maps over the grid: a row window's block number is the point, on the row axis; every other block number is 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem pt_lt2 (t : Fin cfg2.N) : t.val < 25 := lt_of_lt_of_eq t.isLt N_2

/-- Row `r` of point `t`'s block is row `6000 t + r` of the table. -/
abbrev rowOf2 (t : Fin cfg2.N) (r : Fin 6000) : Fin 150000 := ⟨t.val * 6000 + r.val, by have := pt_lt2 t; have := r.isLt; omega⟩

section
variable (V : (c : Dev nD) → (b : Ref sig .tc) → Buf (Elt F) ((c : Thread nD τ).loc b))

/-- The table's block at a point, read at row `r`: the table at row `6000 t + r`. -/
theorem iblk2_0_apply (c : Dev nD) (t : Fin cfg2.N) (r : Fin 6000) (j : Fin 64) :
    iblk2 V c 0 t (ix2 r j) = V c main_v28_0 (ix2 (rowOf2 t r) j) := by
  obtain ⟨e0, e1, -⟩ := idx2 t
  unfold iblk2
  rw [View.read_apply]
  show V c main_v28_0 (((cfg2.win 0).blk t).view.emb (ix2 r j)) = _
  refine congrArg _ ?_
  funext a; apply Fin.ext
  match a with
  | ⟨0, _⟩ => show win2_0.index t (0 : Fin 2) * 6000 + 1 * r.val = t.val * 6000 + r.val; rw [e0]; omega
  | ⟨1, _⟩ => show win2_0.index t (1 : Fin 2) * 64 + 1 * j.val = j.val; rw [e1]; omega

/-- The sparse product's block at a point, read at row `r`. -/
theorem iblk2_1_apply (c : Dev nD) (t : Fin cfg2.N) (r : Fin 6000) (j : Fin 64) :
    iblk2 V c 1 t (ix2 r j) = V c main_v41 (ix2 (rowOf2 t r) j) := by
  obtain ⟨-, -, e0, e1, -⟩ := idx2 t
  unfold iblk2
  rw [View.read_apply]
  show V c main_v41 (((cfg2.win 1).blk t).view.emb (ix2 r j)) = _
  refine congrArg _ ?_
  funext a; apply Fin.ext
  match a with
  | ⟨0, _⟩ => show win2_1.index t (0 : Fin 2) * 6000 + 1 * r.val = t.val * 6000 + r.val; rw [e0]; omega
  | ⟨1, _⟩ => show win2_1.index t (1 : Fin 2) * 64 + 1 * j.val = j.val; rw [e1]; omega

/-- A weight matrix's block at any point is the matrix. -/
theorem iblk2_2_apply (c : Dev nD) (t : Fin cfg2.N) (p : Fin 64) (j : Fin 64) :
    iblk2 V c 2 t (ix2 p j) = V c main_arg10 (ix2 p j) := by
  obtain ⟨-, -, -, -, e0, e1, -⟩ := idx2 t
  unfold iblk2
  rw [View.read_apply]
  show V c main_arg10 (((cfg2.win 2).blk t).view.emb (ix2 p j)) = _
  refine congrArg _ ?_
  funext a; apply Fin.ext
  match a with
  | ⟨0, _⟩ => show win2_2.index t (0 : Fin 2) * 64 + 1 * p.val = p.val; rw [e0]; omega
  | ⟨1, _⟩ => show win2_2.index t (1 : Fin 2) * 64 + 1 * j.val = j.val; rw [e1]; omega

theorem iblk2_4_apply (c : Dev nD) (t : Fin cfg2.N) (p : Fin 64) (j : Fin 64) :
    iblk2 V c 4 t (ix2 p j) = V c main_arg12 (ix2 p j) := by
  obtain ⟨-, -, -, -, -, -, -, -, e0, e1, -⟩ := idx2 t
  unfold iblk2
  rw [View.read_apply]
  show V c main_arg12 (((cfg2.win 4).blk t).view.emb (ix2 p j)) = _
  refine congrArg _ ?_
  funext a; apply Fin.ext
  match a with
  | ⟨0, _⟩ => show win2_4.index t (0 : Fin 2) * 64 + 1 * p.val = p.val; rw [e0]; omega
  | ⟨1, _⟩ => show win2_4.index t (1 : Fin 2) * 64 + 1 * j.val = j.val; rw [e1]; omega

/-- A bias row's block at any point is the row. -/
theorem iblk2_3_apply (c : Dev nD) (t : Fin cfg2.N) (p : Fin 1) (j : Fin 64) :
    iblk2 V c 3 t (ix2 p j) = V c main_arg11 (ix2 p j) := by
  obtain ⟨-, -, -, -, -, -, e0, e1, -⟩ := idx2 t
  unfold iblk2
  rw [View.read_apply]
  show V c main_arg11 (((cfg2.win 3).blk t).view.emb (ix2 p j)) = _
  refine congrArg _ ?_
  funext a; apply Fin.ext
  match a with
  | ⟨0, _⟩ => show win2_3.index t (0 : Fin 2) * 1 + 1 * p.val = p.val; rw [e0]; omega
  | ⟨1, _⟩ => show win2_3.index t (1 : Fin 2) * 64 + 1 * j.val = j.val; rw [e1]; omega

theorem iblk2_5_apply (c : Dev nD) (t : Fin cfg2.N) (p : Fin 1) (j : Fin 64) :
    iblk2 V c 5 t (ix2 p j) = V c main_arg13 (ix2 p j) := by
  obtain ⟨-, -, -, -, -, -, -, -, -, -, e0, e1, -⟩ := idx2 t
  unfold iblk2
  rw [View.read_apply]
  show V c main_arg13 (((cfg2.win 5).blk t).view.emb (ix2 p j)) = _
  refine congrArg _ ?_
  funext a; apply Fin.ext
  match a with
  | ⟨0, _⟩ => show win2_5.index t (0 : Fin 2) * 1 + 1 * p.val = p.val; rw [e0]; omega
  | ⟨1, _⟩ => show win2_5.index t (1 : Fin 2) * 64 + 1 * j.val = j.val; rw [e1]; omega

end

/-- An output block's element `(r, j)` at point `t` sits at `(6000 t + r, j)` of its array. -/
theorem emb2_6 (t : Fin cfg2.N) (r : Fin 6000) (j : Fin 64) :
    ((cfg2.win 6).blk t).view.emb (ix2 r j) = ix2 (rowOf2 t r) j := by
  obtain ⟨-, -, -, -, -, -, -, -, -, -, -, -, e0, e1, -⟩ := idx2 t
  funext a; apply Fin.ext
  match a with
  | ⟨0, _⟩ => show win2_6.index t (0 : Fin 2) * 6000 + 1 * r.val = t.val * 6000 + r.val; rw [e0]; omega
  | ⟨1, _⟩ => show win2_6.index t (1 : Fin 2) * 64 + 1 * j.val = j.val; rw [e1]; omega
theorem emb2_7 (t : Fin cfg2.N) (r : Fin 6000) (j : Fin 64) :
    ((cfg2.win 7).blk t).view.emb (ix2 r j) = ix2 (rowOf2 t r) j := by
  obtain ⟨-, -, -, -, -, -, -, -, -, -, -, -, -, -, e0, e1⟩ := idx2 t
  funext a; apply Fin.ext
  match a with
  | ⟨0, _⟩ => show win2_7.index t (0 : Fin 2) * 6000 + 1 * r.val = t.val * 6000 + r.val; rw [e0]; omega
  | ⟨1, _⟩ => show win2_7.index t (1 : Fin 2) * 64 + 1 * j.val = j.val; rw [e1]; omega

end Cert.KernelIdeal.Hand

end
-- ==== Proof.KICover.lean ====
/-
  The output windows' blocks tile their arrays: 25 blocks of 6000 rows each cover the 150000 rows.
-/
import proofs.«161637_j18365280158072_1_alg».proof.Proof.KIBlocks
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

/-- An index of the array is in point `t`'s block of output window 6 iff each coordinate is in the block's range. -/
theorem mem_blk0_6 (t : Fin cfg0.N) (i : S150000x64.Idx) :
    i ∈ ((cfg0.win 6).blk t).view.set ↔ ∀ a : Fin 2, win0_6.index t a * S6000x64.size a ≤ (i a).val ∧ (i a).val < win0_6.index t a * S6000x64.size a + S6000x64.size a := by
  show i ∈ ((View.whole main_v14_0).slice (win0_6.rect t)).set ↔ _
  rw [View.set_slice_whole, Rect.mem_set_unit]
  exact Iff.rfl

/-- The 25 blocks of 6000 rows cover the table: row `i` is in the block of point `i / 6000`. -/
theorem rowsCovered0_6 (i : S150000x64.Idx) :
    ∃ t : Fin cfg0.N, (cfg0.win 6).flush t = true ∧ i ∈ ((cfg0.win 6).blk t).view.set := by
  have hi : (i 0).val < 150000 := (i 0).isLt
  have hj : (i 1).val < 64 := (i 1).isLt
  have hN : (i 0).val / 6000 < cfg0.N := by rw [show cfg0.N = 25 from N_0]; omega
  obtain ⟨-, -, -, -, -, -, -, -, -, -, -, -, e0, e1, -⟩ := idx0 ⟨(i 0).val / 6000, hN⟩
  refine ⟨⟨(i 0).val / 6000, hN⟩, flush0_6 _, ?_⟩
  rw [mem_blk0_6]
  intro a
  match a with
  | ⟨0, _⟩ =>
    show win0_6.index ⟨(i 0).val / 6000, hN⟩ (0 : Fin 2) * 6000 ≤ (i 0).val ∧ (i 0).val < win0_6.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win0_6.index ⟨(i 0).val / 6000, hN⟩ (1 : Fin 2) * 64 ≤ (i 1).val ∧ (i 1).val < win0_6.index ⟨(i 0).val / 6000, hN⟩ (1 : Fin 2) * 64 + 64
    rw [e1]; omega

/-- An index of the array is in point `t`'s block of output window 7 iff each coordinate is in the block's range. -/
theorem mem_blk0_7 (t : Fin cfg0.N) (i : S150000x64.Idx) :
    i ∈ ((cfg0.win 7).blk t).view.set ↔ ∀ a : Fin 2, win0_7.index t a * S6000x64.size a ≤ (i a).val ∧ (i a).val < win0_7.index t a * S6000x64.size a + S6000x64.size a := by
  show i ∈ ((View.whole main_v14_1).slice (win0_7.rect t)).set ↔ _
  rw [View.set_slice_whole, Rect.mem_set_unit]
  exact Iff.rfl

/-- The 25 blocks of 6000 rows cover the table: row `i` is in the block of point `i / 6000`. -/
theorem rowsCovered0_7 (i : S150000x64.Idx) :
    ∃ t : Fin cfg0.N, (cfg0.win 7).flush t = true ∧ i ∈ ((cfg0.win 7).blk t).view.set := by
  have hi : (i 0).val < 150000 := (i 0).isLt
  have hj : (i 1).val < 64 := (i 1).isLt
  have hN : (i 0).val / 6000 < cfg0.N := by rw [show cfg0.N = 25 from N_0]; omega
  obtain ⟨-, -, -, -, -, -, -, -, -, -, -, -, -, -, e0, e1⟩ := idx0 ⟨(i 0).val / 6000, hN⟩
  refine ⟨⟨(i 0).val / 6000, hN⟩, flush0_7 _, ?_⟩
  rw [mem_blk0_7]
  intro a
  match a with
  | ⟨0, _⟩ =>
    show win0_7.index ⟨(i 0).val / 6000, hN⟩ (0 : Fin 2) * 6000 ≤ (i 0).val ∧ (i 0).val < win0_7.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win0_7.index ⟨(i 0).val / 6000, hN⟩ (1 : Fin 2) * 64 ≤ (i 1).val ∧ (i 1).val < win0_7.index ⟨(i 0).val / 6000, hN⟩ (1 : Fin 2) * 64 + 64
    rw [e1]; omega

/-- An index of the array is in point `t`'s block of output window 6 iff each coordinate is in the block's range. -/
theorem mem_blk1_6 (t : Fin cfg1.N) (i : S150000x64.Idx) :
    i ∈ ((cfg1.win 6).blk t).view.set ↔ ∀ a : Fin 2, win1_6.index t a * S6000x64.size a ≤ (i a).val ∧ (i a).val < win1_6.index t a * S6000x64.size a + S6000x64.size a := by
  show i ∈ ((View.whole main_v28_0).slice (win1_6.rect t)).set ↔ _
  rw [View.set_slice_whole, Rect.mem_set_unit]
  exact Iff.rfl

/-- The 25 blocks of 6000 rows cover the table: row `i` is in the block of point `i / 6000`. -/
theorem rowsCovered1_6 (i : S150000x64.Idx) :
    ∃ t : Fin cfg1.N, (cfg1.win 6).flush t = true ∧ i ∈ ((cfg1.win 6).blk t).view.set := by
  have hi : (i 0).val < 150000 := (i 0).isLt
  have hj : (i 1).val < 64 := (i 1).isLt
  have hN : (i 0).val / 6000 < cfg1.N := by rw [show cfg1.N = 25 from N_1]; omega
  obtain ⟨-, -, -, -, -, -, -, -, -, -, -, -, e0, e1, -⟩ := idx1 ⟨(i 0).val / 6000, hN⟩
  refine ⟨⟨(i 0).val / 6000, hN⟩, flush1_6 _, ?_⟩
  rw [mem_blk1_6]
  intro a
  match a with
  | ⟨0, _⟩ =>
    show win1_6.index ⟨(i 0).val / 6000, hN⟩ (0 : Fin 2) * 6000 ≤ (i 0).val ∧ (i 0).val < win1_6.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win1_6.index ⟨(i 0).val / 6000, hN⟩ (1 : Fin 2) * 64 ≤ (i 1).val ∧ (i 1).val < win1_6.index ⟨(i 0).val / 6000, hN⟩ (1 : Fin 2) * 64 + 64
    rw [e1]; omega

/-- An index of the array is in point `t`'s block of output window 7 iff each coordinate is in the block's range. -/
theorem mem_blk1_7 (t : Fin cfg1.N) (i : S150000x64.Idx) :
    i ∈ ((cfg1.win 7).blk t).view.set ↔ ∀ a : Fin 2, win1_7.index t a * S6000x64.size a ≤ (i a).val ∧ (i a).val < win1_7.index t a * S6000x64.size a + S6000x64.size a := by
  show i ∈ ((View.whole main_v28_1).slice (win1_7.rect t)).set ↔ _
  rw [View.set_slice_whole, Rect.mem_set_unit]
  exact Iff.rfl

/-- The 25 blocks of 6000 rows cover the table: row `i` is in the block of point `i / 6000`. -/
theorem rowsCovered1_7 (i : S150000x64.Idx) :
    ∃ t : Fin cfg1.N, (cfg1.win 7).flush t = true ∧ i ∈ ((cfg1.win 7).blk t).view.set := by
  have hi : (i 0).val < 150000 := (i 0).isLt
  have hj : (i 1).val < 64 := (i 1).isLt
  have hN : (i 0).val / 6000 < cfg1.N := by rw [show cfg1.N = 25 from N_1]; omega
  obtain ⟨-, -, -, -, -, -, -, -, -, -, -, -, -, -, e0, e1⟩ := idx1 ⟨(i 0).val / 6000, hN⟩
  refine ⟨⟨(i 0).val / 6000, hN⟩, flush1_7 _, ?_⟩
  rw [mem_blk1_7]
  intro a
  match a with
  | ⟨0, _⟩ =>
    show win1_7.index ⟨(i 0).val / 6000, hN⟩ (0 : Fin 2) * 6000 ≤ (i 0).val ∧ (i 0).val < win1_7.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win1_7.index ⟨(i 0).val / 6000, hN⟩ (1 : Fin 2) * 64 ≤ (i 1).val ∧ (i 1).val < win1_7.index ⟨(i 0).val / 6000, hN⟩ (1 : Fin 2) * 64 + 64
    rw [e1]; omega

/-- An index of the array is in point `t`'s block of output window 6 iff each coordinate is in the block's range. -/
theorem mem_blk2_6 (t : Fin cfg2.N) (i : S150000x64.Idx) :
    i ∈ ((cfg2.win 6).blk t).view.set ↔ ∀ a : Fin 2, win2_6.index t a * S6000x64.size a ≤ (i a).val ∧ (i a).val < win2_6.index t a * S6000x64.size a + S6000x64.size a := by
  show i ∈ ((View.whole main_v42_0).slice (win2_6.rect t)).set ↔ _
  rw [View.set_slice_whole, Rect.mem_set_unit]
  exact Iff.rfl

/-- The 25 blocks of 6000 rows cover the table: row `i` is in the block of point `i / 6000`. -/
theorem rowsCovered2_6 (i : S150000x64.Idx) :
    ∃ t : Fin cfg2.N, (cfg2.win 6).flush t = true ∧ i ∈ ((cfg2.win 6).blk t).view.set := by
  have hi : (i 0).val < 150000 := (i 0).isLt
  have hj : (i 1).val < 64 := (i 1).isLt
  have hN : (i 0).val / 6000 < cfg2.N := by rw [show cfg2.N = 25 from N_2]; omega
  obtain ⟨-, -, -, -, -, -, -, -, -, -, -, -, e0, e1, -⟩ := idx2 ⟨(i 0).val / 6000, hN⟩
  refine ⟨⟨(i 0).val / 6000, hN⟩, flush2_6 _, ?_⟩
  rw [mem_blk2_6]
  intro a
  match a with
  | ⟨0, _⟩ =>
    show win2_6.index ⟨(i 0).val / 6000, hN⟩ (0 : Fin 2) * 6000 ≤ (i 0).val ∧ (i 0).val < win2_6.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win2_6.index ⟨(i 0).val / 6000, hN⟩ (1 : Fin 2) * 64 ≤ (i 1).val ∧ (i 1).val < win2_6.index ⟨(i 0).val / 6000, hN⟩ (1 : Fin 2) * 64 + 64
    rw [e1]; omega

/-- An index of the array is in point `t`'s block of output window 7 iff each coordinate is in the block's range. -/
theorem mem_blk2_7 (t : Fin cfg2.N) (i : S150000x64.Idx) :
    i ∈ ((cfg2.win 7).blk t).view.set ↔ ∀ a : Fin 2, win2_7.index t a * S6000x64.size a ≤ (i a).val ∧ (i a).val < win2_7.index t a * S6000x64.size a + S6000x64.size a := by
  show i ∈ ((View.whole main_v42_1).slice (win2_7.rect t)).set ↔ _
  rw [View.set_slice_whole, Rect.mem_set_unit]
  exact Iff.rfl

/-- The 25 blocks of 6000 rows cover the table: row `i` is in the block of point `i / 6000`. -/
theorem rowsCovered2_7 (i : S150000x64.Idx) :
    ∃ t : Fin cfg2.N, (cfg2.win 7).flush t = true ∧ i ∈ ((cfg2.win 7).blk t).view.set := by
  have hi : (i 0).val < 150000 := (i 0).isLt
  have hj : (i 1).val < 64 := (i 1).isLt
  have hN : (i 0).val / 6000 < cfg2.N := by rw [show cfg2.N = 25 from N_2]; omega
  obtain ⟨-, -, -, -, -, -, -, -, -, -, -, -, -, -, e0, e1⟩ := idx2 ⟨(i 0).val / 6000, hN⟩
  refine ⟨⟨(i 0).val / 6000, hN⟩, flush2_7 _, ?_⟩
  rw [mem_blk2_7]
  intro a
  match a with
  | ⟨0, _⟩ =>
    show win2_7.index ⟨(i 0).val / 6000, hN⟩ (0 : Fin 2) * 6000 ≤ (i 0).val ∧ (i 0).val < win2_7.index ⟨(i 0).val / 6000, hN⟩ (0 : Fin 2) * 6000 + 6000
    rw [e0]; show (i 0).val / 6000 * 6000 ≤ (i 0).val ∧ (i 0).val < (i 0).val / 6000 * 6000 + 6000; omega
  | ⟨1, _⟩ =>
    show win2_7.index ⟨(i 0).val / 6000, hN⟩ (1 : Fin 2) * 64 ≤ (i 1).val ∧ (i 1).val < win2_7.index ⟨(i 0).val / 6000, hN⟩ (1 : Fin 2) * 64 + 64
    rw [e1]; omega

end Cert.KernelIdeal.Hand

end
-- ==== Proof.RowSpec.lean ====
/-
  One node's row of a propagation layer, over the extended reals.

  A layer sends a node's embedding row `e` and its aggregated neighbourhood row `s` (64 features each), with two
  weight matrices `wg`, `wb` and two bias rows `bg`, `bb`, to the row

    ego' j = lrelu (Σ_k s k · wg k j + bg j) + lrelu (Σ_k (e k · s k) · wb k j + bb j),

  where `lrelu x` is `x` for `x ≥ 0` and `c · x` below zero, `c` the real that the single-precision word of 0.2
  denotes; the layer reports that row divided by the larger of its Euclidean norm and the real that the
  single-precision word of 1e-12 denotes. Every operation is the exact one on the extended reals, so the two
  functions below are plain formulas; a row of the result depends on the same row of the inputs only.
-/
import Idealize.ShloMosaic.PureOps.Ideal
import Idealize.ShloMosaic.PureOps.Ideal.Laws
import Idealize.ShloMosaic.Lib.ValueIdx

noncomputable section

open scoped BigOperators

namespace Cert.RowSpec

open Idealize.ShloMosaic

/-- The leaky rectifier: `x` where `x ≥ 0`, the slope times `x` elsewhere. The slope is the extended real the
    single-precision word `0x3E4CCCCD` (0.2 rounded) denotes; it is never evaluated. -/
def lrelu (x : EReal) : EReal :=
  if 0 ≤ x then x else Ideal.ofBits .f32 0x3E4CCCCD#32 * x

/-- A node's new embedding row from its old row `e` and its neighbourhood row `s`. -/
def rowEgo (e s : Fin 64 → EReal) (wg : Fin 64 → Fin 64 → EReal) (bg : Fin 64 → EReal)
    (wb : Fin 64 → Fin 64 → EReal) (bb : Fin 64 → EReal) (j : Fin 64) : EReal :=
  lrelu ((∑ k : Fin 64, s k * wg k j) + bg j) + lrelu ((∑ k : Fin 64, (e k * s k) * wb k j) + bb j)

/-- A row divided by the larger of its Euclidean norm and the extended real the single-precision word
    `0x2B8CBCCC` (1e-12 rounded) denotes. -/
def rowNorm (v : Fin 64 → EReal) (j : Fin 64) : EReal :=
  Ideal.div (v j) (max (Ideal.sqrt (∑ k : Fin 64, v k * v k)) (Ideal.ofBits .f32 0x2B8CBCCC#32))

/-- A select on the comparison `x ≥ 0` (zero written as its single-precision word) is the `if` on `0 ≤ x`:
    the comparison of extended reals answers the bit `1` exactly when `0 ≤ x`. -/
theorem select_oge_zero (x a b : EReal) :
    Scalar.select (FloatOps.cmpf (F := Ideal) (φ := .f32) .oge x (Ideal.ofBits .f32 0x00000000#32)) a b
      = if 0 ≤ x then a else b := by
  rw [Ideal.cmpf_def, Ideal.ofBits_zero_f32]
  unfold Scalar.select Ideal.cmp
  by_cases h : (0 : EReal) ≤ x <;> simp [h]

/-- The rectifier as both programs spell it: a select between `x` and the slope times `x` on the bit of `x ≥ 0`. -/
theorem select_eq_lrelu (x : EReal) :
    Scalar.select (FloatOps.cmpf (F := Ideal) (φ := .f32) .oge x (Ideal.ofBits .f32 0x00000000#32)) x
        (Ideal.ofBits .f32 0x3E4CCCCD#32 * x)
      = lrelu x :=
  select_oge_zero x _ _

end Cert.RowSpec

end
-- ==== Proof.LibColumn.lean ====
/-
  Column forms of the layout operations, read at an index written by coordinates.

  A row reduction with `keepdims` leaves a column `[a, 1]`: the reduced vector `[a]` is cast to `[a, 1]`, and the
  column is later broadcast along its unit axis to `[a, b]`. Both operations move no data: the cast reads the vector at
  the row's coordinate, the broadcast reads the column at the row's coordinate whatever the lane.
-/
import Idealize.ShloMosaic.Lib.ValueIdx
import Idealize.ShloMosaic.Lib.Pipeline.Value
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayVal.lean ====
/-
  The kernel body's arithmetic, read entry by entry over the extended reals.

  One grid step holds a block of 6000 nodes: their embedding rows `v0` and neighbourhood rows `v2` ([6000, 64] each),
  the two weight matrices `v4`, `v6` ([64, 64]) and the two bias rows `v8`, `v9` ([1, 64]). The body's first payload is
  the block's new embedding table, its second that table with every row divided by the larger of the row's Euclidean
  norm and 1e-12. Over the extended reals a change of format is the identity, a matrix product into a zero
  accumulator is the plain sum of products over the contracted index, and a lane reduction is the plain sum over the
  lanes; so entry (r, j) of the first payload is `RowSpec.rowEgo` of row r of the two tables, and entry (r, j) of the
  second is `RowSpec.rowNorm` of row r of the first. Nothing but row r of the block is read: this is what lets the
  blocks be glued into the whole table afterwards.
-/
import proofs.«161637_j18365280158072_1_alg».proof.Proof.Gen.KernelIdeal.Skeleton
import proofs.«161637_j18365280158072_1_alg».proof.Proof.RowSpec
import proofs.«161637_j18365280158072_1_alg».proof.Proof.LibColumn

noncomputable section

open scoped BigOperators

namespace Cert.KernelIdeal.Hand

open Idealize.ShloMosaic Idealize.ShloMosaic.ValueIdx Cert.KernelIdeal

/-! ## The block's matrix product: [6000, 64] times [64, 64], contracting the left operand's lanes against the right
operand's rows. At result entry (r, j) and contraction position k the left operand is read at (r, k) and the right
one at (k, j); the four coordinate facts below say so axis by axis. -/

/-- The left operand's row is the result's row. -/
theorem blockDot_lhs_row (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide),
    dif_pos (show (0 : Fin S6000x64.rank) ∈ dot_S6000x64_S64x64_S6000x64_1_0_0_1_n_n.lhsNonContracting by decide)]
  rfl

/-- The left operand's lane is the contraction position. -/
theorem blockDot_lhs_lane (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q

/-- The right operand's row is the contraction position. -/
theorem blockDot_rhs_row (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q

/-- The right operand's column is the result's column. -/
theorem blockDot_rhs_col (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide),
    dif_pos (show (1 : Fin S64x64.rank) ∈ dot_S6000x64_S64x64_S6000x64_1_0_0_1_n_n.rhsNonContracting by decide)]
  rfl

/-- The block's product into a zero accumulator, at entry (r, j): Σ_k x(r, k) · w(k, j). The sum over the one-axis
    contraction index is re-indexed by that axis's coordinate. -/
theorem blockDot_apply (x : FVec Ideal S6000x64 .bf16) (w : FVec Ideal S64x64 .bf16) (r : Fin 6000) (j : Fin 64) :
    matmul dot_S6000x64_S64x64_S6000x64_1_0_0_1_n_n none x w (constant (F := Ideal) S6000x64 .f32 0x00000000#32) (ix2 r j)
      = ∑ k : Fin 64, x (ix2 r k) * w (ix2 k j) := by
  simp only [matmul]
  rw [Ideal.matmul_constant_zero_apply, ← Equiv.sum_comp (contrEquiv1 dot_S6000x64_S64x64_S6000x64_1_0_0_1_n_n 64 rfl rfl).symm]
  refine Finset.sum_congr rfl fun k _ => ?_
  have hk := contrEquiv1_symm_val dot_S6000x64_S64x64_S6000x64_1_0_0_1_n_n 64 rfl rfl k
  have el : dot_S6000x64_S64x64_S6000x64_1_0_0_1_n_n.lhsIdx (ix2 r j) ((contrEquiv1 dot_S6000x64_S64x64_S6000x64_1_0_0_1_n_n 64 rfl rfl).symm k) = ix2 r k :=
    funext fun a => Fin.ext (by
      match a with
      | ⟨0, _⟩ => exact blockDot_lhs_row _ _
      | ⟨1, _⟩ => exact (blockDot_lhs_lane _ _).trans hk)
  have er : dot_S6000x64_S64x64_S6000x64_1_0_0_1_n_n.rhsIdx (ix2 r j) ((contrEquiv1 dot_S6000x64_S64x64_S6000x64_1_0_0_1_n_n 64 rfl rfl).symm k) = ix2 k j :=
    funext fun a => Fin.ext (by
      match a with
      | ⟨0, _⟩ => exact (blockDot_rhs_row _ _).trans hk
      | ⟨1, _⟩ => exact blockDot_rhs_col _ _)
  rw [el, er]

/-- The sum over the lanes of a [6000, 64] block, at row r: Σ_k src(r, k). (The accumulator's word is the zero word
    on both sides of the hypothesis `hacc`, as the body's text has it.) -/
theorem laneSum_apply (src : FVec Ideal S6000x64 .f32) (hφ : FKind.Formats .f32)
    (hacc : (0x00000000#32 : BitVec 32) = 0x00000000#32) (r : Fin 6000) :
    multiReduction (F := Ideal) .add [1] S6000 src 0x00000000#32 Gen.reduces_S6000x64_S6000 hφ hacc (ix1 r)
      = ∑ k : Fin 64, src (ix2 r k) := by
  refine (Ideal.multiReduction_add_single src 0x00000000#32 Gen.reduces_S6000x64_S6000 hφ hacc (ix1 r)).trans ?_
  exact Finset.sum_congr rfl fun k _ => congrArg src (funext fun a => Fin.ext (by
    match a with
    | ⟨0, _⟩ => rfl
    | ⟨1, _⟩ => rfl))

/-! ## The two payloads at an entry -/

/-- Entry (r, j) of the block's new embedding table is the row formula of row r of the embedding block `v0` and the
    neighbourhood block `v2`, with the weights `v4`, `v6` and the biases `v8`, `v9`: every operation of the body is
    pointwise but the two products (sums over the contracted index) and the two bias broadcasts (the bias row read
    at the entry's column); the casts and format changes are the identity. -/
theorem pay1_apply (v0 v2 : Vec Ideal S6000x64 .f32) (v4 v6 : Vec Ideal S64x64 .f32) (v8 v9 : Vec Ideal S1x64 .f32)
    (r : Fin 6000) (j : Fin 64) :
    Gen.k0_pay1 v0 v2 v4 v6 v8 v9 (ix2 r j)
      = Cert.RowSpec.rowEgo (fun k => v0 (ix2 r k)) (fun k => v2 (ix2 r k)) (fun k j => v4 (ix2 k j))
          (fun j => v8 (ix2 0 j)) (fun k j => v6 (ix2 k j)) (fun j => v9 (ix2 0 j)) j := by
  unfold Gen.k0_pay1
  simp only [addf_apply, select_apply, cmpf_apply, mulf_apply, broadcast_apply, truncf_apply, blockDot_apply,
    broadcastTo_1b_ab_apply, shapeCast_self, Ideal.ofBits_def]
  rw [Cert.RowSpec.select_eq_lrelu, Cert.RowSpec.select_eq_lrelu]
  rfl

/-- Entry (r, j) of the normalised block is the norm formula of row r of the new embedding table: the squares are
    summed over the lanes of row r, the sum is kept as a column and read back at row r whatever the lane, and the
    square root, the maximum with the floor and the quotient are pointwise. -/
theorem pay2_apply (v0 v2 : Vec Ideal S6000x64 .f32) (v4 v6 : Vec Ideal S64x64 .f32) (v8 v9 : Vec Ideal S1x64 .f32)
    (r : Fin 6000) (j : Fin 64) :
    Gen.k0_pay2 v0 v2 v4 v6 v8 v9 (ix2 r j)
      = Cert.RowSpec.rowNorm (fun k => Gen.k0_pay1 v0 v2 v4 v6 v8 v9 (ix2 r k)) j := by
  unfold Gen.k0_pay2
  simp only [divf_apply, Cert.LibColumn.broadcastTo_a1_ab_apply, maximumf_apply, broadcast_apply,
    Ideal.ofBits_def]
  show Ideal.div _ (max (Ideal.sqrt (shapeCast S6000x1 _ _ (ix2 r 0))) _) = _
  rw [Cert.LibColumn.shapeCast_a_a1_apply]
  refine (congrArg (fun t => Ideal.div (Gen.k0_pay1 v0 v2 v4 v6 v8 v9 (ix2 r j))
    (max (Ideal.sqrt t) (Ideal.ofBits .f32 0x2B8CBCCC#32))) (laneSum_apply _ _ _ r)).trans ?_
  rfl

/-! ## The three layers run the same body -/

/-- The second and third layers' payloads are the first layer's, word for word. -/
theorem k1_pay1_eq : @Gen.k1_pay1 = @Gen.k0_pay1 := rfl
theorem k2_pay1_eq : @Gen.k2_pay1 = @Gen.k0_pay1 := rfl
theorem k1_pay2_eq : @Gen.k1_pay2 = @Gen.k0_pay2 := rfl
theorem k2_pay2_eq : @Gen.k2_pay2 = @Gen.k0_pay2 := rfl

end Cert.KernelIdeal.Hand

end
-- ==== Proof.RefSpec.lean ====
/-
  The reference's result as one function of its seventeen argument arrays.

  The graph has N = 150000 nodes with 64 features each and E = 2400000 weighted edges (val, row, col).
  One propagation layer sends an embedding table `ego` to
    side = A · ego            (A the sparse matrix of the edges: gather the rows `ego[col]`, scale by `val`,
                               add into row `row` — `spmm`)
    ego' = lrelu (side · Wg + bg) + lrelu ((ego ∘ side) · Wb + bb)      (`layerEgo`)
  and reports the row-normalised table  ego' / max (‖ego'‖₂ per row, 1e-12)   (`layerNorm`).
  The result is the starting table beside the three normalised tables of three layers, side by side (`refOut`).
-/
import proofs.«161637_j18365280158072_1_alg».proof.ReferenceIdeal

noncomputable section

namespace Cert.ReferenceIdeal.Hand

open Idealize.ShloMosaic Idealize.SL.Sem Cert.ReferenceIdeal

variable {F : FTy → Type} [FloatOps F] [Facts]
open Facts₀ Facts

/-- The contents of a node table, a weight matrix, a bias row, the edge values and an edge index list. -/
abbrev Tbl (F : FTy → Type) : Type := (⟨S150000x64, .f32⟩ : BufTy).Contents (Elt F)
abbrev Mat (F : FTy → Type) : Type := (⟨S64x64, .f32⟩ : BufTy).Contents (Elt F)
abbrev Row (F : FTy → Type) : Type := (⟨S1x64, .f32⟩ : BufTy).Contents (Elt F)
abbrev EVal (F : FTy → Type) : Type := (⟨S2400000, .f32⟩ : BufTy).Contents (Elt F)
abbrev EIdx (F : FTy → Type) : Type := (⟨S2400000, .i32⟩ : BufTy).Contents (Elt F)

/-- The sparse product A · ego: a negative column index counts from the end, the gathered rows are scaled by the
    edge values and added into the rows the row indices name, starting from zero. -/
def spmm (ego : Tbl F) (vals : EVal F) (rows cols : EIdx F) : Tbl F :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf (broadcastInDim S2400000x64 ![0, 1] bcast_S2400000x1_S2400000x64_0_1 (broadcastInDim S2400000x1 ![0] bcast_S2400000_S2400000x1_0 vals))
      (Host.gather gather_S150000x64_S2400000x1_S2400000x64_1_0_n_n_0_1_164 ego
        (broadcastInDim S2400000x1 ![0] bcast_S2400000_S2400000x1_0
          (select (cmpi .slt cols (broadcastInDim S2400000 ![] bcast_S_S2400000 (constantI S_ 32 0#32)))
            (addi cols (broadcastInDim S2400000 ![] bcast_S_S2400000 (constantI S_ 32 150000#32))) cols))))

/-- The leaky rectifier of slope 0.2: x where x ≥ 0, 0.2 · x elsewhere. -/
def lrelu (x : Tbl F) : Tbl F :=
  select (cmpf .oge x (broadcastInDim S150000x64 ![] bcast_S_S150000x64 (constant S_ .f32 0x00000000#32))) x
    (mulf (broadcastInDim S150000x64 ![] bcast_S_S150000x64 (id (constant S_ .f32 0x3E4CCCCD#32))) x)

/-- One layer's new embedding table. -/
def layerEgo (ego side : Tbl F) (wg : Mat F) (bg : Row F) (wb : Mat F) (bb : Row F) : Tbl F :=
  addf
    (lrelu (addf (Host.dotGeneral dot_S150000x64_S64x64_S150000x64_1_0_0_1_n_n none side wg)
      (broadcastInDim S150000x64 ![0, 1] bcast_S1x64_S150000x64_0_1 bg)))
    (lrelu (addf (Host.dotGeneral dot_S150000x64_S64x64_S150000x64_1_0_0_1_n_n none (mulf ego side) wb)
      (broadcastInDim S150000x64 ![0, 1] bcast_S1x64_S150000x64_0_1 bb)))

/-- A table with every row divided by the larger of its Euclidean norm and 1e-12. -/
def layerNorm (e : Tbl F) : Tbl F :=
  Host.divf e
    (broadcastInDim S150000x64 ![0, 1] bcast_S150000x1_S150000x64_0_1
      (maximumf
        (Host.sqrt (broadcastInDim S150000x1 ![0] bcast_S150000_S150000x1_0
          (Host.reduceAdd (mulf e e) (constant S_ .f32 0x00000000#32) reducesTo_S150000x64_S150000_d1 h_S_)))
        (broadcastInDim S150000x1 ![] bcast_S_S150000x1 (constant S_ .f32 0x2B8CBCCC#32))))

/-- The starting table: the user rows above the item rows. -/
def ego0 (users : (⟨S50000x64, .f32⟩ : BufTy).Contents (Elt F)) (items : (⟨S100000x64, .f32⟩ : BufTy).Contents (Elt F)) : Tbl F :=
  concatenate S150000x64 0 [⟨S50000x64, users⟩, ⟨S100000x64, items⟩] concatenates_S50000x64_S100000x64_S150000x64_d0

/-- Four tables side by side. -/
def beside (a b c d : Tbl F) : (⟨S150000x256, .f32⟩ : BufTy).Contents (Elt F) :=
  concatenate S150000x256 1 [⟨S150000x64, a⟩, ⟨S150000x64, b⟩, ⟨S150000x64, c⟩, ⟨S150000x64, d⟩]
    concatenates_S150000x64_S150000x64_S150000x64_S150000x64_S150000x256_d1

/-- The three tables of the three layers, from the starting table. -/
def ego1 (e0 : Tbl F) (wg0 : Mat F) (bg0 : Row F) (wb0 : Mat F) (bb0 : Row F) (vals : EVal F) (rows cols : EIdx F) : Tbl F :=
  layerEgo e0 (spmm e0 vals rows cols) wg0 bg0 wb0 bb0

/-- The whole result. -/
def refOut (users : (⟨S50000x64, .f32⟩ : BufTy).Contents (Elt F)) (items : (⟨S100000x64, .f32⟩ : BufTy).Contents (Elt F))
    (wg0 : Mat F) (bg0 : Row F) (wb0 : Mat F) (bb0 : Row F) (wg1 : Mat F) (bg1 : Row F) (wb1 : Mat F) (bb1 : Row F)
    (wg2 : Mat F) (bg2 : Row F) (wb2 : Mat F) (bb2 : Row F) (vals : EVal F) (rows cols : EIdx F) :
    (⟨S150000x256, .f32⟩ : BufTy).Contents (Elt F) :=
  let e0 := ego0 users items
  let e1 := ego1 e0 wg0 bg0 wb0 bb0 vals rows cols
  let e2 := ego1 e1 wg1 bg1 wb1 bb1 vals rows cols
  let e3 := ego1 e2 wg2 bg2 wb2 bb2 vals rows cols
  beside e0 (layerNorm e1) (layerNorm e2) (layerNorm e3)

end Cert.ReferenceIdeal.Hand

end
-- ==== Proof.RefVal.lean ====
/-
  The reference's layer, read entry by entry over the extended reals.

  `layerEgo` sends the whole node table `ego` and its neighbourhood table `side` ([150000, 64] each), with two weight
  matrices and two bias rows, to the new table; `layerNorm` divides every row of a table by the larger of the row's
  Euclidean norm and 1e-12. Over the extended reals the host's matrix product is the plain sum of products over the
  contracted index and its row reduction is the initial value, zero, plus the plain sum over the row; every other
  operation is pointwise or moves no data. So entry (i, j) of `layerEgo` is `RowSpec.rowEgo` of row i of the two
  tables, and entry (i, j) of `layerNorm e` is `RowSpec.rowNorm` of row i of `e`: node i's result reads node i's rows
  only, by the same two formulas a block of the kernel computes.
-/
import proofs.«161637_j18365280158072_1_alg».proof.Proof.RefSpec
import proofs.«161637_j18365280158072_1_alg».proof.Proof.RowSpec
import Idealize.ShloMosaic.Lib.Pipeline.Value

noncomputable section

open scoped BigOperators

namespace Cert.ReferenceIdeal.Hand

open Idealize.ShloMosaic Idealize.ShloMosaic.ValueIdx Cert.ReferenceIdeal

variable [Facts]
open Facts₀ Facts

/-! ## The table's matrix product: [150000, 64] times [64, 64], contracting the left operand's columns against the
right operand's rows. At result entry (i, j) and contraction position k the left operand is read at (i, k) and the
right one at (k, j); the four coordinate facts below say so axis by axis. -/

/-- The left operand's row is the result's row. -/
theorem tableDot_lhs_row (i : S150000x64.Idx) (q : dot_S150000x64_S64x64_S150000x64_1_0_0_1_n_n.contr.Idx) :
    (dot_S150000x64_S64x64_S150000x64_1_0_0_1_n_n.lhsIdx i q 0).val = (i 0).val := by
  unfold DotDims.lhsIdx
  rw [dif_neg (show ¬(0 : Fin S150000x64.rank) ∈ dot_S150000x64_S64x64_S150000x64_1_0_0_1_n_n.lhsBatch from List.not_mem_nil),
    dif_pos (show (0 : Fin S150000x64.rank) ∈ dot_S150000x64_S64x64_S150000x64_1_0_0_1_n_n.lhsNonContracting from List.mem_singleton.mpr rfl)]
  rfl

/-- The left operand's column is the contraction position. -/
theorem tableDot_lhs_col (i : S150000x64.Idx) (q : dot_S150000x64_S64x64_S150000x64_1_0_0_1_n_n.contr.Idx) :
    (dot_S150000x64_S64x64_S150000x64_1_0_0_1_n_n.lhsIdx i q 1).val = (q ⟨0, Nat.one_pos⟩).val :=
  dot_S150000x64_S64x64_S150000x64_1_0_0_1_n_n.lhsIdx_val_of_single rfl i q

/-- The right operand's row is the contraction position. -/
theorem tableDot_rhs_row (i : S150000x64.Idx) (q : dot_S150000x64_S64x64_S150000x64_1_0_0_1_n_n.contr.Idx) :
    (dot_S150000x64_S64x64_S150000x64_1_0_0_1_n_n.rhsIdx i q 0).val = (q ⟨0, Nat.one_pos⟩).val :=
  dot_S150000x64_S64x64_S150000x64_1_0_0_1_n_n.rhsIdx_val_of_single rfl i q

/-- The right operand's column is the result's column. -/
theorem tableDot_rhs_col (i : S150000x64.Idx) (q : dot_S150000x64_S64x64_S150000x64_1_0_0_1_n_n.contr.Idx) :
    (dot_S150000x64_S64x64_S150000x64_1_0_0_1_n_n.rhsIdx i q 1).val = (i 1).val := by
  unfold DotDims.rhsIdx
  rw [dif_neg (show ¬(1 : Fin S64x64.rank) ∈ dot_S150000x64_S64x64_S150000x64_1_0_0_1_n_n.rhsBatch from List.not_mem_nil),
    dif_pos (show (1 : Fin S64x64.rank) ∈ dot_S150000x64_S64x64_S150000x64_1_0_0_1_n_n.rhsNonContracting from List.mem_singleton.mpr rfl)]
  rfl

/-- The table's product at entry (i, j): Σ_k x(i, k) · w(k, j). The sum over the one-axis contraction index is
    re-indexed by that axis's coordinate. -/
theorem tableDot_apply (x : FVec Ideal S150000x64 .f32) (w : FVec Ideal S64x64 .f32) (i : Fin 150000) (j : Fin 64) :
    Host.dotGeneral (F := Ideal) (φ₁ := .f32) (φ₂ := .f32) dot_S150000x64_S64x64_S150000x64_1_0_0_1_n_n none x w (ix2 i j)
      = ∑ k : Fin 64, x (ix2 i k) * w (ix2 k j) := by
  simp only [Host.dotGeneral]
  rw [Ideal.dotGeneral_apply, ← Equiv.sum_comp (contrEquiv1 dot_S150000x64_S64x64_S150000x64_1_0_0_1_n_n 64 rfl rfl).symm]
  refine Finset.sum_congr rfl fun k _ => ?_
  have hk := contrEquiv1_symm_val dot_S150000x64_S64x64_S150000x64_1_0_0_1_n_n 64 rfl rfl k
  have el : dot_S150000x64_S64x64_S150000x64_1_0_0_1_n_n.lhsIdx (ix2 i j) ((contrEquiv1 dot_S150000x64_S64x64_S150000x64_1_0_0_1_n_n 64 rfl rfl).symm k) = ix2 i k :=
    funext fun a => Fin.ext (by
      match a with
      | ⟨0, _⟩ => exact tableDot_lhs_row _ _
      | ⟨1, _⟩ => exact (tableDot_lhs_col _ _).trans hk)
  have er : dot_S150000x64_S64x64_S150000x64_1_0_0_1_n_n.rhsIdx (ix2 i j) ((contrEquiv1 dot_S150000x64_S64x64_S150000x64_1_0_0_1_n_n 64 rfl rfl).symm k) = ix2 k j :=
    funext fun a => Fin.ext (by
      match a with
      | ⟨0, _⟩ => exact (tableDot_rhs_row _ _).trans hk
      | ⟨1, _⟩ => exact tableDot_rhs_col _ _)
  rw [el, er]

/-! ## The operations that move no data -/

/-- A bias row [1, 64] spread over the 150000 rows reads, at (i, j), the row's entry of column j. -/
theorem biasRow_apply (b : Row Ideal) (i : Fin 150000) (j : Fin 64) :
    broadcastInDim S150000x64 ![0, 1] bcast_S1x64_S150000x64_0_1 b (ix2 i j) = b (ix2 0 j) := by
  refine broadcastInDim_apply _ _ b (ix2 i j) (ix2 (0 : Fin 1) j) fun a => ?_
  match a with
  | ⟨0, _⟩ => rfl
  | ⟨1, _⟩ =>
    show j.val = if (64 : ℕ) = 1 then 0 else j.val
    rw [if_neg (by decide)]

/-- A column [150000, 1] spread over the 64 columns reads, at (i, j), the column's entry of row i. -/
theorem normColumn_apply {α : Type} (c : S150000x1.Idx → α) (i : Fin 150000) (j : Fin 64) :
    broadcastInDim S150000x64 ![0, 1] bcast_S150000x1_S150000x64_0_1 c (ix2 i j) = c (ix2 i (0 : Fin 1)) := by
  refine broadcastInDim_apply _ _ c (ix2 i j) (ix2 i (0 : Fin 1)) fun a => ?_
  match a with
  | ⟨0, _⟩ =>
    show i.val = if (150000 : ℕ) = 1 then 0 else i.val
    rw [if_neg (by decide)]
  | ⟨1, _⟩ => rfl

/-- A vector [150000] kept as a column [150000, 1] reads, at (i, u), the vector's entry i. -/
theorem sumColumn_apply {α : Type} (v : S150000.Idx → α) (i : Fin 150000) (u : Fin 1) :
    broadcastInDim S150000x1 ![0] bcast_S150000_S150000x1_0 v (ix2 i u) = v (ix1 i) := by
  refine broadcastInDim_apply _ _ v (ix2 i u) (ix1 i) fun a => ?_
  match a with
  | ⟨0, _⟩ =>
    show i.val = if (150000 : ℕ) = 1 then 0 else i.val
    rw [if_neg (by decide)]

/-- A scalar constant spread over any shape reads the extended real its word denotes, everywhere. -/
private theorem scalarConst_apply {t : Shape} (dims : Fin S_.rank → Fin t.rank) (h : S_.BroadcastsInDim t dims)
    (b : BitVec 32) (j : t.Idx) : broadcastInDim t dims h (constant (F := Ideal) S_ .f32 b) j = Ideal.ofBits .f32 b := rfl

/-- The host's quotient and square root at an entry are the extended reals' division and square root of the entries. -/
private theorem hostQuot_apply {s : Shape} (a b : FVec Ideal s .f32) (i : s.Idx) :
    Host.divf a b i = Ideal.div (a i) (b i) := rfl
private theorem hostRoot_apply {s : Shape} (a : FVec Ideal s .f32) (i : s.Idx) :
    Host.sqrt a i = Ideal.sqrt (a i) := rfl

/-! ## The row sum -/

/-- The sum over the columns of a table, started from zero, at row i: Σ_k x(i, k) (the zero it starts from is the
    additive identity). -/
theorem rowSum_apply (x : FVec Ideal S150000x64 .f32) (i : Fin 150000) :
    Host.reduceAdd (F := Ideal) x (constant (F := Ideal) S_ .f32 0x00000000#32) reducesTo_S150000x64_S150000_d1 h_S_ (ix1 i)
      = ∑ k : Fin 64, x (ix2 i k) := by
  simp only [Host.reduceAdd, Ideal.hostReduceAdd_def]
  rw [Ideal.hostReduceAdd_single reducesTo_S150000x64_S150000_d1 (by decide)]
  rw [constant_apply, Ideal.ofBits_zero_f32, zero_add]
  exact Finset.sum_congr rfl fun k _ => congrArg x (funext fun a => Fin.ext (by
    match a with
    | ⟨0, _⟩ => rfl
    | ⟨1, _⟩ => rfl))

/-! ## The layer at an entry -/

/-- The table-wide rectifier at an entry is the scalar rectifier of the entry: the two constants are spread
    scalars, the comparison, the product and the select are pointwise. -/
theorem lrelu_apply (x : Tbl Ideal) (i : S150000x64.Idx) : lrelu x i = Cert.RowSpec.lrelu (x i) := by
  unfold lrelu
  exact Cert.RowSpec.select_eq_lrelu (x i)

/-- Entry (i, j) of the layer's new table is the row formula of row i of `ego` and `side`. -/
theorem layerEgo_apply (ego side : Tbl Ideal) (wg : Mat Ideal) (bg : Row Ideal) (wb : Mat Ideal) (bb : Row Ideal)
    (i : Fin 150000) (j : Fin 64) :
    layerEgo ego side wg bg wb bb (ix2 i j)
      = Cert.RowSpec.rowEgo (fun k => ego (ix2 i k)) (fun k => side (ix2 i k)) (fun k j => wg (ix2 k j))
          (fun j => bg (ix2 0 j)) (fun k j => wb (ix2 k j)) (fun j => bb (ix2 0 j)) j := by
  unfold layerEgo
  rw [addf_apply, lrelu_apply, lrelu_apply, addf_apply, addf_apply, tableDot_apply, tableDot_apply, biasRow_apply,
    biasRow_apply]
  rfl

/-- Entry (i, j) of the normalised table is the norm formula of row i of the table: the squares are summed over
    row i, the sum is kept as a column and read back at row i whatever the column, and the square root, the maximum
    with the floor and the quotient are pointwise. -/
theorem layerNorm_apply (e : Tbl Ideal) (i : Fin 150000) (j : Fin 64) :
    layerNorm e (ix2 i j) = Cert.RowSpec.rowNorm (fun k => e (ix2 i k)) j := by
  unfold layerNorm
  rw [hostQuot_apply, normColumn_apply, maximumf_apply, hostRoot_apply, sumColumn_apply, rowSum_apply,
    scalarConst_apply]
  rfl

end Cert.ReferenceIdeal.Hand

end
-- ==== Proof.KIValue.lean ====
/-
  What each layer's pallas_call leaves in its two output arrays, at the exact instance: the layer's new table and its
  row-normalised form, as the whole-array functions the reference applies. Row `6000 t + r` of either output is computed
  at grid point `t` from row `r` of the table's block and of the sparse product's block, by the same per-row function
  the reference's whole-array operations apply to row `6000 t + r`; the 25 blocks cover the table.
-/
import proofs.«161637_j18365280158072_1_alg».proof.Proof.KICover
import proofs.«161637_j18365280158072_1_alg».proof.Proof.PayVal
import proofs.«161637_j18365280158072_1_alg».proof.Proof.RefVal
import proofs.«161637_j18365280158072_1_alg».proof.Proof.Gen.ReferenceIdeal
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open Cert.ReferenceIdeal.Hand (layerEgo layerNorm layerEgo_apply layerNorm_apply)

theorem hz : (![0, 0] : Fin 2 → Nat) = fun _ => 0 := funext fun a => by fin_cases a <;> rfl

variable (V : (c : Dev nD) → (b : Ref sig .tc) → Buf (Elt Ideal) ((c : Thread nD τ).loc b))

/-! ## Layer 0 -/

/-- At point `t`, row `r`: the body's first payload of the six input blocks is the layer's new table at row
    `6000 t + r` — both are the one per-row function of that row of the table and of its sparse product. -/
theorem ego_pt0 (c : Dev nD) (t : Fin cfg0.N) (r : Fin 6000) (j : Fin 64) :
    Gen.k0_pay1 (F := Ideal) (iblk0 V c 0 t) (iblk0 V c 1 t) (iblk0 V c 2 t) (iblk0 V c 4 t) (iblk0 V c 3 t) (iblk0 V c 5 t) (ix2 r j)
      = layerEgo (V c main_v0) (V c main_v13) (V c main_arg2) (V c main_arg3) (V c main_arg4) (V c main_arg5) (ix2 (rowOf0 t r) j) := by
  refine (pay1_apply _ _ _ _ _ _ r j).trans ?_
  refine Eq.trans ?_ (layerEgo_apply _ _ _ _ _ _ (rowOf0 t r) j).symm
  simp only [iblk0_0_apply V c t, iblk0_1_apply V c t, iblk0_2_apply V c t, iblk0_3_apply V c t, iblk0_4_apply V c t, iblk0_5_apply V c t]

/-- The same for the second payload: the normalised row. -/
theorem norm_pt0 (c : Dev nD) (t : Fin cfg0.N) (r : Fin 6000) (j : Fin 64) :
    Gen.k0_pay2 (F := Ideal) (iblk0 V c 0 t) (iblk0 V c 1 t) (iblk0 V c 2 t) (iblk0 V c 4 t) (iblk0 V c 3 t) (iblk0 V c 5 t) (ix2 r j)
      = layerNorm (layerEgo (V c main_v0) (V c main_v13) (V c main_arg2) (V c main_arg3) (V c main_arg4) (V c main_arg5)) (ix2 (rowOf0 t r) j) := by
  refine (pay2_apply _ _ _ _ _ _ r j).trans ?_
  refine Eq.trans ?_ (layerNorm_apply _ (rowOf0 t r) j).symm
  simp only [ego_pt0 V c t r]

/-- What point `t` writes back through output window 6 is block `t` of the layer's new table. -/
theorem flushed0_6 (c : Dev nD) (t : Fin cfg0.N) :
    (dat0 (F := Ideal) V c).flushed 6 t = ((cfg0.win 6).blk t).view.read (Elt Ideal)
      (layerEgo (V c main_v0) (V c main_v13) (V c main_arg2) (V c main_arg3) (V c main_arg4) (V c main_arg5)) := by
  show (cfg0.win 6).cut (grid0.coords t) ((dat0 V c).after 6 t) = _
  rw [after0_6]
  unfold out0_6
  rw [View.canon_unit_zero hz]
  simp only [View.ld_unit_zero (S := S6000x64) hz, View.ld_unit_zero (S := S64x64) hz, View.ld_unit_zero (S := S1x64) hz]
  funext y
  obtain ⟨r, j, rfl⟩ : ∃ (r : Fin 6000) (j : Fin 64), y = ix2 r j := ⟨y 0, y 1, eq_ix2 y⟩
  rw [View.read_apply, emb0_6]
  exact ego_pt0 V c t r j

/-- What point `t` writes back through output window 7 is block `t` of the normalised table. -/
theorem flushed0_7 (c : Dev nD) (t : Fin cfg0.N) :
    (dat0 (F := Ideal) V c).flushed 7 t = ((cfg0.win 7).blk t).view.read (Elt Ideal)
      (layerNorm (layerEgo (V c main_v0) (V c main_v13) (V c main_arg2) (V c main_arg3) (V c main_arg4) (V c main_arg5))) := by
  show (cfg0.win 7).cut (grid0.coords t) ((dat0 V c).after 7 t) = _
  rw [after0_7]
  unfold out0_7
  rw [View.canon_unit_zero hz]
  simp only [View.ld_unit_zero (S := S6000x64) hz, View.ld_unit_zero (S := S64x64) hz, View.ld_unit_zero (S := S1x64) hz]
  funext y
  obtain ⟨r, j, rfl⟩ : ∃ (r : Fin 6000) (j : Fin 64), y = ix2 r j := ⟨y 0, y 1, eq_ix2 y⟩
  rw [View.read_apply, emb0_7]
  exact norm_pt0 V c t r j

/-- After the layer's pallas_call its first output array holds the new table, whole. -/
theorem final0_6 (c : Dev nD) : (dat0 (F := Ideal) V c).arrAt 6 cfg0.N
    = layerEgo (V c main_v0) (V c main_v13) (V c main_arg2) (V c main_arg3) (V c main_arg4) (V c main_arg5) :=
  (dat0 V c).arrAt_eq_of_cover 6 _ (fun t _ => flushed0_6 V c t) rowsCovered0_6

/-- … and its second output array the normalised table. -/
theorem final0_7 (c : Dev nD) : (dat0 (F := Ideal) V c).arrAt 7 cfg0.N
    = layerNorm (layerEgo (V c main_v0) (V c main_v13) (V c main_arg2) (V c main_arg3) (V c main_arg4) (V c main_arg5)) :=
  (dat0 V c).arrAt_eq_of_cover 7 _ (fun t _ => flushed0_7 V c t) rowsCovered0_7

/-! ## Layer 1 -/

/-- At point `t`, row `r`: the body's first payload of the six input blocks is the layer's new table at row
    `6000 t + r` — both are the one per-row function of that row of the table and of its sparse product. -/
theorem ego_pt1 (c : Dev nD) (t : Fin cfg1.N) (r : Fin 6000) (j : Fin 64) :
    Gen.k0_pay1 (F := Ideal) (iblk1 V c 0 t) (iblk1 V c 1 t) (iblk1 V c 2 t) (iblk1 V c 4 t) (iblk1 V c 3 t) (iblk1 V c 5 t) (ix2 r j)
      = layerEgo (V c main_v14_0) (V c main_v27) (V c main_arg6) (V c main_arg7) (V c main_arg8) (V c main_arg9) (ix2 (rowOf1 t r) j) := by
  refine (pay1_apply _ _ _ _ _ _ r j).trans ?_
  refine Eq.trans ?_ (layerEgo_apply _ _ _ _ _ _ (rowOf1 t r) j).symm
  simp only [iblk1_0_apply V c t, iblk1_1_apply V c t, iblk1_2_apply V c t, iblk1_3_apply V c t, iblk1_4_apply V c t, iblk1_5_apply V c t]

/-- The same for the second payload: the normalised row. -/
theorem norm_pt1 (c : Dev nD) (t : Fin cfg1.N) (r : Fin 6000) (j : Fin 64) :
    Gen.k0_pay2 (F := Ideal) (iblk1 V c 0 t) (iblk1 V c 1 t) (iblk1 V c 2 t) (iblk1 V c 4 t) (iblk1 V c 3 t) (iblk1 V c 5 t) (ix2 r j)
      = layerNorm (layerEgo (V c main_v14_0) (V c main_v27) (V c main_arg6) (V c main_arg7) (V c main_arg8) (V c main_arg9)) (ix2 (rowOf1 t r) j) := by
  refine (pay2_apply _ _ _ _ _ _ r j).trans ?_
  refine Eq.trans ?_ (layerNorm_apply _ (rowOf1 t r) j).symm
  simp only [ego_pt1 V c t r]

/-- What point `t` writes back through output window 6 is block `t` of the layer's new table. -/
theorem flushed1_6 (c : Dev nD) (t : Fin cfg1.N) :
    (dat1 (F := Ideal) V c).flushed 6 t = ((cfg1.win 6).blk t).view.read (Elt Ideal)
      (layerEgo (V c main_v14_0) (V c main_v27) (V c main_arg6) (V c main_arg7) (V c main_arg8) (V c main_arg9)) := by
  show (cfg1.win 6).cut (grid1.coords t) ((dat1 V c).after 6 t) = _
  rw [after1_6]
  unfold out1_6
  rw [View.canon_unit_zero hz]
  simp only [View.ld_unit_zero (S := S6000x64) hz, View.ld_unit_zero (S := S64x64) hz, View.ld_unit_zero (S := S1x64) hz]
  rw [k1_pay1_eq]
  funext y
  obtain ⟨r, j, rfl⟩ : ∃ (r : Fin 6000) (j : Fin 64), y = ix2 r j := ⟨y 0, y 1, eq_ix2 y⟩
  rw [View.read_apply, emb1_6]
  exact ego_pt1 V c t r j

/-- What point `t` writes back through output window 7 is block `t` of the normalised table. -/
theorem flushed1_7 (c : Dev nD) (t : Fin cfg1.N) :
    (dat1 (F := Ideal) V c).flushed 7 t = ((cfg1.win 7).blk t).view.read (Elt Ideal)
      (layerNorm (layerEgo (V c main_v14_0) (V c main_v27) (V c main_arg6) (V c main_arg7) (V c main_arg8) (V c main_arg9))) := by
  show (cfg1.win 7).cut (grid1.coords t) ((dat1 V c).after 7 t) = _
  rw [after1_7]
  unfold out1_7
  rw [View.canon_unit_zero hz]
  simp only [View.ld_unit_zero (S := S6000x64) hz, View.ld_unit_zero (S := S64x64) hz, View.ld_unit_zero (S := S1x64) hz]
  rw [k1_pay2_eq]
  funext y
  obtain ⟨r, j, rfl⟩ : ∃ (r : Fin 6000) (j : Fin 64), y = ix2 r j := ⟨y 0, y 1, eq_ix2 y⟩
  rw [View.read_apply, emb1_7]
  exact norm_pt1 V c t r j

/-- After the layer's pallas_call its first output array holds the new table, whole. -/
theorem final1_6 (c : Dev nD) : (dat1 (F := Ideal) V c).arrAt 6 cfg1.N
    = layerEgo (V c main_v14_0) (V c main_v27) (V c main_arg6) (V c main_arg7) (V c main_arg8) (V c main_arg9) :=
  (dat1 V c).arrAt_eq_of_cover 6 _ (fun t _ => flushed1_6 V c t) rowsCovered1_6

/-- … and its second output array the normalised table. -/
theorem final1_7 (c : Dev nD) : (dat1 (F := Ideal) V c).arrAt 7 cfg1.N
    = layerNorm (layerEgo (V c main_v14_0) (V c main_v27) (V c main_arg6) (V c main_arg7) (V c main_arg8) (V c main_arg9)) :=
  (dat1 V c).arrAt_eq_of_cover 7 _ (fun t _ => flushed1_7 V c t) rowsCovered1_7

/-! ## Layer 2 -/

/-- At point `t`, row `r`: the body's first payload of the six input blocks is the layer's new table at row
    `6000 t + r` — both are the one per-row function of that row of the table and of its sparse product. -/
theorem ego_pt2 (c : Dev nD) (t : Fin cfg2.N) (r : Fin 6000) (j : Fin 64) :
    Gen.k0_pay1 (F := Ideal) (iblk2 V c 0 t) (iblk2 V c 1 t) (iblk2 V c 2 t) (iblk2 V c 4 t) (iblk2 V c 3 t) (iblk2 V c 5 t) (ix2 r j)
      = layerEgo (V c main_v28_0) (V c main_v41) (V c main_arg10) (V c main_arg11) (V c main_arg12) (V c main_arg13) (ix2 (rowOf2 t r) j) := by
  refine (pay1_apply _ _ _ _ _ _ r j).trans ?_
  refine Eq.trans ?_ (layerEgo_apply _ _ _ _ _ _ (rowOf2 t r) j).symm
  simp only [iblk2_0_apply V c t, iblk2_1_apply V c t, iblk2_2_apply V c t, iblk2_3_apply V c t, iblk2_4_apply V c t, iblk2_5_apply V c t]

/-- The same for the second payload: the normalised row. -/
theorem norm_pt2 (c : Dev nD) (t : Fin cfg2.N) (r : Fin 6000) (j : Fin 64) :
    Gen.k0_pay2 (F := Ideal) (iblk2 V c 0 t) (iblk2 V c 1 t) (iblk2 V c 2 t) (iblk2 V c 4 t) (iblk2 V c 3 t) (iblk2 V c 5 t) (ix2 r j)
      = layerNorm (layerEgo (V c main_v28_0) (V c main_v41) (V c main_arg10) (V c main_arg11) (V c main_arg12) (V c main_arg13)) (ix2 (rowOf2 t r) j) := by
  refine (pay2_apply _ _ _ _ _ _ r j).trans ?_
  refine Eq.trans ?_ (layerNorm_apply _ (rowOf2 t r) j).symm
  simp only [ego_pt2 V c t r]

/-- What point `t` writes back through output window 6 is block `t` of the layer's new table. -/
theorem flushed2_6 (c : Dev nD) (t : Fin cfg2.N) :
    (dat2 (F := Ideal) V c).flushed 6 t = ((cfg2.win 6).blk t).view.read (Elt Ideal)
      (layerEgo (V c main_v28_0) (V c main_v41) (V c main_arg10) (V c main_arg11) (V c main_arg12) (V c main_arg13)) := by
  show (cfg2.win 6).cut (grid2.coords t) ((dat2 V c).after 6 t) = _
  rw [after2_6]
  unfold out2_6
  rw [View.canon_unit_zero hz]
  simp only [View.ld_unit_zero (S := S6000x64) hz, View.ld_unit_zero (S := S64x64) hz, View.ld_unit_zero (S := S1x64) hz]
  rw [k2_pay1_eq]
  funext y
  obtain ⟨r, j, rfl⟩ : ∃ (r : Fin 6000) (j : Fin 64), y = ix2 r j := ⟨y 0, y 1, eq_ix2 y⟩
  rw [View.read_apply, emb2_6]
  exact ego_pt2 V c t r j

/-- What point `t` writes back through output window 7 is block `t` of the normalised table. -/
theorem flushed2_7 (c : Dev nD) (t : Fin cfg2.N) :
    (dat2 (F := Ideal) V c).flushed 7 t = ((cfg2.win 7).blk t).view.read (Elt Ideal)
      (layerNorm (layerEgo (V c main_v28_0) (V c main_v41) (V c main_arg10) (V c main_arg11) (V c main_arg12) (V c main_arg13))) := by
  show (cfg2.win 7).cut (grid2.coords t) ((dat2 V c).after 7 t) = _
  rw [after2_7]
  unfold out2_7
  rw [View.canon_unit_zero hz]
  simp only [View.ld_unit_zero (S := S6000x64) hz, View.ld_unit_zero (S := S64x64) hz, View.ld_unit_zero (S := S1x64) hz]
  rw [k2_pay2_eq]
  funext y
  obtain ⟨r, j, rfl⟩ : ∃ (r : Fin 6000) (j : Fin 64), y = ix2 r j := ⟨y 0, y 1, eq_ix2 y⟩
  rw [View.read_apply, emb2_7]
  exact norm_pt2 V c t r j

/-- After the layer's pallas_call its first output array holds the new table, whole. -/
theorem final2_6 (c : Dev nD) : (dat2 (F := Ideal) V c).arrAt 6 cfg2.N
    = layerEgo (V c main_v28_0) (V c main_v41) (V c main_arg10) (V c main_arg11) (V c main_arg12) (V c main_arg13) :=
  (dat2 V c).arrAt_eq_of_cover 6 _ (fun t _ => flushed2_6 V c t) rowsCovered2_6

/-- … and its second output array the normalised table. -/
theorem final2_7 (c : Dev nD) : (dat2 (F := Ideal) V c).arrAt 7 cfg2.N
    = layerNorm (layerEgo (V c main_v28_0) (V c main_v41) (V c main_arg10) (V c main_arg11) (V c main_arg12) (V c main_arg13)) :=
  (dat2 V c).arrAt_eq_of_cover 7 _ (fun t _ => flushed2_7 V c t) rowsCovered2_7

end Cert.KernelIdeal.Hand

end
-- ==== Proof.KITop.lean ====
/-
  The kernel program's result, at the exact instance, as one term of its seventeen argument arrays: the starting table
  beside the three layers' normalised tables, each layer's table computed from the one before by the sparse product and
  the layer's dense function. Every host stretch and every pallas_call reads its operands where the one before left
  them; nothing writes an argument or a value a later item reads.
-/
import proofs.«161637_j18365280158072_1_alg».proof.Proof.KIKeep
import proofs.«161637_j18365280158072_1_alg».proof.Proof.KIHost
import Idealize.ShloMosaic.PureOps.Ideal
import proofs.«161637_j18365280158072_1_alg».proof.Proof.KIValue
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.ReferenceIdeal.Hand (layerEgo layerNorm)

variable (m : (ℓ : Loc nD τ sig) → Buf (Elt Ideal) ℓ) (c : Dev nD)

/-- The starting table and the three layers' tables, from the launch memory. -/
def E0 : TblK Ideal := ego0K (m ((c.tc : Thread nD τ).loc main_arg0)) (m ((c.tc : Thread nD τ).loc main_arg1))
def E1 : TblK Ideal := layerEgo (E0 m c) (spmmK (E0 m c) (m ((c.tc : Thread nD τ).loc main_arg14)) (m ((c.tc : Thread nD τ).loc main_arg15)) (m ((c.tc : Thread nD τ).loc main_arg16))) (m ((c.tc : Thread nD τ).loc main_arg2)) (m ((c.tc : Thread nD τ).loc main_arg3)) (m ((c.tc : Thread nD τ).loc main_arg4)) (m ((c.tc : Thread nD τ).loc main_arg5))
def E2 : TblK Ideal := layerEgo (E1 m c) (spmmK (E1 m c) (m ((c.tc : Thread nD τ).loc main_arg14)) (m ((c.tc : Thread nD τ).loc main_arg15)) (m ((c.tc : Thread nD τ).loc main_arg16))) (m ((c.tc : Thread nD τ).loc main_arg6)) (m ((c.tc : Thread nD τ).loc main_arg7)) (m ((c.tc : Thread nD τ).loc main_arg8)) (m ((c.tc : Thread nD τ).loc main_arg9))
def E3 : TblK Ideal := layerEgo (E2 m c) (spmmK (E2 m c) (m ((c.tc : Thread nD τ).loc main_arg14)) (m ((c.tc : Thread nD τ).loc main_arg15)) (m ((c.tc : Thread nD τ).loc main_arg16))) (m ((c.tc : Thread nD τ).loc main_arg10)) (m ((c.tc : Thread nD τ).loc main_arg11)) (m ((c.tc : Thread nD τ).loc main_arg12)) (m ((c.tc : Thread nD τ).loc main_arg13))

/-! ### A buffer no item before a boundary writes holds its launch contents there -/

theorem k1 (b : Ref sig .tc) (h : b ∉ hostOps0_W) : W1 m c (Proc.devRef .tc b) = m ((c.tc : Thread nD τ).loc b) :=
  host0_keep (W0 m c) b h
theorem k2 (b : Ref sig .tc) (h : b ∉ hostOps0_W) (h6 : b ≠ main_v14_0) (h7 : b ≠ main_v14_1) :
    W2 m c (Proc.devRef .tc b) = m ((c.tc : Thread nD τ).loc b) :=
  (W2_keep m c b h6 h7).trans (k1 m c b h)
theorem k3 (b : Ref sig .tc) (h : b ∉ hostOps0_W) (h6 : b ≠ main_v14_0) (h7 : b ≠ main_v14_1) (h' : b ∉ hostOps1_W) :
    W3 m c (Proc.devRef .tc b) = m ((c.tc : Thread nD τ).loc b) :=
  (host1_keep (W2 m c) b h').trans (k2 m c b h h6 h7)
theorem k4 (b : Ref sig .tc) (h : b ∉ hostOps0_W) (h6 : b ≠ main_v14_0) (h7 : b ≠ main_v14_1) (h' : b ∉ hostOps1_W)
    (g6 : b ≠ main_v28_0) (g7 : b ≠ main_v28_1) : W4 m c (Proc.devRef .tc b) = m ((c.tc : Thread nD τ).loc b) :=
  (W4_keep m c b g6 g7).trans (k3 m c b h h6 h7 h')
theorem k5 (b : Ref sig .tc) (h : b ∉ hostOps0_W) (h6 : b ≠ main_v14_0) (h7 : b ≠ main_v14_1) (h' : b ∉ hostOps1_W)
    (g6 : b ≠ main_v28_0) (g7 : b ≠ main_v28_1) (h'' : b ∉ hostOps2_W) : W5 m c (Proc.devRef .tc b) = m ((c.tc : Thread nD τ).loc b) :=
  (host2_keep (W4 m c) b h'').trans (k4 m c b h h6 h7 h' g6 g7)

/-! ### Layer 0 -/

theorem W1_v0 : W1 m c (Proc.devRef .tc main_v0) = E0 m c := host0_ego (W0 m c)
theorem W1_v13 : W1 m c (Proc.devRef .tc main_v13) = spmmK (E0 m c) (m ((c.tc : Thread nD τ).loc main_arg14)) (m ((c.tc : Thread nD τ).loc main_arg15)) (m ((c.tc : Thread nD τ).loc main_arg16)) := host0_side (W0 m c)

theorem W2_v14_0 : W2 m c (Proc.devRef .tc main_v14_0) = E1 m c := by
  refine (W2_arr m c 6).trans ((final0_6 (V1 m) c).trans ?_)
  show layerEgo (W1 m c (Proc.devRef .tc main_v0)) (W1 m c (Proc.devRef .tc main_v13)) (W1 m c (Proc.devRef .tc main_arg2)) (W1 m c (Proc.devRef .tc main_arg3)) (W1 m c (Proc.devRef .tc main_arg4)) (W1 m c (Proc.devRef .tc main_arg5)) = _
  rw [W1_v0, W1_v13, k1 m c main_arg2 (by decide), k1 m c main_arg3 (by decide), k1 m c main_arg4 (by decide), k1 m c main_arg5 (by decide)]
  rfl
theorem W2_v14_1 : W2 m c (Proc.devRef .tc main_v14_1) = layerNorm (E1 m c) := by
  refine (W2_arr m c 7).trans ((final0_7 (V1 m) c).trans ?_)
  show layerNorm (layerEgo (W1 m c (Proc.devRef .tc main_v0)) (W1 m c (Proc.devRef .tc main_v13)) (W1 m c (Proc.devRef .tc main_arg2)) (W1 m c (Proc.devRef .tc main_arg3)) (W1 m c (Proc.devRef .tc main_arg4)) (W1 m c (Proc.devRef .tc main_arg5))) = _
  rw [W1_v0, W1_v13, k1 m c main_arg2 (by decide), k1 m c main_arg3 (by decide), k1 m c main_arg4 (by decide), k1 m c main_arg5 (by decide)]
  rfl

/-! ### Layer 1 -/

theorem W3_v14_0 : W3 m c (Proc.devRef .tc main_v14_0) = E1 m c :=
  (host1_keep (W2 m c) main_v14_0 (by decide)).trans (W2_v14_0 m c)
theorem W3_v27 : W3 m c (Proc.devRef .tc main_v27) = spmmK (E1 m c) (m ((c.tc : Thread nD τ).loc main_arg14)) (m ((c.tc : Thread nD τ).loc main_arg15)) (m ((c.tc : Thread nD τ).loc main_arg16)) := by
  refine (host1_side (W2 m c)).trans ?_
  rw [W2_v14_0, k2 m c main_arg14 (by decide) (by decide) (by decide), k2 m c main_arg15 (by decide) (by decide) (by decide), k2 m c main_arg16 (by decide) (by decide) (by decide)]

theorem W4_v28_0 : W4 m c (Proc.devRef .tc main_v28_0) = E2 m c := by
  refine (W4_arr m c 6).trans ((final1_6 (V3 m) c).trans ?_)
  show layerEgo (W3 m c (Proc.devRef .tc main_v14_0)) (W3 m c (Proc.devRef .tc main_v27)) (W3 m c (Proc.devRef .tc main_arg6)) (W3 m c (Proc.devRef .tc main_arg7)) (W3 m c (Proc.devRef .tc main_arg8)) (W3 m c (Proc.devRef .tc main_arg9)) = _
  rw [W3_v14_0, W3_v27, k3 m c main_arg6 (by decide) (by decide) (by decide) (by decide), k3 m c main_arg7 (by decide) (by decide) (by decide) (by decide), k3 m c main_arg8 (by decide) (by decide) (by decide) (by decide), k3 m c main_arg9 (by decide) (by decide) (by decide) (by decide)]
  rfl
theorem W4_v28_1 : W4 m c (Proc.devRef .tc main_v28_1) = layerNorm (E2 m c) := by
  refine (W4_arr m c 7).trans ((final1_7 (V3 m) c).trans ?_)
  show layerNorm (layerEgo (W3 m c (Proc.devRef .tc main_v14_0)) (W3 m c (Proc.devRef .tc main_v27)) (W3 m c (Proc.devRef .tc main_arg6)) (W3 m c (Proc.devRef .tc main_arg7)) (W3 m c (Proc.devRef .tc main_arg8)) (W3 m c (Proc.devRef .tc main_arg9))) = _
  rw [W3_v14_0, W3_v27, k3 m c main_arg6 (by decide) (by decide) (by decide) (by decide), k3 m c main_arg7 (by decide) (by decide) (by decide) (by decide), k3 m c main_arg8 (by decide) (by decide) (by decide) (by decide), k3 m c main_arg9 (by decide) (by decide) (by decide) (by decide)]
  rfl

/-! ### Layer 2 -/

theorem W5_v28_0 : W5 m c (Proc.devRef .tc main_v28_0) = E2 m c :=
  (host2_keep (W4 m c) main_v28_0 (by decide)).trans (W4_v28_0 m c)
theorem W5_v41 : W5 m c (Proc.devRef .tc main_v41) = spmmK (E2 m c) (m ((c.tc : Thread nD τ).loc main_arg14)) (m ((c.tc : Thread nD τ).loc main_arg15)) (m ((c.tc : Thread nD τ).loc main_arg16)) := by
  refine (host2_side (W4 m c)).trans ?_
  rw [W4_v28_0, k4 m c main_arg14 (by decide) (by decide) (by decide) (by decide) (by decide) (by decide), k4 m c main_arg15 (by decide) (by decide) (by decide) (by decide) (by decide) (by decide), k4 m c main_arg16 (by decide) (by decide) (by decide) (by decide) (by decide) (by decide)]

theorem W6_v42_1 : W6 m c (Proc.devRef .tc main_v42_1) = layerNorm (E3 m c) := by
  refine (W6_arr m c 7).trans ((final2_7 (V5 m) c).trans ?_)
  show layerNorm (layerEgo (W5 m c (Proc.devRef .tc main_v28_0)) (W5 m c (Proc.devRef .tc main_v41)) (W5 m c (Proc.devRef .tc main_arg10)) (W5 m c (Proc.devRef .tc main_arg11)) (W5 m c (Proc.devRef .tc main_arg12)) (W5 m c (Proc.devRef .tc main_arg13))) = _
  rw [W5_v28_0, W5_v41, k5 m c main_arg10 (by decide) (by decide) (by decide) (by decide) (by decide) (by decide) (by decide), k5 m c main_arg11 (by decide) (by decide) (by decide) (by decide) (by decide) (by decide) (by decide), k5 m c main_arg12 (by decide) (by decide) (by decide) (by decide) (by decide) (by decide) (by decide), k5 m c main_arg13 (by decide) (by decide) (by decide) (by decide) (by decide) (by decide) (by decide)]
  rfl

/-! ### The result -/

theorem W6_v0 : W6 m c (Proc.devRef .tc main_v0) = E0 m c :=
  (W6_keep m c main_v0 (by decide) (by decide)).trans <| (host2_keep (W4 m c) main_v0 (by decide)).trans <|
  (W4_keep m c main_v0 (by decide) (by decide)).trans <| (host1_keep (W2 m c) main_v0 (by decide)).trans <|
  (W2_keep m c main_v0 (by decide) (by decide)).trans (W1_v0 m c)
theorem W6_v14_1 : W6 m c (Proc.devRef .tc main_v14_1) = layerNorm (E1 m c) :=
  (W6_keep m c main_v14_1 (by decide) (by decide)).trans <| (host2_keep (W4 m c) main_v14_1 (by decide)).trans <|
  (W4_keep m c main_v14_1 (by decide) (by decide)).trans <| (host1_keep (W2 m c) main_v14_1 (by decide)).trans (W2_v14_1 m c)
theorem W6_v28_1 : W6 m c (Proc.devRef .tc main_v28_1) = layerNorm (E2 m c) :=
  (W6_keep m c main_v28_1 (by decide) (by decide)).trans <| (host2_keep (W4 m c) main_v28_1 (by decide)).trans (W4_v28_1 m c)

/-- The result buffer at the return: the four tables side by side. -/
theorem W7_out : W7 m c (Proc.devRef .tc main_v43)
    = besideK (E0 m c) (layerNorm (E1 m c)) (layerNorm (E2 m c)) (layerNorm (E3 m c)) := by
  refine (host3_out (W6 m c)).trans ?_
  rw [W6_v0, W6_v14_1, W6_v28_1, W6_v42_1]

end Cert.KernelIdeal.Hand

end
-- ==== Proof.RefRun.lean ====
/-
  The run of the reference program with its result named.

  The program is a straight line of 152 array operations once its calls are unfolded: the starting table, then for
  each of three layers the sparse product (16 operations), the dense part (24, the leaky rectifier's seven written out
  at each of its two uses) and the row normalisation (10, the norm's five written out), then the four tables side by side.
  The three layers are the same operations over different buffers. Each stretch is read back from arbitrary contents as
  the named function of `RefSpec` applied to the buffers it reads; a buffer a stretch does not write keeps its contents;
  the stretches compose to `refOut` of the seventeen arguments, which no operation writes.
-/
import proofs.«161637_j18365280158072_1_alg».proof.Proof.RefSpec
import proofs.«161637_j18365280158072_1_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- The starting table: the user rows above the item rows. -/
abbrev opsE0 : List (HloOp τ sig (Elt F)) :=
  [ StableHlo.binary main_arg0 main_arg1 main_v0 ((fun a b => concatenate S150000x64 0 [⟨S50000x64, a⟩, ⟨S100000x64, b⟩] concatenates_S50000x64_S100000x64_S150000x64_d0) : (⟨S50000x64, .f32⟩ : BufTy).Contents (Elt F) → (⟨S100000x64, .f32⟩ : BufTy).Contents (Elt F) → (⟨S150000x64, .f32⟩ : BufTy).Contents (Elt F)) ]

/-- Layer 1, the sparse product: the edge values and indices shaped, the rows gathered, scaled and added into their rows. -/
abbrev opsS0 : List (HloOp τ sig (Elt F)) :=
  [ StableHlo.unary main_arg14 main_v1 (broadcastInDim S2400000x1 ![0] bcast_S2400000_S2400000x1_0 : (⟨S2400000, .f32⟩ : BufTy).Contents (Elt F) → (⟨S2400000x1, .f32⟩ : BufTy).Contents (Elt F)),
    StableHlo.nullary main_c (constantI S_ 32 0#32),
    StableHlo.unary main_c main_v2 (broadcastInDim S2400000 ![] bcast_S_S2400000 : (⟨S_, .i32⟩ : BufTy).Contents (Elt F) → (⟨S2400000, .i32⟩ : BufTy).Contents (Elt F)),
    StableHlo.binary main_arg16 main_v2 main_v3 (cmpi .slt : (⟨S2400000, .i32⟩ : BufTy).Contents (Elt F) → (⟨S2400000, .i32⟩ : BufTy).Contents (Elt F) → (⟨S2400000, .i1⟩ : BufTy).Contents (Elt F)),
    StableHlo.nullary main_c_0 (constantI S_ 32 150000#32),
    StableHlo.unary main_c_0 main_v4 (broadcastInDim S2400000 ![] bcast_S_S2400000 : (⟨S_, .i32⟩ : BufTy).Contents (Elt F) → (⟨S2400000, .i32⟩ : BufTy).Contents (Elt F)),
    StableHlo.binary main_arg16 main_v4 main_v5 (addi : (⟨S2400000, .i32⟩ : BufTy).Contents (Elt F) → (⟨S2400000, .i32⟩ : BufTy).Contents (Elt F) → (⟨S2400000, .i32⟩ : BufTy).Contents (Elt F)),
    StableHlo.ternary main_v3 main_v5 main_arg16 main_v6 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v6 main_v7 (broadcastInDim S2400000x1 ![0] bcast_S2400000_S2400000x1_0 : (⟨S2400000, .i32⟩ : BufTy).Contents (Elt F) → (⟨S2400000x1, .i32⟩ : BufTy).Contents (Elt F)),
    StableHlo.binary main_v0 main_v7 main_v8 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v1 main_v9 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v9 main_v8 main_v10 (mulf : (⟨S2400000x64, .f32⟩ : BufTy).Contents (Elt F) → (⟨S2400000x64, .f32⟩ : BufTy).Contents (Elt F) → (⟨S2400000x64, .f32⟩ : BufTy).Contents (Elt F)),
    StableHlo.nullary main_cst (constant S_ .f32 0x00000000#32),
    StableHlo.unary main_cst main_v11 (broadcastInDim S150000x64 ![] bcast_S_S150000x64 : (⟨S_, .f32⟩ : BufTy).Contents (Elt F) → (⟨S150000x64, .f32⟩ : BufTy).Contents (Elt F)),
    StableHlo.unary main_arg15 main_v12 (broadcastInDim S2400000x1 ![0] bcast_S2400000_S2400000x1_0 : (⟨S2400000, .i32⟩ : BufTy).Contents (Elt F) → (⟨S2400000x1, .i32⟩ : BufTy).Contents (Elt F)),
    StableHlo.ternary main_v11 main_v12 main_v10 main_v13 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- Layer 1, the dense part: the two affine maps, each through the leaky rectifier (its operations written out), and their sum. -/
abbrev opsD0 : List (HloOp τ sig (Elt F)) :=
  [ StableHlo.binary main_v13 main_arg2 main_v14 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v15 (broadcastInDim S150000x64 ![0, 1] bcast_S1x64_S150000x64_0_1 : (⟨S1x64, .f32⟩ : BufTy).Contents (Elt F) → (⟨S150000x64, .f32⟩ : BufTy).Contents (Elt F)),
    StableHlo.binary main_v14 main_v15 main_v16 (addf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S150000x64 ![] bcast_S_S150000x64),
    StableHlo.TRef.binary (.of main_v16 : StableHlo.TRef sig ⟨S150000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S150000x64 ![] bcast_S_S150000x64),
    StableHlo.TRef.binary main_call0.v3 (.of main_v16 : StableHlo.TRef sig ⟨S150000x64, .f32⟩) main_call0.v4 mulf,
    StableHlo.TRef.ternary main_call0.v1 (.of main_v16 : StableHlo.TRef sig ⟨S150000x64, .f32⟩) main_call0.v4 main_call0.call0.v0 select,
    StableHlo.binary main_v0 main_v13 main_v18 (mulf : (⟨S150000x64, .f32⟩ : BufTy).Contents (Elt F) → (⟨S150000x64, .f32⟩ : BufTy).Contents (Elt F) → (⟨S150000x64, .f32⟩ : BufTy).Contents (Elt F)),
    StableHlo.binary main_v18 main_arg4 main_v19 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v20 (broadcastInDim S150000x64 ![0, 1] bcast_S1x64_S150000x64_0_1 : (⟨S1x64, .f32⟩ : BufTy).Contents (Elt F) → (⟨S150000x64, .f32⟩ : BufTy).Contents (Elt F)),
    StableHlo.binary main_v19 main_v20 main_v21 (addf : (⟨S150000x64, .f32⟩ : BufTy).Contents (Elt F) → (⟨S150000x64, .f32⟩ : BufTy).Contents (Elt F) → (⟨S150000x64, .f32⟩ : BufTy).Contents (Elt F)),
    StableHlo.nullary main_cst_2 (constant S_ .f32 0x3E4CCCCD#32),
    StableHlo.TRef.nullary main_call1.cst (constant S_ .f32 0x00000000#32),
    StableHlo.TRef.unary main_call1.cst main_call1.v0 (broadcastInDim S150000x64 ![] bcast_S_S150000x64),
    StableHlo.TRef.binary (.of main_v21 : StableHlo.TRef sig ⟨S150000x64, .f32⟩) main_call1.v0 main_call1.v1 (cmpf .oge),
    StableHlo.TRef.unary (.of main_cst_2 : StableHlo.TRef sig ⟨S_, .f32⟩) main_call1.v2 id,
    StableHlo.TRef.unary main_call1.v2 main_call1.v3 (broadcastInDim S150000x64 ![] bcast_S_S150000x64),
    StableHlo.TRef.binary main_call1.v3 (.of main_v21 : StableHlo.TRef sig ⟨S150000x64, .f32⟩) main_call1.v4 mulf,
    StableHlo.TRef.ternary main_call1.v1 (.of main_v21 : StableHlo.TRef sig ⟨S150000x64, .f32⟩) main_call1.v4 main_call1.call0.v0 select,
    StableHlo.binary main_v17 main_v22 main_v23 (addf : (⟨S150000x64, .f32⟩ : BufTy).Contents (Elt F) → (⟨S150000x64, .f32⟩ : BufTy).Contents (Elt F) → (⟨S150000x64, .f32⟩ : BufTy).Contents (Elt F)) ]

/-- Layer 1, the row normalisation: the squared row norms (the callee's operations written out), the floor 1e-12, the quotient. -/
abbrev opsN0 : List (HloOp τ sig (Elt F)) :=
  [ StableHlo.TRef.binary (.of main_v23 : StableHlo.TRef sig ⟨S150000x64, .f32⟩) (.of main_v23 : StableHlo.TRef sig ⟨S150000x64, .f32⟩) main_call2.v0 mulf,
    StableHlo.TRef.nullary main_call2.cst (constant S_ .f32 0x00000000#32),
    StableHlo.TRef.binary main_call2.v0 main_call2.cst main_call2.v1 (fun x v => Host.reduceAdd x v reducesTo_S150000x64_S150000_d1 h_S_),
    StableHlo.TRef.unary main_call2.v1 main_call2.v2 (broadcastInDim S150000x1 ![0] bcast_S150000_S150000x1_0),
    StableHlo.TRef.unary main_call2.v2 main_call2.v3 Host.sqrt,
    StableHlo.nullary main_cst_3 (constant S_ .f32 0x2B8CBCCC#32),
    StableHlo.unary main_cst_3 main_v25 (broadcastInDim S150000x1 ![] bcast_S_S150000x1 : (⟨S_, .f32⟩ : BufTy).Contents (Elt F) → (⟨S150000x1, .f32⟩ : BufTy).Contents (Elt F)),
    StableHlo.binary main_v24 main_v25 main_v26 (maximumf : (⟨S150000x1, .f32⟩ : BufTy).Contents (Elt F) → (⟨S150000x1, .f32⟩ : BufTy).Contents (Elt F) → (⟨S150000x1, .f32⟩ : BufTy).Contents (Elt F)),
    StableHlo.unary main_v26 main_v27 (broadcastInDim S150000x64 ![0, 1] bcast_S150000x1_S150000x64_0_1 : (⟨S150000x1, .f32⟩ : BufTy).Contents (Elt F) → (⟨S150000x64, .f32⟩ : BufTy).Contents (Elt F)),
    StableHlo.binary main_v23 main_v27 main_v28 (Host.divf : (⟨S150000x64, .f32⟩ : BufTy).Contents (Elt F) → (⟨S150000x64, .f32⟩ : BufTy).Contents (Elt F) → (⟨S150000x64, .f32⟩ : BufTy).Contents (Elt F)) ]

/-- Layer 2, the sparse product. -/
abbrev opsS1 : List (HloOp τ sig (Elt F)) :=
  [ StableHlo.unary main_arg14 main_v29 (broadcastInDim S2400000x1 ![0] bcast_S2400000_S2400000x1_0 : (⟨S2400000, .f32⟩ : BufTy).Contents (Elt F) → (⟨S2400000x1, .f32⟩ : BufTy).Contents (Elt F)),
    StableHlo.nullary main_c_4 (constantI S_ 32 0#32),
    StableHlo.unary main_c_4 main_v30 (broadcastInDim S2400000 ![] bcast_S_S2400000 : (⟨S_, .i32⟩ : BufTy).Contents (Elt F) → (⟨S2400000, .i32⟩ : BufTy).Contents (Elt F)),
    StableHlo.binary main_arg16 main_v30 main_v31 (cmpi .slt : (⟨S2400000, .i32⟩ : BufTy).Contents (Elt F) → (⟨S2400000, .i32⟩ : BufTy).Contents (Elt F) → (⟨S2400000, .i1⟩ : BufTy).Contents (Elt F)),
    StableHlo.nullary main_c_5 (constantI S_ 32 150000#32),
    StableHlo.unary main_c_5 main_v32 (broadcastInDim S2400000 ![] bcast_S_S2400000 : (⟨S_, .i32⟩ : BufTy).Contents (Elt F) → (⟨S2400000, .i32⟩ : BufTy).Contents (Elt F)),
    StableHlo.binary main_arg16 main_v32 main_v33 (addi : (⟨S2400000, .i32⟩ : BufTy).Contents (Elt F) → (⟨S2400000, .i32⟩ : BufTy).Contents (Elt F) → (⟨S2400000, .i32⟩ : BufTy).Contents (Elt F)),
    StableHlo.ternary main_v31 main_v33 main_arg16 main_v34 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v34 main_v35 (broadcastInDim S2400000x1 ![0] bcast_S2400000_S2400000x1_0 : (⟨S2400000, .i32⟩ : BufTy).Contents (Elt F) → (⟨S2400000x1, .i32⟩ : BufTy).Contents (Elt F)),
    StableHlo.binary main_v23 main_v35 main_v36 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v29 main_v37 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v37 main_v36 main_v38 (mulf : (⟨S2400000x64, .f32⟩ : BufTy).Contents (Elt F) → (⟨S2400000x64, .f32⟩ : BufTy).Contents (Elt F) → (⟨S2400000x64, .f32⟩ : BufTy).Contents (Elt F)),
    StableHlo.nullary main_cst_6 (constant S_ .f32 0x00000000#32),
    StableHlo.unary main_cst_6 main_v39 (broadcastInDim S150000x64 ![] bcast_S_S150000x64 : (⟨S_, .f32⟩ : BufTy).Contents (Elt F) → (⟨S150000x64, .f32⟩ : BufTy).Contents (Elt F)),
    StableHlo.unary main_arg15 main_v40 (broadcastInDim S2400000x1 ![0] bcast_S2400000_S2400000x1_0 : (⟨S2400000, .i32⟩ : BufTy).Contents (Elt F) → (⟨S2400000x1, .i32⟩ : BufTy).Contents (Elt F)),
    StableHlo.ternary main_v39 main_v40 main_v38 main_v41 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- Layer 2, the dense part. -/
abbrev opsD1 : List (HloOp τ sig (Elt F)) :=
  [ StableHlo.binary main_v41 main_arg6 main_v42 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg7 main_v43 (broadcastInDim S150000x64 ![0, 1] bcast_S1x64_S150000x64_0_1 : (⟨S1x64, .f32⟩ : BufTy).Contents (Elt F) → (⟨S150000x64, .f32⟩ : BufTy).Contents (Elt F)),
    StableHlo.binary main_v42 main_v43 main_v44 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3E4CCCCD#32),
    StableHlo.TRef.nullary main_call3.cst (constant S_ .f32 0x00000000#32),
    StableHlo.TRef.unary main_call3.cst main_call3.v0 (broadcastInDim S150000x64 ![] bcast_S_S150000x64),
    StableHlo.TRef.binary (.of main_v44 : StableHlo.TRef sig ⟨S150000x64, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S150000x64 ![] bcast_S_S150000x64),
    StableHlo.TRef.binary main_call3.v3 (.of main_v44 : StableHlo.TRef sig ⟨S150000x64, .f32⟩) main_call3.v4 mulf,
    StableHlo.TRef.ternary main_call3.v1 (.of main_v44 : StableHlo.TRef sig ⟨S150000x64, .f32⟩) main_call3.v4 main_call3.call0.v0 select,
    StableHlo.binary main_v23 main_v41 main_v46 (mulf : (⟨S150000x64, .f32⟩ : BufTy).Contents (Elt F) → (⟨S150000x64, .f32⟩ : BufTy).Contents (Elt F) → (⟨S150000x64, .f32⟩ : BufTy).Contents (Elt F)),
    StableHlo.binary main_v46 main_arg8 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg9 main_v48 (broadcastInDim S150000x64 ![0, 1] bcast_S1x64_S150000x64_0_1 : (⟨S1x64, .f32⟩ : BufTy).Contents (Elt F) → (⟨S150000x64, .f32⟩ : BufTy).Contents (Elt F)),
    StableHlo.binary main_v47 main_v48 main_v49 (addf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x3E4CCCCD#32),
    StableHlo.TRef.nullary main_call4.cst (constant S_ .f32 0x00000000#32),
    StableHlo.TRef.unary main_call4.cst main_call4.v0 (broadcastInDim S150000x64 ![] bcast_S_S150000x64),
    StableHlo.TRef.binary (.of main_v49 : StableHlo.TRef sig ⟨S150000x64, .f32⟩) main_call4.v0 main_call4.v1 (cmpf .oge),
    StableHlo.TRef.unary (.of main_cst_8 : StableHlo.TRef sig ⟨S_, .f32⟩) main_call4.v2 id,
    StableHlo.TRef.unary main_call4.v2 main_call4.v3 (broadcastInDim S150000x64 ![] bcast_S_S150000x64),
    StableHlo.TRef.binary main_call4.v3 (.of main_v49 : StableHlo.TRef sig ⟨S150000x64, .f32⟩) main_call4.v4 mulf,
    StableHlo.TRef.ternary main_call4.v1 (.of main_v49 : StableHlo.TRef sig ⟨S150000x64, .f32⟩) main_call4.v4 main_call4.call0.v0 select,
    StableHlo.binary main_v45 main_v50 main_v51 (addf : (⟨S150000x64, .f32⟩ : BufTy).Contents (Elt F) → (⟨S150000x64, .f32⟩ : BufTy).Contents (Elt F) → (⟨S150000x64, .f32⟩ : BufTy).Contents (Elt F)) ]

/-- Layer 2, the row normalisation. -/
abbrev opsN1 : List (HloOp τ sig (Elt F)) :=
  [ StableHlo.TRef.binary (.of main_v51 : StableHlo.TRef sig ⟨S150000x64, .f32⟩) (.of main_v51 : StableHlo.TRef sig ⟨S150000x64, .f32⟩) main_call5.v0 mulf,
    StableHlo.TRef.nullary main_call5.cst (constant S_ .f32 0x00000000#32),
    StableHlo.TRef.binary main_call5.v0 main_call5.cst main_call5.v1 (fun x v => Host.reduceAdd x v reducesTo_S150000x64_S150000_d1 h_S_),
    StableHlo.TRef.unary main_call5.v1 main_call5.v2 (broadcastInDim S150000x1 ![0] bcast_S150000_S150000x1_0),
    StableHlo.TRef.unary main_call5.v2 main_call5.v3 Host.sqrt,
    StableHlo.nullary main_cst_9 (constant S_ .f32 0x2B8CBCCC#32),
    StableHlo.unary main_cst_9 main_v53 (broadcastInDim S150000x1 ![] bcast_S_S150000x1 : (⟨S_, .f32⟩ : BufTy).Contents (Elt F) → (⟨S150000x1, .f32⟩ : BufTy).Contents (Elt F)),
    StableHlo.binary main_v52 main_v53 main_v54 (maximumf : (⟨S150000x1, .f32⟩ : BufTy).Contents (Elt F) → (⟨S150000x1, .f32⟩ : BufTy).Contents (Elt F) → (⟨S150000x1, .f32⟩ : BufTy).Contents (Elt F)),
    StableHlo.unary main_v54 main_v55 (broadcastInDim S150000x64 ![0, 1] bcast_S150000x1_S150000x64_0_1 : (⟨S150000x1, .f32⟩ : BufTy).Contents (Elt F) → (⟨S150000x64, .f32⟩ : BufTy).Contents (Elt F)),
    StableHlo.binary main_v51 main_v55 main_v56 (Host.divf : (⟨S150000x64, .f32⟩ : BufTy).Contents (Elt F) → (⟨S150000x64, .f32⟩ : BufTy).Contents (Elt F) → (⟨S150000x64, .f32⟩ : BufTy).Contents (Elt F)) ]

/-- Layer 3, the sparse product. -/
abbrev opsS2 : List (HloOp τ sig (Elt F)) :=
  [ StableHlo.unary main_arg14 main_v57 (broadcastInDim S2400000x1 ![0] bcast_S2400000_S2400000x1_0 : (⟨S2400000, .f32⟩ : BufTy).Contents (Elt F) → (⟨S2400000x1, .f32⟩ : BufTy).Contents (Elt F)),
    StableHlo.nullary main_c_10 (constantI S_ 32 0#32),
    StableHlo.unary main_c_10 main_v58 (broadcastInDim S2400000 ![] bcast_S_S2400000 : (⟨S_, .i32⟩ : BufTy).Contents (Elt F) → (⟨S2400000, .i32⟩ : BufTy).Contents (Elt F)),
    StableHlo.binary main_arg16 main_v58 main_v59 (cmpi .slt : (⟨S2400000, .i32⟩ : BufTy).Contents (Elt F) → (⟨S2400000, .i32⟩ : BufTy).Contents (Elt F) → (⟨S2400000, .i1⟩ : BufTy).Contents (Elt F)),
    StableHlo.nullary main_c_11 (constantI S_ 32 150000#32),
    StableHlo.unary main_c_11 main_v60 (broadcastInDim S2400000 ![] bcast_S_S2400000 : (⟨S_, .i32⟩ : BufTy).Contents (Elt F) → (⟨S2400000, .i32⟩ : BufTy).Contents (Elt F)),
    StableHlo.binary main_arg16 main_v60 main_v61 (addi : (⟨S2400000, .i32⟩ : BufTy).Contents (Elt F) → (⟨S2400000, .i32⟩ : BufTy).Contents (Elt F) → (⟨S2400000, .i32⟩ : BufTy).Contents (Elt F)),
    StableHlo.ternary main_v59 main_v61 main_arg16 main_v62 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    StableHlo.unary main_v62 main_v63 (broadcastInDim S2400000x1 ![0] bcast_S2400000_S2400000x1_0 : (⟨S2400000, .i32⟩ : BufTy).Contents (Elt F) → (⟨S2400000x1, .i32⟩ : BufTy).Contents (Elt F)),
    StableHlo.binary main_v51 main_v63 main_v64 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    StableHlo.unary main_v57 main_v65 (broadcastInDim S2400000x64 ![0, 1] bcast_S2400000x1_S2400000x64_0_1 : (⟨S2400000x1, .f32⟩ : BufTy).Contents (Elt F) → (⟨S2400000x64, .f32⟩ : BufTy).Contents (Elt F)),
    StableHlo.binary main_v65 main_v64 main_v66 (mulf : (⟨S2400000x64, .f32⟩ : BufTy).Contents (Elt F) → (⟨S2400000x64, .f32⟩ : BufTy).Contents (Elt F) → (⟨S2400000x64, .f32⟩ : BufTy).Contents (Elt F)),
    StableHlo.nullary main_cst_12 (constant S_ .f32 0x00000000#32),
    StableHlo.unary main_cst_12 main_v67 (broadcastInDim S150000x64 ![] bcast_S_S150000x64 : (⟨S_, .f32⟩ : BufTy).Contents (Elt F) → (⟨S150000x64, .f32⟩ : BufTy).Contents (Elt F)),
    StableHlo.unary main_arg15 main_v68 (broadcastInDim S2400000x1 ![0] bcast_S2400000_S2400000x1_0 : (⟨S2400000, .i32⟩ : BufTy).Contents (Elt F) → (⟨S2400000x1, .i32⟩ : BufTy).Contents (Elt F)),
    StableHlo.ternary main_v67 main_v68 main_v66 main_v69 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

/-- Layer 3, the dense part. -/
abbrev opsD2 : List (HloOp τ sig (Elt F)) :=
  [ StableHlo.binary main_v69 main_arg10 main_v70 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg11 main_v71 (broadcastInDim S150000x64 ![0, 1] bcast_S1x64_S150000x64_0_1 : (⟨S1x64, .f32⟩ : BufTy).Contents (Elt F) → (⟨S150000x64, .f32⟩ : BufTy).Contents (Elt F)),
    StableHlo.binary main_v70 main_v71 main_v72 (addf : (⟨S150000x64, .f32⟩ : BufTy).Contents (Elt F) → (⟨S150000x64, .f32⟩ : BufTy).Contents (Elt F) → (⟨S150000x64, .f32⟩ : BufTy).Contents (Elt F)),
    StableHlo.nullary main_cst_13 (constant S_ .f32 0x3E4CCCCD#32),
    StableHlo.TRef.nullary main_call6.cst (constant S_ .f32 0x00000000#32),
    StableHlo.TRef.unary main_call6.cst main_call6.v0 (broadcastInDim S150000x64 ![] bcast_S_S150000x64),
    StableHlo.TRef.binary (.of main_v72 : StableHlo.TRef sig ⟨S150000x64, .f32⟩) main_call6.v0 main_call6.v1 (cmpf .oge),
    StableHlo.TRef.unary (.of main_cst_13 : StableHlo.TRef sig ⟨S_, .f32⟩) main_call6.v2 id,
    StableHlo.TRef.unary main_call6.v2 main_call6.v3 (broadcastInDim S150000x64 ![] bcast_S_S150000x64),
    StableHlo.TRef.binary main_call6.v3 (.of main_v72 : StableHlo.TRef sig ⟨S150000x64, .f32⟩) main_call6.v4 mulf,
    StableHlo.TRef.ternary main_call6.v1 (.of main_v72 : StableHlo.TRef sig ⟨S150000x64, .f32⟩) main_call6.v4 main_call6.call0.v0 select,
    StableHlo.binary main_v51 main_v69 main_v74 (mulf : (⟨S150000x64, .f32⟩ : BufTy).Contents (Elt F) → (⟨S150000x64, .f32⟩ : BufTy).Contents (Elt F) → (⟨S150000x64, .f32⟩ : BufTy).Contents (Elt F)),
    StableHlo.binary main_v74 main_arg12 main_v75 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg13 main_v76 (broadcastInDim S150000x64 ![0, 1] bcast_S1x64_S150000x64_0_1 : (⟨S1x64, .f32⟩ : BufTy).Contents (Elt F) → (⟨S150000x64, .f32⟩ : BufTy).Contents (Elt F)),
    StableHlo.binary main_v75 main_v76 main_v77 (addf : (⟨S150000x64, .f32⟩ : BufTy).Contents (Elt F) → (⟨S150000x64, .f32⟩ : BufTy).Contents (Elt F) → (⟨S150000x64, .f32⟩ : BufTy).Contents (Elt F)),
    StableHlo.nullary main_cst_14 (constant S_ .f32 0x3E4CCCCD#32),
    StableHlo.TRef.nullary main_call7.cst (constant S_ .f32 0x00000000#32),
    StableHlo.TRef.unary main_call7.cst main_call7.v0 (broadcastInDim S150000x64 ![] bcast_S_S150000x64),
    StableHlo.TRef.binary (.of main_v77 : StableHlo.TRef sig ⟨S150000x64, .f32⟩) main_call7.v0 main_call7.v1 (cmpf .oge),
    StableHlo.TRef.unary (.of main_cst_14 : StableHlo.TRef sig ⟨S_, .f32⟩) main_call7.v2 id,
    StableHlo.TRef.unary main_call7.v2 main_call7.v3 (broadcastInDim S150000x64 ![] bcast_S_S150000x64),
    StableHlo.TRef.binary main_call7.v3 (.of main_v77 : StableHlo.TRef sig ⟨S150000x64, .f32⟩) main_call7.v4 mulf,
    StableHlo.TRef.ternary main_call7.v1 (.of main_v77 : StableHlo.TRef sig ⟨S150000x64, .f32⟩) main_call7.v4 main_call7.call0.v0 select,
    StableHlo.binary main_v73 main_v78 main_v79 (addf : (⟨S150000x64, .f32⟩ : BufTy).Contents (Elt F) → (⟨S150000x64, .f32⟩ : BufTy).Contents (Elt F) → (⟨S150000x64, .f32⟩ : BufTy).Contents (Elt F)) ]

/-- Layer 3, the row normalisation. -/
abbrev opsN2 : List (HloOp τ sig (Elt F)) :=
  [ StableHlo.TRef.binary (.of main_v79 : StableHlo.TRef sig ⟨S150000x64, .f32⟩) (.of main_v79 : StableHlo.TRef sig ⟨S150000x64, .f32⟩) main_call8.v0 mulf,
    StableHlo.TRef.nullary main_call8.cst (constant S_ .f32 0x00000000#32),
    StableHlo.TRef.binary main_call8.v0 main_call8.cst main_call8.v1 (fun x v => Host.reduceAdd x v reducesTo_S150000x64_S150000_d1 h_S_),
    StableHlo.TRef.unary main_call8.v1 main_call8.v2 (broadcastInDim S150000x1 ![0] bcast_S150000_S150000x1_0),
    StableHlo.TRef.unary main_call8.v2 main_call8.v3 Host.sqrt,
    StableHlo.nullary main_cst_15 (constant S_ .f32 0x2B8CBCCC#32),
    StableHlo.unary main_cst_15 main_v81 (broadcastInDim S150000x1 ![] bcast_S_S150000x1 : (⟨S_, .f32⟩ : BufTy).Contents (Elt F) → (⟨S150000x1, .f32⟩ : BufTy).Contents (Elt F)),
    StableHlo.binary main_v80 main_v81 main_v82 (maximumf : (⟨S150000x1, .f32⟩ : BufTy).Contents (Elt F) → (⟨S150000x1, .f32⟩ : BufTy).Contents (Elt F) → (⟨S150000x1, .f32⟩ : BufTy).Contents (Elt F)),
    StableHlo.unary main_v82 main_v83 (broadcastInDim S150000x64 ![0, 1] bcast_S150000x1_S150000x64_0_1 : (⟨S150000x1, .f32⟩ : BufTy).Contents (Elt F) → (⟨S150000x64, .f32⟩ : BufTy).Contents (Elt F)),
    StableHlo.binary main_v79 main_v83 main_v84 (Host.divf : (⟨S150000x64, .f32⟩ : BufTy).Contents (Elt F) → (⟨S150000x64, .f32⟩ : BufTy).Contents (Elt F) → (⟨S150000x64, .f32⟩ : BufTy).Contents (Elt F)) ]

/-- The four tables side by side. -/
abbrev opsC : List (HloOp τ sig (Elt F)) :=
  [ StableHlo.nary ![main_v0, main_v28, main_v56, main_v84] main_v85 (fun u => concatenate S150000x256 1 [⟨S150000x64, u 0⟩, ⟨S150000x64, u 1⟩, ⟨S150000x64, u 2⟩, ⟨S150000x64, u 3⟩] concatenates_S150000x64_S150000x64_S150000x64_S150000x64_S150000x256_d1) ]

/-- The program's 152 operations in order, the calls' bodies in their places. -/
abbrev ops : List (HloOp τ sig (Elt F)) :=
  opsE0 ++ (opsS0 ++ (opsD0 ++ (opsN0 ++ (opsS1 ++ (opsD1 ++ (opsN1 ++ (opsS2 ++ (opsD2 ++ (opsN2 ++ (opsC))))))))))

/-! ## The program is that straight line -/

-- the chain is 152 steps long
set_option maxRecDepth 65536 in
set_option maxHeartbeats 4000000 in
/-- The program is its operations in order: the two windows and the callees' definitions unfolded at their calls, both
    sides are one chain of steps once sequencing is reassociated. -/
theorem main_eq (c : Dev nD) : main (F := F) c = seq ops := by
  simp only [ops, seq_append, main, main_part0, main_part1, fn_leaky_relu.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only. -/

theorem opsE0_sub : (opsE0 : List (HloOp τ sig (Elt F))).Forall fun op => op.bufs ⊆ tcRefs τ sig :=
  binary_bufs_sub ..
theorem opsS0_sub : (opsS0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsD0_sub : (opsD0 : List (HloOp τ sig (Elt F))).Forall fun op => op.bufs ⊆ tcRefs τ sig :=
  ⟨binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩
theorem opsN0_sub : (opsN0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem opsS1_sub : (opsS1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsD1_sub : (opsD1 : List (HloOp τ sig (Elt F))).Forall fun op => op.bufs ⊆ tcRefs τ sig :=
  ⟨binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩
theorem opsN1_sub : (opsN1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem opsS2_sub : (opsS2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem opsD2_sub : (opsD2 : List (HloOp τ sig (Elt F))).Forall fun op => op.bufs ⊆ tcRefs τ sig :=
  ⟨binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩
theorem opsN2_sub : (opsN2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem opsC_sub : (opsC : List (HloOp τ sig (Elt F))).Forall fun op => op.bufs ⊆ tcRefs τ sig :=
  nary_bufs_sub ..
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp opsE0_sub op h, List.forall_iff_forall_mem.mp opsS0_sub op h, List.forall_iff_forall_mem.mp opsD0_sub op h, List.forall_iff_forall_mem.mp opsN0_sub op h, List.forall_iff_forall_mem.mp opsS1_sub op h, List.forall_iff_forall_mem.mp opsD1_sub op h, List.forall_iff_forall_mem.mp opsN1_sub op h, List.forall_iff_forall_mem.mp opsS2_sub op h, List.forall_iff_forall_mem.mp opsD2_sub op h, List.forall_iff_forall_mem.mp opsN2_sub op h, List.forall_iff_forall_mem.mp opsC_sub op h]

/-! ## What each stretch writes, and what it leaves -/

/-- One operation's written buffer is among the listed ones. -/
local macro "wr" : tactic =>
  `(tactic| (simp only [nullary_writes, unary_writes, binary_writes, ternary_writes, nary_writes, Finset.singleton_subset_iff, List.mem_toFinset]
             exact List.mem_map_of_mem (by decide)))

/-- The buffers the stretch writes. -/
abbrev W_E0 : List (Ref sig .tc) := [main_v0]
theorem opsE0_writes : (opsE0 : List (HloOp τ sig (Elt F))).Forall fun op => op.writes ⊆ (W_E0.map (Proc.devRef (τ := τ) .tc)).toFinset := by
  simp only [List.Forall]
  wr
/-- A buffer the stretch does not write keeps its contents through it. -/
theorem keepE0 (V : Valuation τ sig (Elt F)) (r : Ref sig .tc) (h : r ∉ W_E0) :
    after opsE0 V (Proc.devRef .tc r) = V (Proc.devRef .tc r) :=
  after_of_writes_sub opsE0 V opsE0_writes h

/-- The buffers the stretch writes. -/
abbrev W_S0 : List (Ref sig .tc) := [main_v1, main_c, main_v2, main_v3, main_c_0, main_v4, main_v5, main_v6, main_v7, main_v8, main_v9, main_v10, main_cst, main_v11, main_v12, main_v13]
theorem opsS0_writes : (opsS0 : List (HloOp τ sig (Elt F))).Forall fun op => op.writes ⊆ (W_S0.map (Proc.devRef (τ := τ) .tc)).toFinset := by
  simp only [List.Forall]
  exact ⟨by wr, by wr, by wr, by wr, by wr, by wr, by wr, by wr, by wr, by wr, by wr, by wr, by wr, by wr, by wr, by wr⟩
/-- A buffer the stretch does not write keeps its contents through it. -/
theorem keepS0 (V : Valuation τ sig (Elt F)) (r : Ref sig .tc) (h : r ∉ W_S0) :
    after opsS0 V (Proc.devRef .tc r) = V (Proc.devRef .tc r) :=
  after_of_writes_sub opsS0 V opsS0_writes h

/-- The buffers the stretch writes. -/
abbrev W_D0 : List (Ref sig .tc) := [main_v14, main_v15, main_v16, main_cst_1, main_call0_cst, main_call0_v0, main_call0_v1, main_call0_v2, main_call0_v3, main_call0_v4, main_v17, main_v18, main_v19, main_v20, main_v21, main_cst_2, main_call1_cst, main_call1_v0, main_call1_v1, main_call1_v2, main_call1_v3, main_call1_v4, main_v22, main_v23]
theorem opsD0_writes : (opsD0 : List (HloOp τ sig (Elt F))).Forall fun op => op.writes ⊆ (W_D0.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr, by wr⟩
/-- A buffer the stretch does not write keeps its contents through it. -/
theorem keepD0 (V : Valuation τ sig (Elt F)) (r : Ref sig .tc) (h : r ∉ W_D0) :
    after opsD0 V (Proc.devRef .tc r) = V (Proc.devRef .tc r) :=
  after_of_writes_sub opsD0 V opsD0_writes h

/-- The buffers the stretch writes. -/
abbrev W_N0 : List (Ref sig .tc) := [main_call2_v0, main_call2_cst, main_call2_v1, main_call2_v2, main_v24, main_cst_3, main_v25, main_v26, main_v27, main_v28]
theorem opsN0_writes : (opsN0 : List (HloOp τ sig (Elt F))).Forall fun op => op.writes ⊆ (W_N0.map (Proc.devRef (τ := τ) .tc)).toFinset := by
  simp only [List.Forall]
  exact ⟨by wr, by wr, by wr, by wr, by wr, by wr, by wr, by wr, by wr, by wr⟩
/-- A buffer the stretch does not write keeps its contents through it. -/
theorem keepN0 (V : Valuation τ sig (Elt F)) (r : Ref sig .tc) (h : r ∉ W_N0) :
    after opsN0 V (Proc.devRef .tc r) = V (Proc.devRef .tc r) :=
  after_of_writes_sub opsN0 V opsN0_writes h

/-- The buffers the stretch writes. -/
abbrev W_S1 : List (Ref sig .tc) := [main_v29, main_c_4, main_v30, main_v31, main_c_5, main_v32, main_v33, main_v34, main_v35, main_v36, main_v37, main_v38, main_cst_6, main_v39, main_v40, main_v41]
theorem opsS1_writes : (opsS1 : List (HloOp τ sig (Elt F))).Forall fun op => op.writes ⊆ (W_S1.map (Proc.devRef (τ := τ) .tc)).toFinset := by
  simp only [List.Forall]
  exact ⟨by wr, by wr, by wr, by wr, by wr, by wr, by wr, by wr, by wr, by wr, by wr, by wr, by wr, by wr, by wr, by wr⟩
/-- A buffer the stretch does not write keeps its contents through it. -/
theorem keepS1 (V : Valuation τ sig (Elt F)) (r : Ref sig .tc) (h : r ∉ W_S1) :
    after opsS1 V (Proc.devRef .tc r) = V (Proc.devRef .tc r) :=
  after_of_writes_sub opsS1 V opsS1_writes h

/-- The buffers the stretch writes. -/
abbrev W_D1 : List (Ref sig .tc) := [main_v42, main_v43, main_v44, main_cst_7, main_call3_cst, main_call3_v0, main_call3_v1, main_call3_v2, main_call3_v3, main_call3_v4, main_v45, main_v46, main_v47, main_v48, main_v49, main_cst_8, main_call4_cst, main_call4_v0, main_call4_v1, main_call4_v2, main_call4_v3, main_call4_v4, main_v50, main_v51]
theorem opsD1_writes : (opsD1 : List (HloOp τ sig (Elt F))).Forall fun op => op.writes ⊆ (W_D1.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr, by wr⟩
/-- A buffer the stretch does not write keeps its contents through it. -/
theorem keepD1 (V : Valuation τ sig (Elt F)) (r : Ref sig .tc) (h : r ∉ W_D1) :
    after opsD1 V (Proc.devRef .tc r) = V (Proc.devRef .tc r) :=
  after_of_writes_sub opsD1 V opsD1_writes h

/-- The buffers the stretch writes. -/
abbrev W_N1 : List (Ref sig .tc) := [main_call5_v0, main_call5_cst, main_call5_v1, main_call5_v2, main_v52, main_cst_9, main_v53, main_v54, main_v55, main_v56]
theorem opsN1_writes : (opsN1 : List (HloOp τ sig (Elt F))).Forall fun op => op.writes ⊆ (W_N1.map (Proc.devRef (τ := τ) .tc)).toFinset := by
  simp only [List.Forall]
  exact ⟨by wr, by wr, by wr, by wr, by wr, by wr, by wr, by wr, by wr, by wr⟩
/-- A buffer the stretch does not write keeps its contents through it. -/
theorem keepN1 (V : Valuation τ sig (Elt F)) (r : Ref sig .tc) (h : r ∉ W_N1) :
    after opsN1 V (Proc.devRef .tc r) = V (Proc.devRef .tc r) :=
  after_of_writes_sub opsN1 V opsN1_writes h

/-- The buffers the stretch writes. -/
abbrev W_S2 : List (Ref sig .tc) := [main_v57, main_c_10, main_v58, main_v59, main_c_11, main_v60, main_v61, main_v62, main_v63, main_v64, main_v65, main_v66, main_cst_12, main_v67, main_v68, main_v69]
theorem opsS2_writes : (opsS2 : List (HloOp τ sig (Elt F))).Forall fun op => op.writes ⊆ (W_S2.map (Proc.devRef (τ := τ) .tc)).toFinset := by
  simp only [List.Forall]
  exact ⟨by wr, by wr, by wr, by wr, by wr, by wr, by wr, by wr, by wr, by wr, by wr, by wr, by wr, by wr, by wr, by wr⟩
/-- A buffer the stretch does not write keeps its contents through it. -/
theorem keepS2 (V : Valuation τ sig (Elt F)) (r : Ref sig .tc) (h : r ∉ W_S2) :
    after opsS2 V (Proc.devRef .tc r) = V (Proc.devRef .tc r) :=
  after_of_writes_sub opsS2 V opsS2_writes h

/-- The buffers the stretch writes. -/
abbrev W_D2 : List (Ref sig .tc) := [main_v70, main_v71, main_v72, main_cst_13, main_call6_cst, main_call6_v0, main_call6_v1, main_call6_v2, main_call6_v3, main_call6_v4, main_v73, main_v74, main_v75, main_v76, main_v77, main_cst_14, main_call7_cst, main_call7_v0, main_call7_v1, main_call7_v2, main_call7_v3, main_call7_v4, main_v78, main_v79]
theorem opsD2_writes : (opsD2 : List (HloOp τ sig (Elt F))).Forall fun op => op.writes ⊆ (W_D2.map (Proc.devRef (τ := τ) .tc)).toFinset := by
  simp only [List.Forall]
  exact ⟨by wr, by wr, by wr, by wr, by wr, by wr, by wr, by wr, by wr, by wr, by wr, by wr, by wr, by wr, by wr, by wr, by wr, by wr, by wr, by wr, by wr, by wr, by wr, by wr⟩
/-- A buffer the stretch does not write keeps its contents through it. -/
theorem keepD2 (V : Valuation τ sig (Elt F)) (r : Ref sig .tc) (h : r ∉ W_D2) :
    after opsD2 V (Proc.devRef .tc r) = V (Proc.devRef .tc r) :=
  after_of_writes_sub opsD2 V opsD2_writes h

/-- The buffers the stretch writes. -/
abbrev W_N2 : List (Ref sig .tc) := [main_call8_v0, main_call8_cst, main_call8_v1, main_call8_v2, main_v80, main_cst_15, main_v81, main_v82, main_v83, main_v84]
theorem opsN2_writes : (opsN2 : List (HloOp τ sig (Elt F))).Forall fun op => op.writes ⊆ (W_N2.map (Proc.devRef (τ := τ) .tc)).toFinset := by
  simp only [List.Forall]
  exact ⟨by wr, by wr, by wr, by wr, by wr, by wr, by wr, by wr, by wr, by wr⟩
/-- A buffer the stretch does not write keeps its contents through it. -/
theorem keepN2 (V : Valuation τ sig (Elt F)) (r : Ref sig .tc) (h : r ∉ W_N2) :
    after opsN2 V (Proc.devRef .tc r) = V (Proc.devRef .tc r) :=
  after_of_writes_sub opsN2 V opsN2_writes h

/-- The buffers the stretch writes. -/
abbrev W_C : List (Ref sig .tc) := [main_v85]
theorem opsC_writes : (opsC : List (HloOp τ sig (Elt F))).Forall fun op => op.writes ⊆ (W_C.map (Proc.devRef (τ := τ) .tc)).toFinset := by
  simp only [List.Forall]
  wr
/-- A buffer the stretch does not write keeps its contents through it. -/
theorem keepC (V : Valuation τ sig (Elt F)) (r : Ref sig .tc) (h : r ∉ W_C) :
    after opsC V (Proc.devRef .tc r) = V (Proc.devRef .tc r) :=
  after_of_writes_sub opsC V opsC_writes h

/-! ## Each stretch read back: its result as the named function of what it reads

    From ANY contents `V`: the stretch's last buffer holds the composed term of the buffers the stretch reads, which is
    the named function by unfolding. -/

theorem E0_val (V : Valuation τ sig (Elt F)) :
    after opsE0 V (Proc.devRef .tc main_v0 : DevRef τ sig) = ego0 (V (Proc.devRef .tc main_arg0 : DevRef τ sig)) (V (Proc.devRef .tc main_arg1 : DevRef τ sig)) := by
  simp only [opsE0]
  after_results_simp
  rfl

theorem S0_val (V : Valuation τ sig (Elt F)) :
    after opsS0 V (Proc.devRef .tc main_v13 : DevRef τ sig) = spmm (V (Proc.devRef .tc main_v0 : DevRef τ sig)) (V (Proc.devRef .tc main_arg14 : DevRef τ sig)) (V (Proc.devRef .tc main_arg15 : DevRef τ sig)) (V (Proc.devRef .tc main_arg16 : DevRef τ sig)) := by
  simp only [opsS0]
  after_results_simp
  rfl

set_option maxRecDepth 8192 in
theorem D0_val (V : Valuation τ sig (Elt F)) :
    after opsD0 V (Proc.devRef .tc main_v23 : DevRef τ sig) = layerEgo (V (Proc.devRef .tc main_v0 : DevRef τ sig)) (V (Proc.devRef .tc main_v13 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) := by
  simp only [opsD0]
  after_results_simp
  rfl

set_option maxRecDepth 8192 in
theorem N0_val (V : Valuation τ sig (Elt F)) :
    after opsN0 V (Proc.devRef .tc main_v28 : DevRef τ sig) = layerNorm (V (Proc.devRef .tc main_v23 : DevRef τ sig)) := by
  simp only [opsN0]
  after_results_simp
  rfl

theorem S1_val (V : Valuation τ sig (Elt F)) :
    after opsS1 V (Proc.devRef .tc main_v41 : DevRef τ sig) = spmm (V (Proc.devRef .tc main_v23 : DevRef τ sig)) (V (Proc.devRef .tc main_arg14 : DevRef τ sig)) (V (Proc.devRef .tc main_arg15 : DevRef τ sig)) (V (Proc.devRef .tc main_arg16 : DevRef τ sig)) := by
  simp only [opsS1]
  after_results_simp
  rfl

set_option maxRecDepth 8192 in
theorem D1_val (V : Valuation τ sig (Elt F)) :
    after opsD1 V (Proc.devRef .tc main_v51 : DevRef τ sig) = layerEgo (V (Proc.devRef .tc main_v23 : DevRef τ sig)) (V (Proc.devRef .tc main_v41 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) := by
  simp only [opsD1]
  after_results_simp
  rfl

set_option maxRecDepth 8192 in
theorem N1_val (V : Valuation τ sig (Elt F)) :
    after opsN1 V (Proc.devRef .tc main_v56 : DevRef τ sig) = layerNorm (V (Proc.devRef .tc main_v51 : DevRef τ sig)) := by
  simp only [opsN1]
  after_results_simp
  rfl

theorem S2_val (V : Valuation τ sig (Elt F)) :
    after opsS2 V (Proc.devRef .tc main_v69 : DevRef τ sig) = spmm (V (Proc.devRef .tc main_v51 : DevRef τ sig)) (V (Proc.devRef .tc main_arg14 : DevRef τ sig)) (V (Proc.devRef .tc main_arg15 : DevRef τ sig)) (V (Proc.devRef .tc main_arg16 : DevRef τ sig)) := by
  simp only [opsS2]
  after_results_simp
  rfl

set_option maxRecDepth 8192 in
theorem D2_val (V : Valuation τ sig (Elt F)) :
    after opsD2 V (Proc.devRef .tc main_v79 : DevRef τ sig) = layerEgo (V (Proc.devRef .tc main_v51 : DevRef τ sig)) (V (Proc.devRef .tc main_v69 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) := by
  simp only [opsD2]
  after_results_simp
  rfl

set_option maxRecDepth 8192 in
theorem N2_val (V : Valuation τ sig (Elt F)) :
    after opsN2 V (Proc.devRef .tc main_v84 : DevRef τ sig) = layerNorm (V (Proc.devRef .tc main_v79 : DevRef τ sig)) := by
  simp only [opsN2]
  after_results_simp
  rfl

theorem C_val (V : Valuation τ sig (Elt F)) :
    after opsC V (Proc.devRef .tc main_v85 : DevRef τ sig) = beside (V (Proc.devRef .tc main_v0 : DevRef τ sig)) (V (Proc.devRef .tc main_v28 : DevRef τ sig)) (V (Proc.devRef .tc main_v56 : DevRef τ sig)) (V (Proc.devRef .tc main_v84 : DevRef τ sig)) := by
  simp only [opsC]
  after_results_simp
  rfl

/-! ## The stretches composed

    The contents after the first `i` stretches, from launch contents `V0`, and what the live buffers hold there. -/

/-- The four tables of the result, as functions of the launch contents. -/
def tbl0 (V0 : Valuation τ sig (Elt F)) : Tbl F := ego0 (V0 (Proc.devRef .tc main_arg0 : DevRef τ sig)) (V0 (Proc.devRef .tc main_arg1 : DevRef τ sig))
def tbl1 (V0 : Valuation τ sig (Elt F)) : Tbl F := ego1 (tbl0 V0) (V0 (Proc.devRef .tc main_arg2 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg14 : DevRef τ sig)) (V0 (Proc.devRef .tc main_arg15 : DevRef τ sig)) (V0 (Proc.devRef .tc main_arg16 : DevRef τ sig))
def tbl2 (V0 : Valuation τ sig (Elt F)) : Tbl F := ego1 (tbl1 V0) (V0 (Proc.devRef .tc main_arg6 : DevRef τ sig)) (V0 (Proc.devRef .tc main_arg7 : DevRef τ sig)) (V0 (Proc.devRef .tc main_arg8 : DevRef τ sig)) (V0 (Proc.devRef .tc main_arg9 : DevRef τ sig)) (V0 (Proc.devRef .tc main_arg14 : DevRef τ sig)) (V0 (Proc.devRef .tc main_arg15 : DevRef τ sig)) (V0 (Proc.devRef .tc main_arg16 : DevRef τ sig))
def tbl3 (V0 : Valuation τ sig (Elt F)) : Tbl F := ego1 (tbl2 V0) (V0 (Proc.devRef .tc main_arg10 : DevRef τ sig)) (V0 (Proc.devRef .tc main_arg11 : DevRef τ sig)) (V0 (Proc.devRef .tc main_arg12 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig))

def val1 (V0 : Valuation τ sig (Elt F)) : Valuation τ sig (Elt F) := after opsE0 (V0)
def val2 (V0 : Valuation τ sig (Elt F)) : Valuation τ sig (Elt F) := after opsS0 (val1 V0)
def val3 (V0 : Valuation τ sig (Elt F)) : Valuation τ sig (Elt F) := after opsD0 (val2 V0)
def val4 (V0 : Valuation τ sig (Elt F)) : Valuation τ sig (Elt F) := after opsN0 (val3 V0)
def val5 (V0 : Valuation τ sig (Elt F)) : Valuation τ sig (Elt F) := after opsS1 (val4 V0)
def val6 (V0 : Valuation τ sig (Elt F)) : Valuation τ sig (Elt F) := after opsD1 (val5 V0)
def val7 (V0 : Valuation τ sig (Elt F)) : Valuation τ sig (Elt F) := after opsN1 (val6 V0)
def val8 (V0 : Valuation τ sig (Elt F)) : Valuation τ sig (Elt F) := after opsS2 (val7 V0)
def val9 (V0 : Valuation τ sig (Elt F)) : Valuation τ sig (Elt F) := after opsD2 (val8 V0)
def val10 (V0 : Valuation τ sig (Elt F)) : Valuation τ sig (Elt F) := after opsN2 (val9 V0)
def val11 (V0 : Valuation τ sig (Elt F)) : Valuation τ sig (Elt F) := after opsC (val10 V0)

/-- A buffer no stretch writes: the seventeen arguments are such. -/
abbrev Untouched (r : Ref sig .tc) : Prop :=
  r ∉ W_E0 ∧ r ∉ W_S0 ∧ r ∉ W_D0 ∧ r ∉ W_N0 ∧ r ∉ W_S1 ∧ r ∉ W_D1 ∧ r ∉ W_N1 ∧ r ∉ W_S2 ∧ r ∉ W_D2 ∧ r ∉ W_N2 ∧ r ∉ W_C

theorem val1_arg (V0 : Valuation τ sig (Elt F)) (r : Ref sig .tc) (h : Untouched r) : val1 V0 (Proc.devRef .tc r) = V0 (Proc.devRef .tc r) :=
  keepE0 V0 r h.1
theorem val2_arg (V0 : Valuation τ sig (Elt F)) (r : Ref sig .tc) (h : Untouched r) : val2 V0 (Proc.devRef .tc r) = V0 (Proc.devRef .tc r) :=
  (keepS0 (val1 V0) r h.2.1).trans (val1_arg V0 r h)
theorem val3_arg (V0 : Valuation τ sig (Elt F)) (r : Ref sig .tc) (h : Untouched r) : val3 V0 (Proc.devRef .tc r) = V0 (Proc.devRef .tc r) :=
  (keepD0 (val2 V0) r h.2.2.1).trans (val2_arg V0 r h)
theorem val4_arg (V0 : Valuation τ sig (Elt F)) (r : Ref sig .tc) (h : Untouched r) : val4 V0 (Proc.devRef .tc r) = V0 (Proc.devRef .tc r) :=
  (keepN0 (val3 V0) r h.2.2.2.1).trans (val3_arg V0 r h)
theorem val5_arg (V0 : Valuation τ sig (Elt F)) (r : Ref sig .tc) (h : Untouched r) : val5 V0 (Proc.devRef .tc r) = V0 (Proc.devRef .tc r) :=
  (keepS1 (val4 V0) r h.2.2.2.2.1).trans (val4_arg V0 r h)
theorem val6_arg (V0 : Valuation τ sig (Elt F)) (r : Ref sig .tc) (h : Untouched r) : val6 V0 (Proc.devRef .tc r) = V0 (Proc.devRef .tc r) :=
  (keepD1 (val5 V0) r h.2.2.2.2.2.1).trans (val5_arg V0 r h)
theorem val7_arg (V0 : Valuation τ sig (Elt F)) (r : Ref sig .tc) (h : Untouched r) : val7 V0 (Proc.devRef .tc r) = V0 (Proc.devRef .tc r) :=
  (keepN1 (val6 V0) r h.2.2.2.2.2.2.1).trans (val6_arg V0 r h)
theorem val8_arg (V0 : Valuation τ sig (Elt F)) (r : Ref sig .tc) (h : Untouched r) : val8 V0 (Proc.devRef .tc r) = V0 (Proc.devRef .tc r) :=
  (keepS2 (val7 V0) r h.2.2.2.2.2.2.2.1).trans (val7_arg V0 r h)
theorem val9_arg (V0 : Valuation τ sig (Elt F)) (r : Ref sig .tc) (h : Untouched r) : val9 V0 (Proc.devRef .tc r) = V0 (Proc.devRef .tc r) :=
  (keepD2 (val8 V0) r h.2.2.2.2.2.2.2.2.1).trans (val8_arg V0 r h)
theorem val10_arg (V0 : Valuation τ sig (Elt F)) (r : Ref sig .tc) (h : Untouched r) : val10 V0 (Proc.devRef .tc r) = V0 (Proc.devRef .tc r) :=
  (keepN2 (val9 V0) r h.2.2.2.2.2.2.2.2.2.1).trans (val9_arg V0 r h)
theorem val11_arg (V0 : Valuation τ sig (Elt F)) (r : Ref sig .tc) (h : Untouched r) : val11 V0 (Proc.devRef .tc r) = V0 (Proc.devRef .tc r) :=
  (keepC (val10 V0) r h.2.2.2.2.2.2.2.2.2.2).trans (val10_arg V0 r h)

theorem val1_v0 (V0 : Valuation τ sig (Elt F)) : val1 V0 (Proc.devRef .tc main_v0 : DevRef τ sig) = tbl0 V0 := E0_val V0
theorem val2_v0 (V0 : Valuation τ sig (Elt F)) : val2 V0 (Proc.devRef .tc main_v0 : DevRef τ sig) = tbl0 V0 :=
  (keepS0 (val1 V0) main_v0 (by decide)).trans (val1_v0 V0)
theorem val2_v13 (V0 : Valuation τ sig (Elt F)) : val2 V0 (Proc.devRef .tc main_v13 : DevRef τ sig) = spmm (tbl0 V0) (V0 (Proc.devRef .tc main_arg14 : DevRef τ sig)) (V0 (Proc.devRef .tc main_arg15 : DevRef τ sig)) (V0 (Proc.devRef .tc main_arg16 : DevRef τ sig)) := by
  unfold val2
  rw [S0_val, val1_v0, val1_arg V0 main_arg14 (by decide), val1_arg V0 main_arg15 (by decide), val1_arg V0 main_arg16 (by decide)]
theorem val3_v0 (V0 : Valuation τ sig (Elt F)) : val3 V0 (Proc.devRef .tc main_v0 : DevRef τ sig) = tbl0 V0 :=
  (keepD0 (val2 V0) main_v0 (by decide)).trans (val2_v0 V0)
theorem val3_v23 (V0 : Valuation τ sig (Elt F)) : val3 V0 (Proc.devRef .tc main_v23 : DevRef τ sig) = tbl1 V0 := by
  unfold val3 tbl1 ego1
  rw [D0_val, val2_v0, val2_v13, val2_arg V0 main_arg2 (by decide), val2_arg V0 main_arg3 (by decide), val2_arg V0 main_arg4 (by decide), val2_arg V0 main_arg5 (by decide)]
theorem val4_v0 (V0 : Valuation τ sig (Elt F)) : val4 V0 (Proc.devRef .tc main_v0 : DevRef τ sig) = tbl0 V0 :=
  (keepN0 (val3 V0) main_v0 (by decide)).trans (val3_v0 V0)
theorem val4_v23 (V0 : Valuation τ sig (Elt F)) : val4 V0 (Proc.devRef .tc main_v23 : DevRef τ sig) = tbl1 V0 :=
  (keepN0 (val3 V0) main_v23 (by decide)).trans (val3_v23 V0)
theorem val4_v28 (V0 : Valuation τ sig (Elt F)) : val4 V0 (Proc.devRef .tc main_v28 : DevRef τ sig) = layerNorm (tbl1 V0) := by
  unfold val4
  rw [N0_val, val3_v23]
theorem val5_v0 (V0 : Valuation τ sig (Elt F)) : val5 V0 (Proc.devRef .tc main_v0 : DevRef τ sig) = tbl0 V0 :=
  (keepS1 (val4 V0) main_v0 (by decide)).trans (val4_v0 V0)
theorem val5_v23 (V0 : Valuation τ sig (Elt F)) : val5 V0 (Proc.devRef .tc main_v23 : DevRef τ sig) = tbl1 V0 :=
  (keepS1 (val4 V0) main_v23 (by decide)).trans (val4_v23 V0)
theorem val5_v28 (V0 : Valuation τ sig (Elt F)) : val5 V0 (Proc.devRef .tc main_v28 : DevRef τ sig) = layerNorm (tbl1 V0) :=
  (keepS1 (val4 V0) main_v28 (by decide)).trans (val4_v28 V0)
theorem val5_v41 (V0 : Valuation τ sig (Elt F)) : val5 V0 (Proc.devRef .tc main_v41 : DevRef τ sig) = spmm (tbl1 V0) (V0 (Proc.devRef .tc main_arg14 : DevRef τ sig)) (V0 (Proc.devRef .tc main_arg15 : DevRef τ sig)) (V0 (Proc.devRef .tc main_arg16 : DevRef τ sig)) := by
  unfold val5
  rw [S1_val, val4_v23, val4_arg V0 main_arg14 (by decide), val4_arg V0 main_arg15 (by decide), val4_arg V0 main_arg16 (by decide)]
theorem val6_v0 (V0 : Valuation τ sig (Elt F)) : val6 V0 (Proc.devRef .tc main_v0 : DevRef τ sig) = tbl0 V0 :=
  (keepD1 (val5 V0) main_v0 (by decide)).trans (val5_v0 V0)
theorem val6_v28 (V0 : Valuation τ sig (Elt F)) : val6 V0 (Proc.devRef .tc main_v28 : DevRef τ sig) = layerNorm (tbl1 V0) :=
  (keepD1 (val5 V0) main_v28 (by decide)).trans (val5_v28 V0)
theorem val6_v51 (V0 : Valuation τ sig (Elt F)) : val6 V0 (Proc.devRef .tc main_v51 : DevRef τ sig) = tbl2 V0 := by
  unfold val6 tbl2 ego1
  rw [D1_val, val5_v23, val5_v41, val5_arg V0 main_arg6 (by decide), val5_arg V0 main_arg7 (by decide), val5_arg V0 main_arg8 (by decide), val5_arg V0 main_arg9 (by decide)]
theorem val7_v0 (V0 : Valuation τ sig (Elt F)) : val7 V0 (Proc.devRef .tc main_v0 : DevRef τ sig) = tbl0 V0 :=
  (keepN1 (val6 V0) main_v0 (by decide)).trans (val6_v0 V0)
theorem val7_v28 (V0 : Valuation τ sig (Elt F)) : val7 V0 (Proc.devRef .tc main_v28 : DevRef τ sig) = layerNorm (tbl1 V0) :=
  (keepN1 (val6 V0) main_v28 (by decide)).trans (val6_v28 V0)
theorem val7_v51 (V0 : Valuation τ sig (Elt F)) : val7 V0 (Proc.devRef .tc main_v51 : DevRef τ sig) = tbl2 V0 :=
  (keepN1 (val6 V0) main_v51 (by decide)).trans (val6_v51 V0)
theorem val7_v56 (V0 : Valuation τ sig (Elt F)) : val7 V0 (Proc.devRef .tc main_v56 : DevRef τ sig) = layerNorm (tbl2 V0) := by
  unfold val7
  rw [N1_val, val6_v51]
theorem val8_v0 (V0 : Valuation τ sig (Elt F)) : val8 V0 (Proc.devRef .tc main_v0 : DevRef τ sig) = tbl0 V0 :=
  (keepS2 (val7 V0) main_v0 (by decide)).trans (val7_v0 V0)
theorem val8_v28 (V0 : Valuation τ sig (Elt F)) : val8 V0 (Proc.devRef .tc main_v28 : DevRef τ sig) = layerNorm (tbl1 V0) :=
  (keepS2 (val7 V0) main_v28 (by decide)).trans (val7_v28 V0)
theorem val8_v51 (V0 : Valuation τ sig (Elt F)) : val8 V0 (Proc.devRef .tc main_v51 : DevRef τ sig) = tbl2 V0 :=
  (keepS2 (val7 V0) main_v51 (by decide)).trans (val7_v51 V0)
theorem val8_v56 (V0 : Valuation τ sig (Elt F)) : val8 V0 (Proc.devRef .tc main_v56 : DevRef τ sig) = layerNorm (tbl2 V0) :=
  (keepS2 (val7 V0) main_v56 (by decide)).trans (val7_v56 V0)
theorem val8_v69 (V0 : Valuation τ sig (Elt F)) : val8 V0 (Proc.devRef .tc main_v69 : DevRef τ sig) = spmm (tbl2 V0) (V0 (Proc.devRef .tc main_arg14 : DevRef τ sig)) (V0 (Proc.devRef .tc main_arg15 : DevRef τ sig)) (V0 (Proc.devRef .tc main_arg16 : DevRef τ sig)) := by
  unfold val8
  rw [S2_val, val7_v51, val7_arg V0 main_arg14 (by decide), val7_arg V0 main_arg15 (by decide), val7_arg V0 main_arg16 (by decide)]
theorem val9_v0 (V0 : Valuation τ sig (Elt F)) : val9 V0 (Proc.devRef .tc main_v0 : DevRef τ sig) = tbl0 V0 :=
  (keepD2 (val8 V0) main_v0 (by decide)).trans (val8_v0 V0)
theorem val9_v28 (V0 : Valuation τ sig (Elt F)) : val9 V0 (Proc.devRef .tc main_v28 : DevRef τ sig) = layerNorm (tbl1 V0) :=
  (keepD2 (val8 V0) main_v28 (by decide)).trans (val8_v28 V0)
theorem val9_v56 (V0 : Valuation τ sig (Elt F)) : val9 V0 (Proc.devRef .tc main_v56 : DevRef τ sig) = layerNorm (tbl2 V0) :=
  (keepD2 (val8 V0) main_v56 (by decide)).trans (val8_v56 V0)
theorem val9_v79 (V0 : Valuation τ sig (Elt F)) : val9 V0 (Proc.devRef .tc main_v79 : DevRef τ sig) = tbl3 V0 := by
  unfold val9 tbl3 ego1
  rw [D2_val, val8_v51, val8_v69, val8_arg V0 main_arg10 (by decide), val8_arg V0 main_arg11 (by decide), val8_arg V0 main_arg12 (by decide), val8_arg V0 main_arg13 (by decide)]
theorem val10_v0 (V0 : Valuation τ sig (Elt F)) : val10 V0 (Proc.devRef .tc main_v0 : DevRef τ sig) = tbl0 V0 :=
  (keepN2 (val9 V0) main_v0 (by decide)).trans (val9_v0 V0)
theorem val10_v28 (V0 : Valuation τ sig (Elt F)) : val10 V0 (Proc.devRef .tc main_v28 : DevRef τ sig) = layerNorm (tbl1 V0) :=
  (keepN2 (val9 V0) main_v28 (by decide)).trans (val9_v28 V0)
theorem val10_v56 (V0 : Valuation τ sig (Elt F)) : val10 V0 (Proc.devRef .tc main_v56 : DevRef τ sig) = layerNorm (tbl2 V0) :=
  (keepN2 (val9 V0) main_v56 (by decide)).trans (val9_v56 V0)
theorem val10_v84 (V0 : Valuation τ sig (Elt F)) : val10 V0 (Proc.devRef .tc main_v84 : DevRef τ sig) = layerNorm (tbl3 V0) := by
  unfold val10
  rw [N2_val, val9_v79]

/-- After the last stretch the result buffer holds the whole composed term. -/
theorem val11_v85 (V0 : Valuation τ sig (Elt F)) :
    val11 V0 (Proc.devRef .tc main_v85 : DevRef τ sig) = refOut (V0 (Proc.devRef .tc main_arg0 : DevRef τ sig)) (V0 (Proc.devRef .tc main_arg1 : DevRef τ sig)) (V0 (Proc.devRef .tc main_arg2 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig)) (V0 (Proc.devRef .tc main_arg13 : DevRef τ sig)) (V0 (Proc.devRef .tc main_arg14 : DevRef τ sig)) (V0 (Proc.devRef .tc main_arg15 : DevRef τ sig)) (V0 (Proc.devRef .tc main_arg16 : DevRef τ sig)) := by
  unfold val11
  rw [C_val, val10_v0, val10_v28, val10_v56, val10_v84]
  rfl

theorem after_ops (V0 : Valuation τ sig (Elt F)) : after ops V0 = val11 V0 := by
  simp only [ops, after_append]
  rfl

/-- On every device, for any float values, from any memory with zero counters: every weakly fair execution of the
    program terminates with the result buffer at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v85) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v85).trans (by rw [after_ops]; exact val11_v85 (launchContents m c)),
      (h c main_arg0).trans (by rw [after_ops]; exact val11_arg (launchContents m c) main_arg0 (by decide)),
      (h c main_arg1).trans (by rw [after_ops]; exact val11_arg (launchContents m c) main_arg1 (by decide)),
      (h c main_arg2).trans (by rw [after_ops]; exact val11_arg (launchContents m c) main_arg2 (by decide)),
      (h c main_arg3).trans (by rw [after_ops]; exact val11_arg (launchContents m c) main_arg3 (by decide)),
      (h c main_arg4).trans (by rw [after_ops]; exact val11_arg (launchContents m c) main_arg4 (by decide)),
      (h c main_arg5).trans (by rw [after_ops]; exact val11_arg (launchContents m c) main_arg5 (by decide)),
      (h c main_arg6).trans (by rw [after_ops]; exact val11_arg (launchContents m c) main_arg6 (by decide)),
      (h c main_arg7).trans (by rw [after_ops]; exact val11_arg (launchContents m c) main_arg7 (by decide)),
      (h c main_arg8).trans (by rw [after_ops]; exact val11_arg (launchContents m c) main_arg8 (by decide)),
      (h c main_arg9).trans (by rw [after_ops]; exact val11_arg (launchContents m c) main_arg9 (by decide)),
      (h c main_arg10).trans (by rw [after_ops]; exact val11_arg (launchContents m c) main_arg10 (by decide)),
      (h c main_arg11).trans (by rw [after_ops]; exact val11_arg (launchContents m c) main_arg11 (by decide)),
      (h c main_arg12).trans (by rw [after_ops]; exact val11_arg (launchContents m c) main_arg12 (by decide)),
      (h c main_arg13).trans (by rw [after_ops]; exact val11_arg (launchContents m c) main_arg13 (by decide)),
      (h c main_arg14).trans (by rw [after_ops]; exact val11_arg (launchContents m c) main_arg14 (by decide)),
      (h c main_arg15).trans (by rw [after_ops]; exact val11_arg (launchContents m c) main_arg15 (by decide)),
      (h c main_arg16).trans (by rw [after_ops]; exact val11_arg (launchContents m c) main_arg16 (by decide))⟩)
    (run_seq scopedRefs_eq scopedSems_eq defs main (fun _ => ops) main_eq (fun _ => ops_sub) m ρ)

end Cert.ReferenceIdeal.Hand

end
-- ==== Proof.lean ====
/-
  The certificate of the three-layer graph-convolution kernel against its jnp reference.

  Both programs start from the table of user rows above item rows and apply three times: the sparse product of the
  table with the weighted edge list (the same host operations in both programs), then the layer's dense function
    ego' = lrelu (side · Wg + bg) + lrelu ((ego ∘ side) · Wb + bb),   out = ego' / max (‖ego'‖₂ per row, 1e-12).
  The reference applies that function to whole tables; the kernel applies it to 25 blocks of 6000 rows in a
  pallas_call, rounding the matrix products' operands to bf16, which is the identity on the extended reals. Row by row
  the two are one function, so each layer leaves the same two tables, and the results — the starting table beside the
  three normalised ones — are equal. No finiteness is used: every step is the same operation on both sides.
  The frames: every host stretch and every pallas_call runs to its end and writes only its own values.
-/
import proofs.«161637_j18365280158072_1_alg».proof.Defs
import proofs.«161637_j18365280158072_1_alg».proof.Proof.Gen.Kernel
import proofs.«161637_j18365280158072_1_alg».proof.Proof.Gen.KernelIdeal
import proofs.«161637_j18365280158072_1_alg».proof.Proof.Gen.ReferenceIdeal
import proofs.«161637_j18365280158072_1_alg».proof.Proof.Gen.Pre_finite_inputs
import proofs.«161637_j18365280158072_1_alg».proof.Proof.KRun
import proofs.«161637_j18365280158072_1_alg».proof.Proof.KIRun
import proofs.«161637_j18365280158072_1_alg».proof.Proof.KITop
import proofs.«161637_j18365280158072_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing: the idealized kernel is the kernel's own text read on the extended reals. -/
theorem preserves : Cert.preserves_Kernel_KernelIdeal := trivial

/-- The kernel's result term and the reference's are one term of the argument arrays: the sparse product, the
    concatenations and the layer functions are the same operations in both programs. -/
theorem result_eq (m : (ℓ : Loc Cert.KernelIdeal.nD Cert.KernelIdeal.τ Cert.KernelIdeal.sig) → Buf (Elt Ideal) ℓ) (c : Dev Cert.KernelIdeal.nD) :
    Cert.ReferenceIdeal.Hand.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
    = Cert.KernelIdeal.Hand.besideK (Cert.KernelIdeal.Hand.E0 m c) (Cert.ReferenceIdeal.Hand.layerNorm (Cert.KernelIdeal.Hand.E1 m c))
        (Cert.ReferenceIdeal.Hand.layerNorm (Cert.KernelIdeal.Hand.E2 m c)) (Cert.ReferenceIdeal.Hand.layerNorm (Cert.KernelIdeal.Hand.E3 m c)) := rfl

theorem algebraic : Cert.algebraic_KernelIdeal_ReferenceIdeal := by
  intro m ρ m' ρ' _ hagree
  refine ⟨fun c => Cert.KernelIdeal.Hand.besideK (Cert.KernelIdeal.Hand.E0 m c) (Cert.ReferenceIdeal.Hand.layerNorm (Cert.KernelIdeal.Hand.E1 m c))
    (Cert.ReferenceIdeal.Hand.layerNorm (Cert.KernelIdeal.Hand.E2 m c)) (Cert.ReferenceIdeal.Hand.layerNorm (Cert.KernelIdeal.Hand.E3 m c)), ?_, ?_⟩
  · exact (θ_run Cert.KernelIdeal.defs _ _).mono (fun r h c => ⟨(h c).1.trans (Cert.KernelIdeal.Hand.W7_out m c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]
    exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
